-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x512 : Shape := ⟨3, ![128, 64, 512]⟩
abbrev S8192 : Shape := ⟨1, ![8192]⟩
abbrev S8192x8192 : Shape := ⟨2, ![8192, 8192]⟩
abbrev S512x512 : Shape := ⟨2, ![512, 512]⟩
abbrev S512 : Shape := ⟨1, ![512]⟩
abbrev S_ : Shape := ⟨0, ![]⟩

class Facts : Prop where
  bcast_S_S128x64x512 : S_.BroadcastsInDim S128x64x512 (![] : Fin 0 → Fin S128x64x512.rank)
  reducesTo_S128x64x512_S_d0_1_2 : S128x64x512.ReducesTo [0, 1, 2] S_
  h_S_ : 0 < S_.numel
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S512x512 .f32) (main_arg13 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S128x64x512 .f32) (main_arg1 : FVec F S8192 .f32) (main_arg2 : FVec F S8192x8192 .f32) (main_arg3 : FVec F S8192x8192 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) : IVec S_ 1 :=
  let main_v0 : FVec F S128x64x512 .f32 := Host.absf main_arg0
  let main_cst : FVec F S_ .f32 := constant S_ .f32 0x7F800000#32
  let main_v1 : FVec F S128x64x512 .f32 := broadcastInDim S128x64x512 ![] bcast_S_S128x64x512 main_cst
  let main_v2 : IVec S128x64x512 1 := cmpf .olt main_v0 main_v1
  let main_c : IVec S_ 1 := constantI S_ 1 1#1
  let main_v3 : IVec S_ 1 := (fun x v => Host.reduce IntOp.andi x v reducesTo_S128x64x512_S_d0_1_2 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_arg10 main_arg11 main_arg12 main_arg13 main_v13 main_v16
-- ==== Kernel.lean ====
abbrev S128x64x512 : Shape := ⟨3, ![128, 64, 512]⟩
abbrev S8192 : Shape := ⟨1, ![8192]⟩
abbrev S8192x8192 : Shape := ⟨2, ![8192, 8192]⟩
abbrev S512x512 : Shape := ⟨2, ![512, 512]⟩
abbrev S512 : Shape := ⟨1, ![512]⟩
abbrev S8192x512 : Shape := ⟨2, ![8192, 512]⟩
abbrev S1x8192 : Shape := ⟨2, ![1, 8192]⟩
abbrev S_ : Shape := ⟨0, ![]⟩
abbrev S1x1 : Shape := ⟨2, ![1, 1]⟩
abbrev S1x512 : Shape := ⟨2, ![1, 512]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 38
  | .vmem => 24
  | .smem => 0
  | _ => 0

abbrev bufTy : (tb : Table) → Fin (tcTables nBuf tb) → BufTy
  | .hbm, ⟨0, _⟩ => ⟨S128x64x512, .f32⟩
  | .hbm, ⟨1, _⟩ => ⟨S8192, .f32⟩
  | .hbm, ⟨2, _⟩ => ⟨S8192x8192, .f32⟩
  | .hbm, ⟨3, _⟩ => ⟨S8192x8192, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S8192x512, .f32⟩
  | .hbm, ⟨15, _⟩ => ⟨S8192x512, .bf16⟩
  | .hbm, ⟨16, _⟩ => ⟨S1x8192, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S512x512, .f32⟩
  | .hbm, ⟨21, _⟩ => ⟨S512x512, .bf16⟩
  | .hbm, ⟨22, _⟩ => ⟨S1x512, .f32⟩
  | .hbm, ⟨23, _⟩ => ⟨S1x512, .f32⟩
  | .hbm, ⟨24, _⟩ => ⟨S512x512, .f32⟩
  | .hbm, ⟨25, _⟩ => ⟨S512x512, .bf16⟩
  | .hbm, ⟨26, _⟩ => ⟨S512x512, .f32⟩
  | .hbm, ⟨27, _⟩ => ⟨S512x512, .bf16⟩
  | .hbm, ⟨28, _⟩ => ⟨S512x512, .f32⟩
  | .hbm, ⟨29, _⟩ => ⟨S512x512, .bf16⟩
  | .hbm, ⟨30, _⟩ => ⟨S512x512, .f32⟩
  | .hbm, ⟨31, _⟩ => ⟨S512x512, .bf16⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S8192x512, .f32⟩
  | .hbm, ⟨37, _⟩ => ⟨S128x64x512, .f32⟩
  | .local _ .vmem, ⟨0, _⟩ => ⟨S8192x512, .bf16⟩
  | .local _ .vmem, ⟨1, _⟩ => ⟨S1x8192, .f32⟩
  | .local _ .vmem, ⟨2, _⟩ => ⟨S512x512, .bf16⟩
  | .local _ .vmem, ⟨3, _⟩ => ⟨S1x512, .f32⟩
  | .local _ .vmem, ⟨4, _⟩ => ⟨S1x1, .f32⟩
  | .local _ .vmem, ⟨5, _⟩ => ⟨S1x512, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .f32⟩
  | .local _ .vmem, ⟨10, _⟩ => ⟨S8192x512, .bf16⟩
  | .local _ .vmem, ⟨11, _⟩ => ⟨S512x512, .bf16⟩
  | .local _ .vmem, ⟨12, _⟩ => ⟨S1x512, .f32⟩
  | .local _ .vmem, ⟨13, _⟩ => ⟨S512x512, .bf16⟩
  | .local _ .vmem, ⟨14, _⟩ => ⟨S1x512, .f32⟩
  | .local _ .vmem, ⟨15, _⟩ => ⟨S512x512, .bf16⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S1x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | _, _ => ⟨S128x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg12_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem12_1 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v7 : BitVec 32 := Scalar.muli arg1 c2048_i32
  v7
def k1_off1 (i : grid1.Coords) : Fin 2 → Nat :=
  let arg1 : BitVec 32 := BitVec.ofNat 32 (i 1).val
  let c2048_i32 : BitVec 32 := 2048#32
  let v7 : BitVec 32 := Scalar.muli arg1 c2048_i32
  let v8 : BitVec 32 := v7
  let v9 : Index := Scalar.indexCast v8
  let c0_4 : Index := 0#32
  ![v9.toNat, 0]
def k1_cond2 (i : grid1.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_14 : BitVec 32 := 0#32
  let v26 : BitVec 1 := Scalar.cmpi .ne v25 c0_i32_14
  v26

def k1_mult2 (i : grid1.Coords) : BitVec 32 :=
  let arg0 : BitVec 32 := BitVec.ofNat 32 (i 0).val
  let c1024_i32 : BitVec 32 := 1024#32
  let v27 : BitVec 32 := Scalar.muli arg0 c1024_i32
  v27
def k1_off2 (i : grid1.Coords) : Fin 2 → Nat :=
  let arg0 : BitVec 32 := BitVec.ofNat 32 (i 0).val
  let c1024_i32 : BitVec 32 := 1024#32
  let v27 : BitVec 32 := Scalar.muli arg0 c1024_i32
  let v28 : BitVec 32 := v27
  let v29 : Index := Scalar.indexCast v28
  let c0_15 : Index := 0#32
  ![v29.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S8192x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S512x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S512x512 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 2 → Memref sig .tc .vmem S1024x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

class Facts₀ : Prop where
  shapeCasts_S128x64x512_S8192x512 : S128x64x512.ShapeCasts S8192x512
  bitsLt_bf16_f32 : FTy.bits .bf16 < FTy.bits .f32
  shapeCasts_S8192_S1x8192 : S8192.ShapeCasts S1x8192
  reducesTo_S8192_S_d0 : S8192.ReducesTo [0] S_
  h_S_ : 0 < S_.numel
  shapeCasts_S_S1x1 : S_.ShapeCasts S1x1
  transposes_S512x512_S512x512_1_0 : S512x512.Transposes [1, 0] S512x512
  shapeCasts_S512_S1x512 : S512.ShapeCasts S1x512
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8192x512 : S1x512.Broadcasts S8192x512
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  h_S2048x512 : 0 < S2048x512.numel
  shapeCasts_S2048x512_S2048x512 : S2048x512.ShapeCasts S2048x512
  broadcasts_S1x512_S1024x512 : S1x512.Broadcasts S1024x512
  shapeCasts_S8192x512_S128x64x512 : S8192x512.ShapeCasts S128x64x512
  dot_S8192x512_S512x512_S8192x512_1_0_0_1_n_n_wf : DotDims.WF S8192x512 S512x512 S8192x512 [1] [0] [0] [1] [] []
  dot_S1x8192_S8192x512_S1x512_1_0_0_1_n_n_wf : DotDims.WF S1x8192 S8192x512 S1x512 [1] [0] [0] [1] [] []
  dot_S1024x2048_S2048x512_S1024x512_1_0_0_1_n_n_wf : DotDims.WF S1024x2048 S2048x512 S1024x512 [1] [0] [0] [1] [] []
  dot_S1024x512_S512x512_S1024x512_1_0_0_1_n_n_wf : DotDims.WF S1024x512 S512x512 S1024x512 [1] [0] [0] [1] [] []
  dot_S1x512_S512x512_S1x512_1_0_0_1_n_n_wf : DotDims.WF S1x512 S512x512 S1x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S8192x512.size a
  hwx0_0 : ∀ i : grid0.Coords, EltTy.bits .bf16 = 32 ∨ (Rect.block (s := S8192x512) S8192x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x512.size a ≤ S8192x512.size a
  k1_mult2_dvd : ∀ i : grid1.Coords, ∀ (k1_h2 : k1_cond2 i = 1#1), 1024 ∣ (k1_mult2 i).toNat
  k1_off2_inb : ∀ i : grid1.Coords, ∀ (k1_h2 : k1_cond2 i = 1#1), ∀ a, (k1_off2 i) a + S1024x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S8192x8192.size a
  hwx1_1 : ∀ i : grid1.Coords, EltTy.bits .f32 = 32 ∨ (Rect.block (s := S8192x8192) S1024x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x512.size a ≤ S8192x512.size a
  hwx1_2 : ∀ i : grid1.Coords, EltTy.bits .bf16 = 32 ∨ (Rect.block (s := S8192x512) S8192x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .bf16 = 32 ∨ (Rect.block (s := S512x512) S512x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x512.size a ≤ S512x512.size a
  hwx1_7 : ∀ i : grid1.Coords, EltTy.bits .bf16 = 32 ∨ (Rect.block (s := S512x512) S512x512.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x512.size a ≤ S1x512.size a
  hwx1_9 : ∀ i : grid1.Coords, EltTy.bits .f32 = 32 ∨ (Rect.block (s := S1x512) S1x512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S512x512.size a ≤ S512x512.size a
  hwx1_10 : ∀ i : grid1.Coords, EltTy.bits .bf16 = 32 ∨ (Rect.block (s := S512x512) S512x512.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x512.size a ≤ S1x512.size a
  hwx1_11 : ∀ i : grid1.Coords, EltTy.bits .f32 = 32 ∨ (Rect.block (s := S1x512) S1x512.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1024x512.size a ≤ S8192x512.size a
  hwx1_12 : ∀ i : grid1.Coords, EltTy.bits .f32 = 32 ∨ (Rect.block (s := S8192x512) S1024x512.size (cc1_transform_12 i) (hinb1_12 i)).WholeWords (EltTy.packing .f32)

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S1x8192_S8192x512_S1x512_1_0_0_1_n_n : DotDims S1x8192 S8192x512 S1x512 where
  lhsContracting := [1]
  rhsContracting := [0]
  lhsNonContracting := [0]
  rhsNonContracting := [1]
  lhsBatch := []
  rhsBatch := []
  wf := dot_S1x8192_S8192x512_S1x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf

abbrev win0_0 : Pipeline.Window sig grid0 :=
  Pipeline.Window.ofSpec (Memref.whole main_v1) S8192x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8192x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14) S512x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v8) S1x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v16) S512x512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v20) S1x512.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v21) S1024x512.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev idle1 : Fin 13 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k1_cond2 i == 1#1) | ⟨_ + 13, h⟩ => absurd h (Nat.not_lt.2 (Nat.le_add_left _ _))

class Facts : Prop extends Facts₀ where

variable [Facts]
-- ==== ReferenceIdeal.lean ====
abbrev S128x64x512 : Shape := ⟨3, ![128, 64, 512]⟩
abbrev S8192 : Shape := ⟨1, ![8192]⟩
abbrev S8192x8192 : Shape := ⟨2, ![8192, 8192]⟩
abbrev S512x512 : Shape := ⟨2, ![512, 512]⟩
abbrev S512 : Shape := ⟨1, ![512]⟩
abbrev S8192x512 : Shape := ⟨2, ![8192, 512]⟩
abbrev S1x512 : Shape := ⟨2, ![1, 512]⟩
abbrev S_ : Shape := ⟨0, ![]⟩
abbrev S1x8192 : Shape := ⟨2, ![1, 8192]⟩

abbrev nBuf : Space → Nat
  | .hbm => 58
  | .vmem => 0
  | .smem => 0
  | _ => 0

abbrev bufTy : (tb : Table) → Fin (tcTables nBuf tb) → BufTy
  | .hbm, ⟨0, _⟩ => ⟨S128x64x512, .f32⟩
  | .hbm, ⟨1, _⟩ => ⟨S8192, .f32⟩
  | .hbm, ⟨2, _⟩ => ⟨S8192x8192, .f32⟩
  | .hbm, ⟨3, _⟩ => ⟨S8192x8192, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S512x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S512x512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S512x512, .f32⟩
  | .hbm, ⟨29, _⟩ => ⟨S8192x512, .f32⟩
  | .hbm, ⟨30, _⟩ => ⟨S1x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S_, .f32⟩
  | .hbm, ⟨36, _⟩ => ⟨S1x8192, .f32⟩
  | .hbm, ⟨37, _⟩ => ⟨S512x512, .f32⟩
  | .hbm, ⟨38, _⟩ => ⟨S8192x512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S512x512, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S8192x512, .f32⟩
  | .hbm, ⟨56, _⟩ => ⟨S8192x512, .f32⟩
  | .hbm, ⟨57, _⟩ => ⟨S128x64x512, .f32⟩
  | _, _ => ⟨S128x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call1_cst : Ref sig .tc := ⟨.hbm, 54, rfl⟩
abbrev main_call1_v0 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  shapeCasts_S128x64x512_S8192x512 : S128x64x512.ShapeCasts S8192x512
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192_S_d0 : S8192.ReducesTo [0] S_
  h_S_ : 0 < S_.numel
  bcast_S8192_S1x8192_1 : S8192.BroadcastsInDim S1x8192 (![1] : Fin 1 → Fin S1x8192.rank)
  bcast_S_S8192x512 : S_.BroadcastsInDim S8192x512 (![] : Fin 0 → Fin S8192x512.rank)
  bcast_S_S1x512 : S_.BroadcastsInDim S1x512 (![] : Fin 0 → Fin S1x512.rank)
  shapeCasts_S8192x512_S128x64x512 : S8192x512.ShapeCasts S128x64x512
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []
  dot_S1x8192_S8192x512_S1x512_1_0_0_1_n_n_wf : DotDims.WF S1x8192 S8192x512 S1x512 [1] [0] [0] [1] [] []
  dot_S1x512_S512x512_S1x512_1_0_0_1_n_n_wf : DotDims.WF S1x512 S512x512 S1x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S1x8192_S8192x512_S1x512_1_0_0_1_n_n : DotDims S1x8192 S8192x512 S1x512 where
  lhsContracting := [1]
  rhsContracting := [0]
  lhsNonContracting := [0]
  rhsNonContracting := [1]
  lhsBatch := []
  rhsBatch := []
  wf := dot_S1x8192_S8192x512_S1x512_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf

class Facts : Prop extends Facts₀ where

variable [Facts]
-- ==== Proof.KI.R0.lean ====
/-
  The first kernel of the program, on its one grid point: the pooled global feature
      h_g = (mask · relu(X · W_gᵀ + b_g)) / Σ mask
  computed in one step from five operands staged whole (the rows X as a [8192, 512] block, the mask as a row
  [1, 8192], the transposed weight [512, 512], the bias row [1, 512] and the mask's sum as a [1, 1] block) into the
  one [1, 512] block of its result. This module says what the body leaves in that block — one store covering it,
  whose value is the body's arithmetic `k0_pay1` of the five loaded blocks — proves the body's triple, and states
  the proof data of the region at any contents `V` of the core's buffers at the region's entry. Nothing here depends
  on the float instance.
-/
import proofs.«171332_j72834055406175_2_alg».proof.Proof.Gen.KernelIdeal.Launch
import proofs.«171332_j72834055406175_2_alg».proof.Proof.Gen.KernelIdeal.Skeleton
import proofs.«171332_j72834055406175_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The operands' blocks -/

/-- The block of window `w`'s array that grid point `t` addresses, read off the contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 is staged whole at every point: whatever proof data has its array at `V` and leaves the
    block in place finds, in the window's current buffer, the block of the array the point's index selects. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 is staged whole at every point: whatever proof data has its array at `V` and leaves the
    block in place finds, in the window's current buffer, the block of the array the point's index selects. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 is staged whole at every point: whatever proof data has its array at `V` and leaves the
    block in place finds, in the window's current buffer, the block of the array the point's index selects. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 is staged whole at every point: whatever proof data has its array at `V` and leaves the
    block in place finds, in the window's current buffer, the block of the array the point's index selects. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 is staged whole at every point: whatever proof data has its array at `V` and leaves the
    block in place finds, in the window's current buffer, the block of the array the point's index selects. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: every access is the whole buffer -/

abbrev whole0_X : Rect S8192x512 := Rect.unit (s := S8192x512) ![0, 0] S8192x512.size inb_S8192x512_S8192x512_0_0
abbrev whole0_M : Rect S1x8192 := Rect.unit (s := S1x8192) ![0, 0] S1x8192.size inb_S1x8192_S1x8192_0_0
abbrev whole0_W : Rect S512x512 := Rect.unit (s := S512x512) ![0, 0] S512x512.size inb_S512x512_S512x512_0_0
abbrev whole0_B : Rect S1x512 := Rect.unit (s := S1x512) ![0, 0] S1x512.size inb_S1x512_S1x512_0_0
abbrev whole0_N : Rect S1x1 := Rect.unit (s := S1x1) ![0, 0] S1x1.size inb_S1x1_S1x1_0_0

/-! ## What the body leaves in the result's block -/

/-- The result block after the body: its one store, of the body's arithmetic on the five loaded operands
    (rows, mask row, weight, bias row, mask sum — the windows in their order). -/
def out0_5 (x0 : Vec F S8192x512 .bf16) (x1 : Vec F S1x8192 .f32) (x2 : Vec F S512x512 .bf16) (x3 : Vec F S1x512 .f32) (x4 : Vec F S1x1 .f32) :
    Vec F S1x512 .f32 :=
  View.canon [⟨whole0_B, k0_pay1 (View.ld x0 whole0_X) (View.ld x2 whole0_W) (View.ld x3 whole0_B) (View.ld x1 whole0_M) (View.ld x4 whole0_N)⟩]

/-- The one store is of the whole block, so it covers it. -/
theorem cover0_5 (p0 : Vec F S1x512 .f32) (y : S1x512.Idx) :
    ∃ pc ∈ ([⟨whole0_B, p0⟩] : List (View.Piece (Elt F) S1x512 .f32)), y ∈ pc.1.set :=
  View.cover_of_tiled [⟨whole0_B, p0⟩] S1x512.size (by rfl) y

/-! ## The body's triple -/

set_option maxHeartbeats 1000000 in
/-- The body, called on whole buffers holding the five operands and a result buffer at any contents, runs without a
    fault and returns with the operands as they were and the result buffer at `out0_5` of them. -/
theorem sound_kernel0 (c : Dev nD) (E : Set ℕ) (i : grid0.Coords)
    (a1 : Memref sig .tc .vmem S8192x512 .bf16) (h1 : a1.IsWhole) (a2 : Memref sig .tc .vmem S1x8192 .f32) (h2 : a2.IsWhole)
    (a3 : Memref sig .tc .vmem S512x512 .bf16) (h3 : a3.IsWhole) (a4 : Memref sig .tc .vmem S1x512 .f32) (h4 : a4.IsWhole)
    (a5 : Memref sig .tc .vmem S1x1 .f32) (h5 : a5.IsWhole) (a6 : Memref sig .tc .vmem S1x512 .f32) (h6 : a6.IsWhole)
    (x0 : Vec F S8192x512 .bf16) (x1 : Vec F S1x8192 .f32) (x2 : Vec F S512x512 .bf16) (x3 : Vec F S1x512 .f32) (x4 : Vec F S1x1 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (out0_5 x0 x1 x2 x3 x4)) -∗ K ⟨⟩))
      ⊢ wp frame (wpE (defs₀ (F := F)) Variants.none c none) E (cc0__hg_kernel i a1 h1 a2 h2 a3 h3 a4 h4 a5 h5 a6 h6) K := by
  simp only [cc0__hg_kernel_eq_skeleton]; unfold cc0__hg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data of the region -/

/-- The region's proof data on core `c`: the arrays as the region finds them; after the body each operand's buffer
    still at its block and the result's at `out0_5` of the operands' blocks; the invariant is the untouched rest of the
    core's scoped memory and its generator register; nothing is owed to another core; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
/-- The result's block after point `t`: the body's store of its arithmetic on the operands' blocks. -/
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The invariant is the same at both ends of the region. -/
theorem hin0 (c : Dev nD) : Pipeline.ΦA spec0 c ⊢ ((dat0 V c).Φ 0 : sProp 𝕄) := by
  rw [show (dat0 V c).Φ 0 = Pipeline.ΦA spec0 c from rfl]
theorem hout0 (c : Dev nD) : ((dat0 V c).Φ (Fin.last cfg0.N) : sProp 𝕄) ⊢ Pipeline.ΦA spec0 c := by
  rw [show (dat0 V c).Φ (Fin.last cfg0.N) = Pipeline.ΦA spec0 c from rfl]

/-! ## The body obligation -/

/-- What the body is handed at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- At any point the operands' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The region's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KI.R1Defs.lean ====
/-
  The second kernel of the program, on its grid of 8 row blocks × 4 column blocks (point t = 4·i + k): what its
  three ways through the body share. At every point the body adds, into two [1024, 512] accumulators it keeps in
  scratch memory, the products of the (i, k) blocks of the two adjacency matrices with rows 2048·k … of the feature
  matrix; at k = 0 it first clears the accumulators, and at k = 3 it afterwards forms the block's output rows from
  the accumulators and the dense layers' weights. This module names the windows' blocks, shows that each of the
  twelve operands is found staged at its block at every point, decides the two branch conditions over the grid
  (k = 0 is t ≡ 0, k = 3 is t ≡ 3 modulo 4), says where the output window is left untouched, and opens the region's
  invariant into the two accumulators and the rest. Nothing here depends on the float instance.
-/
import proofs.«171332_j72834055406175_2_alg».proof.Proof.Gen.KernelIdeal.Launch
import proofs.«171332_j72834055406175_2_alg».proof.Proof.Gen.KernelIdeal.Skeleton
import proofs.«171332_j72834055406175_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The operands' blocks -/

/-- The block of window `w`'s array that grid point `t` addresses, read off the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each operand window is found, at every point, holding the block its index selects — fetched there, or kept
    from the last point that fetched it (the index has not moved since) — for any proof data whose arrays are `V`'s
    and whose body leaves the operand's buffer as it found it. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two branch conditions, over the grid -/

/-- The first branch (clear the accumulators) is taken when the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (form the output rows) is taken when the column-block coordinate is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is left untouched -/

theorem idleAt1_12 : ∀ t : Fin cfg1.N, ¬cond1_1 (grid1.coords t) → cfg1.idle 12 (grid1.coords t) = true := by decide +kernel
theorem noFlush1_12 : ∀ t : Fin cfg1.N, ¬cond1_1 (grid1.coords t) → (cfg1.win 12).flush t = false := by decide +kernel
theorem liveAt1_12 : ∀ t : Fin cfg1.N, cond1_1 (grid1.coords t) → cfg1.idle 12 (grid1.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
theorem liveAt1_10 : ∀ t : Fin cfg1.N, cfg1.idle 10 (grid1.coords t) = false := by decide +kernel
theorem liveAt1_11 : ∀ t : Fin cfg1.N, cfg1.idle 11 (grid1.coords t) = false := by decide +kernel

/-! ## The buffers the body is called on -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x512 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x512 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x512 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x512 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1024x512 .f32 := win1_12.stage (cfg1.slots t 12)
abbrev hs1_12 (t : Fin cfg1.N) : (ms1_12 t).IsWhole := hstage1_12 ((cfg1.slots t 12).cast nbuf1_12)
/-- The two accumulators: whole scratch buffers of the kernel's own. -/
abbrev accM_ud : Memref sig .tc .vmem S1024x512 .f32 := Memref.whole cc1_scratch0
abbrev accM_lr : Memref sig .tc .vmem S1024x512 .f32 := Memref.whole cc1_scratch1
/-- One staging buffer of the output window, through which its contents are stated. -/
abbrev VO1_12 : View sig .tc .vmem S1024x512 .f32 := (Memref.whole cc1_stg12_0 : Memref sig .tc .vmem S1024x512 .f32).view

/-- The rest of the core's scoped memory the region does not use: the first kernel's six staging buffers, each
    whole at some contents. -/
def idleScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f))

/-- The region's starting invariant, opened: the unused scoped buffers, the two accumulators at some contents, and
    the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f)
          ∗ (∃ d, owns (c : Thread nD τ) accM_ud fullShare d) ∗ (∃ d, owns (c : Thread nD τ) accM_lr fullShare d)) ∗ (∃ r, prngReg c r)) := by
  unfold Pipeline.ΦA; rw [scopedRest1_eq]; simp only [accM_ud, accM_lr, owns_whole]; try rfl

end Cert.KernelIdeal.Gen

end
-- ==== Proof.KI.R1RunA.lean ====
/-
  The second kernel's body at a point whose column block is the first (k = 0): it clears the two accumulators and
  then accumulates into them. From the two adjacency blocks and the feature matrix, the accumulators at any contents,
  it runs without a fault and leaves the operands as they were and each accumulator overwritten whole (twice: the
  clearing store, then the accumulating one).
-/
import proofs.«171332_j72834055406175_2_alg».proof.Proof.KI.R1Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two accumulators at such a point (found by running the body), with
    the body's triple. -/
noncomputable def run1_A (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : cond1_0 i) (hc1 : ¬cond1_1 i)
    (x0 x1 : Vec F S1024x2048 .f32) (x2 : Vec F S8192x512 .bf16) :
    Σ' (LS0 : List (View.Piece (Elt F) S1024x512 .f32)), { LS1 : List (View.Piece (Elt F) S1024x512 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ (∃ d, owns (c : Thread nD τ) a15 fullShare d) ∗ (∃ d, owns (c : Thread nD τ) a16 fullShare d)
            ∗ (iprop(owns (c : Thread nD τ) a2 fullShare x0 ∗ owns (c : Thread nD τ) a3 fullShare x1 ∗ owns (c : Thread nD τ) a4 fullShare x2 ∗ (∃ f, a15.view.loc (c : Thread nD τ) ↦[a15.view.set]{fullShare} a15.view.writes (Elt F) f LS0) ∗ (∃ f, a16.view.loc (c : Thread nD τ) ↦[a16.view.set]{fullShare} a16.view.writes (Elt F) f LS1)) -∗ K ⟨⟩))
          ⊢ wp frame (wpE (defs₀ (F := F)) Variants.none c none) E (cc1__main_kernel i a2 h2 a3 h3 a4 h4 a5 h5 a6 h6 a7 h7 a8 h8 a9 h9 a10 h10 a11 h11 a12 h12 a13 h13 a14 h14 a15 h15 a16 h16) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := h2.eq_unread hf0; obtain rfl := h3.eq_unread hf1; obtain rfl := h4.eq_unread hf2
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [HS0]; · iexists _; iexact HS0
    iexists _; iexact HS1

end Cert.KernelIdeal.Gen

end
-- ==== Proof.KI.R1RunB.lean ====
/-
  The second kernel's body at a point whose column block is neither the first nor the last (k = 1, 2): it only
  accumulates. From the two adjacency blocks, the feature matrix and the two accumulators at known contents it runs
  without a fault and leaves the operands as they were and each accumulator overwritten whole, by one store.
-/
import proofs.«171332_j72834055406175_2_alg».proof.Proof.KI.R1Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two accumulators at such a point (found by running the body), with
    the body's triple. -/
noncomputable def run1_B (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : ¬cond1_1 i)
    (x0 x1 : Vec F S1024x2048 .f32) (x2 : Vec F S8192x512 .bf16) (s0 s1 : Vec F S1024x512 .f32) :
    Σ' (LS0 : List (View.Piece (Elt F) S1024x512 .f32)), { LS1 : List (View.Piece (Elt F) S1024x512 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a15 fullShare s0 ∗ owns (c : Thread nD τ) a16 fullShare s1
            ∗ (iprop(owns (c : Thread nD τ) a2 fullShare x0 ∗ owns (c : Thread nD τ) a3 fullShare x1 ∗ owns (c : Thread nD τ) a4 fullShare x2 ∗ (∃ f, a15.view.loc (c : Thread nD τ) ↦[a15.view.set]{fullShare} a15.view.writes (Elt F) f LS0) ∗ (∃ f, a16.view.loc (c : Thread nD τ) ↦[a16.view.set]{fullShare} a16.view.writes (Elt F) f LS1)) -∗ K ⟨⟩))
          ⊢ wp frame (wpE (defs₀ (F := F)) Variants.none c none) E (cc1__main_kernel i a2 h2 a3 h3 a4 h4 a5 h5 a6 h6 a7 h7 a8 h8 a9 h9 a10 h10 a11 h11 a12 h12 a13 h13 a14 h14 a15 h15 a16 h16) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := h2.eq_unread hf0; obtain rfl := h3.eq_unread hf1; obtain rfl := h4.eq_unread hf2
    obtain rfl := h15.eq_unread hfs0; obtain rfl := h16.eq_unread hfs1
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [HS0]; · iexists _; iexact HS0
    iexists _; iexact HS1

end Cert.KernelIdeal.Gen

end
-- ==== Proof.KI.R1RunC.lean ====
/-
  The second kernel's body at a point whose column block is the last (k = 3): it accumulates once more and then
  forms the block's output rows — the three dense layers of the feature rows and the two accumulators, the pooled
  feature's layer added to every row, and the rectifier — storing them whole into the output window's buffer. From
  all twelve operands and the two accumulators at known contents, the output buffer at any contents, it runs without
  a fault and leaves the operands as they were, each accumulator overwritten whole and the output buffer written whole.
-/
import proofs.«171332_j72834055406175_2_alg».proof.Proof.KI.R1Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave in the output buffer and the two accumulators at such a point (found by
    running the body), with the body's triple. -/
noncomputable def run1_C (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : cond1_1 i)
    (x0 : Vec F S1024x2048 .f32) (x1 : Vec F S1024x2048 .f32) (x2 : Vec F S8192x512 .bf16) (x3 : Vec F S512x512 .bf16) (x4 : Vec F S1x512 .f32) (x5 : Vec F S512x512 .bf16) (x6 : Vec F S1x512 .f32) (x7 : Vec F S512x512 .bf16) (x8 : Vec F S1x512 .f32) (x9 : Vec F S1x512 .f32) (x10 : Vec F S512x512 .bf16) (x11 : Vec F S1x512 .f32) (s0 s1 : Vec F S1024x512 .f32) :
    Σ' (L12 : List (View.Piece (Elt F) S1024x512 .f32)) (LS0 : List (View.Piece (Elt F) S1024x512 .f32)), { LS1 : List (View.Piece (Elt F) S1024x512 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ (∃ d, owns (c : Thread nD τ) a14 fullShare d) ∗ owns (c : Thread nD τ) a15 fullShare s0 ∗ owns (c : Thread nD τ) a16 fullShare s1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ (∃ f, a14.view.loc (c : Thread nD τ) ↦[a14.view.set]{fullShare} a14.view.writes (Elt F) f L12) ∗ (∃ f, a15.view.loc (c : Thread nD τ) ↦[a15.view.set]{fullShare} a15.view.writes (Elt F) f LS0) ∗ (∃ f, a16.view.loc (c : Thread nD τ) ↦[a16.view.set]{fullShare} a16.view.writes (Elt F) f LS1)) -∗ K ⟨⟩))
          ⊢ wp frame (wpE (defs₀ (F := F)) Variants.none c none) E (cc1__main_kernel i a2 h2 a3 h3 a4 h4 a5 h5 a6 h6 a7 h7 a8 h8 a9 h9 a10 h10 a11 h11 a12 h12 a13 h13 a14 h14 a15 h15 a16 h16) K } := by
  refine ⟨?_, ?_, ?_, fun E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%fs1, %hfs1, HS1⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9; obtain rfl := h12.eq_unread hf10; obtain rfl := h13.eq_unread hf11
    obtain rfl := h15.eq_unread hfs0; obtain rfl := h16.eq_unread hfs1
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; isplitr; · ipureintro; exact h10.read_unread _
      iexact H8
    isplitl [H9]
    · iexists _; isplitr; · ipureintro; exact h11.read_unread _
      iexact H9
    isplitl [H10]
    · iexists _; isplitr; · ipureintro; exact h12.read_unread _
      iexact H10
    isplitl [H11]
    · iexists _; isplitr; · ipureintro; exact h13.read_unread _
      iexact H11
    isplitl [H12]; · iexists _; iexact H12
    isplitl [HS0]; · iexists _; iexact HS0
    iexists _; iexact HS1

end Cert.KernelIdeal.Gen

end
-- ==== Proof.KI.R1.lean ====
/-
  The second kernel of the program as a region: what its two accumulators and its output window hold after each grid
  point, by recursion on the point (t = 4·i + k): at k = 0 the accumulators are cleared and the first products added,
  at k = 1, 2 the next products are added to what the point before left, at k = 3 the last products are added and the
  block's output rows are formed from the accumulators. The region's invariant names the accumulators' contents from
  the first point on; the output window is untouched, and not written back, at the points with k < 3. From the three
  ways through the body (one module each) this module assembles the region's proof data and its body obligation.
  Nothing here depends on the float instance.
-/
import proofs.«171332_j72834055406175_2_alg».proof.Proof.KI.R1RunA
import proofs.«171332_j72834055406175_2_alg».proof.Proof.KI.R1RunB
import proofs.«171332_j72834055406175_2_alg».proof.Proof.KI.R1RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of each way through the body cover the buffers they write -/

theorem scoverUd_A (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : cond1_0 i) (hc1 : ¬cond1_1 i) (x0 x1 : Vec F S1024x2048 .f32) (x2 : Vec F S8192x512 .bf16) (y : S1024x512.Idx) :
    ∃ pc ∈ (run1_A c i a2 h2 a3 h3 a4 h4 a5 h5 a6 h6 a7 h7 a8 h8 a9 h9 a10 h10 a11 h11 a12 h12 a13 h13 a14 h14 a15 h15 a16 h16 hc0 hc1 x0 x1 x2).1, y ∈ pc.1.set :=
  View.cover_of_tiledL (run1_A c i a2 h2 a3 h3 a4 h4 a5 h5 a6 h6 a7 h7 a8 h8 a9 h9 a10 h10 a11 h11 a12 h12 a13 h13 a14 h14 a15 h15 a16 h16 hc0 hc1 x0 x1 x2).1 S1024x512.size (by sl_kernel_rfl) y
theorem scoverLr_A (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : cond1_0 i) (hc1 : ¬cond1_1 i) (x0 x1 : Vec F S1024x2048 .f32) (x2 : Vec F S8192x512 .bf16) (y : S1024x512.Idx) :
    ∃ pc ∈ (run1_A c i a2 h2 a3 h3 a4 h4 a5 h5 a6 h6 a7 h7 a8 h8 a9 h9 a10 h10 a11 h11 a12 h12 a13 h13 a14 h14 a15 h15 a16 h16 hc0 hc1 x0 x1 x2).2.1, y ∈ pc.1.set :=
  View.cover_of_tiledL (run1_A c i a2 h2 a3 h3 a4 h4 a5 h5 a6 h6 a7 h7 a8 h8 a9 h9 a10 h10 a11 h11 a12 h12 a13 h13 a14 h14 a15 h15 a16 h16 hc0 hc1 x0 x1 x2).2.1 S1024x512.size (by sl_kernel_rfl) y
theorem scoverUd_B (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : ¬cond1_1 i) (x0 x1 : Vec F S1024x2048 .f32) (x2 : Vec F S8192x512 .bf16) (s0 s1 : Vec F S1024x512 .f32) (y : S1024x512.Idx) :
    ∃ pc ∈ (run1_B c i a2 h2 a3 h3 a4 h4 a5 h5 a6 h6 a7 h7 a8 h8 a9 h9 a10 h10 a11 h11 a12 h12 a13 h13 a14 h14 a15 h15 a16 h16 hc0 hc1 x0 x1 x2 s0 s1).1, y ∈ pc.1.set :=
  View.cover_of_tiledL (run1_B c i a2 h2 a3 h3 a4 h4 a5 h5 a6 h6 a7 h7 a8 h8 a9 h9 a10 h10 a11 h11 a12 h12 a13 h13 a14 h14 a15 h15 a16 h16 hc0 hc1 x0 x1 x2 s0 s1).1 S1024x512.size (by sl_kernel_rfl) y
theorem scoverLr_B (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : ¬cond1_1 i) (x0 x1 : Vec F S1024x2048 .f32) (x2 : Vec F S8192x512 .bf16) (s0 s1 : Vec F S1024x512 .f32) (y : S1024x512.Idx) :
    ∃ pc ∈ (run1_B c i a2 h2 a3 h3 a4 h4 a5 h5 a6 h6 a7 h7 a8 h8 a9 h9 a10 h10 a11 h11 a12 h12 a13 h13 a14 h14 a15 h15 a16 h16 hc0 hc1 x0 x1 x2 s0 s1).2.1, y ∈ pc.1.set :=
  View.cover_of_tiledL (run1_B c i a2 h2 a3 h3 a4 h4 a5 h5 a6 h6 a7 h7 a8 h8 a9 h9 a10 h10 a11 h11 a12 h12 a13 h13 a14 h14 a15 h15 a16 h16 hc0 hc1 x0 x1 x2 s0 s1).2.1 S1024x512.size (by sl_kernel_rfl) y
theorem cover12_C (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : cond1_1 i) (x0 : Vec F S1024x2048 .f32) (x1 : Vec F S1024x2048 .f32) (x2 : Vec F S8192x512 .bf16) (x3 : Vec F S512x512 .bf16) (x4 : Vec F S1x512 .f32) (x5 : Vec F S512x512 .bf16) (x6 : Vec F S1x512 .f32) (x7 : Vec F S512x512 .bf16) (x8 : Vec F S1x512 .f32) (x9 : Vec F S1x512 .f32) (x10 : Vec F S512x512 .bf16) (x11 : Vec F S1x512 .f32) (s0 s1 : Vec F S1024x512 .f32) (y : S1024x512.Idx) :
    ∃ pc ∈ (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).1, y ∈ pc.1.set :=
  View.cover_of_tiledL (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).1 S1024x512.size (by sl_kernel_rfl) y
theorem scoverUd_C (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : cond1_1 i) (x0 : Vec F S1024x2048 .f32) (x1 : Vec F S1024x2048 .f32) (x2 : Vec F S8192x512 .bf16) (x3 : Vec F S512x512 .bf16) (x4 : Vec F S1x512 .f32) (x5 : Vec F S512x512 .bf16) (x6 : Vec F S1x512 .f32) (x7 : Vec F S512x512 .bf16) (x8 : Vec F S1x512 .f32) (x9 : Vec F S1x512 .f32) (x10 : Vec F S512x512 .bf16) (x11 : Vec F S1x512 .f32) (s0 s1 : Vec F S1024x512 .f32) (y : S1024x512.Idx) :
    ∃ pc ∈ (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).2.1, y ∈ pc.1.set :=
  View.cover_of_tiledL (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).2.1 S1024x512.size (by sl_kernel_rfl) y
theorem scoverLr_C (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : cond1_1 i) (x0 : Vec F S1024x2048 .f32) (x1 : Vec F S1024x2048 .f32) (x2 : Vec F S8192x512 .bf16) (x3 : Vec F S512x512 .bf16) (x4 : Vec F S1x512 .f32) (x5 : Vec F S512x512 .bf16) (x6 : Vec F S1x512 .f32) (x7 : Vec F S512x512 .bf16) (x8 : Vec F S1x512 .f32) (x9 : Vec F S1x512 .f32) (x10 : Vec F S512x512 .bf16) (x11 : Vec F S1x512 .f32) (s0 s1 : Vec F S1024x512 .f32) (y : S1024x512.Idx) :
    ∃ pc ∈ (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).2.2.1, y ∈ pc.1.set :=
  View.cover_of_tiledL (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).2.2.1 S1024x512.size (by sl_kernel_rfl) y

section Region1

variable (V : (c : Dev nD) → (b : Ref sig .tc) → Buf (Elt F) ((c : Thread nD τ).loc b))

/-! ## Each way through the body at a grid point, on the buffers the pipeline passes there and the operands' blocks -/

abbrev runA_at (c : Dev nD) (t : Fin cfg1.N) (hc0 : cond1_0 (grid1.coords t)) (hc1 : ¬cond1_1 (grid1.coords t)) :=
  run1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) accM_ud (Memref.isWhole_whole _) accM_lr (Memref.isWhole_whole _) hc0 hc1 (iblk1 V c 0 t) (iblk1 V c 1 t) (iblk1 V c 2 t)
abbrev runB_at (c : Dev nD) (t : Fin cfg1.N) (hc0 : ¬cond1_0 (grid1.coords t)) (hc1 : ¬cond1_1 (grid1.coords t)) (s0 s1 : Vec F S1024x512 .f32) :=
  run1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) accM_ud (Memref.isWhole_whole _) accM_lr (Memref.isWhole_whole _) hc0 hc1 (iblk1 V c 0 t) (iblk1 V c 1 t) (iblk1 V c 2 t) s0 s1
abbrev runC_at (c : Dev nD) (t : Fin cfg1.N) (hc0 : ¬cond1_0 (grid1.coords t)) (hc1 : cond1_1 (grid1.coords t)) (s0 s1 : Vec F S1024x512 .f32) :=
  run1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) accM_ud (Memref.isWhole_whole _) accM_lr (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) s0 s1

/-- What a list of whole-buffer stores leaves in an accumulator, read back. -/
abbrev readUd (L : List (View.Piece (Elt F) S1024x512 .f32)) : Vec F S1024x512 .f32 :=
  accM_ud.view.read (Elt F) (accM_ud.view.writes (Elt F) accM_ud.view.junk L)
abbrev readLr (L : List (View.Piece (Elt F) S1024x512 .f32)) : Vec F S1024x512 .f32 :=
  accM_lr.view.read (Elt F) (accM_lr.view.writes (Elt F) accM_lr.view.junk L)
abbrev readOut (L : List (View.Piece (Elt F) S1024x512 .f32)) : Vec F S1024x512 .f32 :=
  VO1_12.read (Elt F) (VO1_12.writes (Elt F) VO1_12.junk L)

/-! ## What the output window and the accumulators hold after each point -/

/-- After the point at position `n`: (the output window's buffer, the first accumulator, the second accumulator).
    The output component is a placeholder at the points with k < 3, where the window is neither stored into nor
    written back. -/
def outsAt1 (c : Dev nD) : (n : ℕ) → n < cfg1.N → Vec F S1024x512 .f32 × Vec F S1024x512 .f32 × Vec F S1024x512 .f32
  | 0, hn =>
    (readOut [],
     readUd (runA_at V c ⟨0, hn⟩ ((hcond1_0 ⟨0, hn⟩).mpr (Nat.zero_mod _)) (fun h => absurd ((hcond1_1 ⟨0, hn⟩).mp h) (by show ¬(0 % 4 = 3); omega))).1,
     readLr (runA_at V c ⟨0, hn⟩ ((hcond1_0 ⟨0, hn⟩).mpr (Nat.zero_mod _)) (fun h => absurd ((hcond1_1 ⟨0, hn⟩).mp h) (by show ¬(0 % 4 = 3); omega))).2.1)
  | n + 1, hn =>
    if h0 : (n + 1) % 4 = 0 then
      (readOut [],
       readUd (runA_at V c ⟨n + 1, hn⟩ ((hcond1_0 ⟨n + 1, hn⟩).mpr h0) (fun h => absurd ((hcond1_1 ⟨n + 1, hn⟩).mp h) (by show ¬(n + 1) % 4 = 3; omega))).1,
       readLr (runA_at V c ⟨n + 1, hn⟩ ((hcond1_0 ⟨n + 1, hn⟩).mpr h0) (fun h => absurd ((hcond1_1 ⟨n + 1, hn⟩).mp h) (by show ¬(n + 1) % 4 = 3; omega))).2.1)
    else
      if h1 : (n + 1) % 4 = 3 then
        (readOut (runC_at V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2).1,
         readUd (runC_at V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2).2.1,
         readLr (runC_at V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2).2.2.1)
      else
        (readOut [],
         readUd (runB_at V c ⟨n + 1, hn⟩ (fun h => h0 ((hcond1_0 ⟨n + 1, hn⟩).mp h)) (fun h => h1 ((hcond1_1 ⟨n + 1, hn⟩).mp h)) (outsAt1 c n (Nat.lt_of_succ_lt hn)).2.1 (outsAt1 c n (Nat.lt_of_succ_lt hn)).2.2).1,
         readLr (runB_at V c ⟨n + 1, hn⟩ (fun h => h0 ((hcond1_0 ⟨n + 1, hn⟩).mp h)) (fun h => h1 ((hcond1_1 ⟨n + 1, hn⟩).mp h)) (outsAt1 c n (Nat.lt_of_succ_lt hn)).2.1 (outsAt1 c n (Nat.lt_of_succ_lt hn)).2.2).2.1)

/-- At a point with k = 0. -/
theorem outsAt1_A (c : Dev nD) (t : Fin cfg1.N) (h0 : t.val % 4 = 0) (hc1 : ¬cond1_1 (grid1.coords t)) :
    outsAt1 V c t.val t.isLt
      = (readOut [], readUd (runA_at V c t ((hcond1_0 t).mpr h0) hc1).1, readLr (runA_at V c t ((hcond1_0 t).mpr h0) hc1).2.1) := by
  obtain ⟨n, hn⟩ := t
  cases n with
  | zero => exact rfl
  | succ n => exact (dif_pos h0).trans rfl

/-- At a point with k = 1 or 2: over what the point before left in the accumulators. -/
theorem outsAt1_B (c : Dev nD) (t : Fin cfg1.N) (h0 : ¬t.val % 4 = 0) (h1 : ¬t.val % 4 = 3) :
    outsAt1 V c t.val t.isLt
      = (readOut [],
         readUd (runB_at V c t (fun h => h0 ((hcond1_0 t).mp h)) (fun h => h1 ((hcond1_1 t).mp h)) (outsAt1 V c (t.val - 1) (Nat.lt_of_le_of_lt (Nat.sub_le _ _) t.isLt)).2.1 (outsAt1 V c (t.val - 1) (Nat.lt_of_le_of_lt (Nat.sub_le _ _) t.isLt)).2.2).1,
         readLr (runB_at V c t (fun h => h0 ((hcond1_0 t).mp h)) (fun h => h1 ((hcond1_1 t).mp h)) (outsAt1 V c (t.val - 1) (Nat.lt_of_le_of_lt (Nat.sub_le _ _) t.isLt)).2.1 (outsAt1 V c (t.val - 1) (Nat.lt_of_le_of_lt (Nat.sub_le _ _) t.isLt)).2.2).2.1) := by
  obtain ⟨n, hn⟩ := t
  cases n with
  | zero => exact absurd (Nat.zero_mod _) h0
  | succ n => exact (dif_neg h0).trans ((dif_neg h1).trans rfl)

/-- At a point with k = 3: over what the point before left in the accumulators. -/
theorem outsAt1_C (c : Dev nD) (t : Fin cfg1.N) (h0 : ¬t.val % 4 = 0) (h1 : t.val % 4 = 3) :
    outsAt1 V c t.val t.isLt
      = (readOut (runC_at V c t (fun h => h0 ((hcond1_0 t).mp h)) ((hcond1_1 t).mpr h1) (outsAt1 V c (t.val - 1) (Nat.lt_of_le_of_lt (Nat.sub_le _ _) t.isLt)).2.1 (outsAt1 V c (t.val - 1) (Nat.lt_of_le_of_lt (Nat.sub_le _ _) t.isLt)).2.2).1,
         readUd (runC_at V c t (fun h => h0 ((hcond1_0 t).mp h)) ((hcond1_1 t).mpr h1) (outsAt1 V c (t.val - 1) (Nat.lt_of_le_of_lt (Nat.sub_le _ _) t.isLt)).2.1 (outsAt1 V c (t.val - 1) (Nat.lt_of_le_of_lt (Nat.sub_le _ _) t.isLt)).2.2).2.1,
         readLr (runC_at V c t (fun h => h0 ((hcond1_0 t).mp h)) ((hcond1_1 t).mpr h1) (outsAt1 V c (t.val - 1) (Nat.lt_of_le_of_lt (Nat.sub_le _ _) t.isLt)).2.1 (outsAt1 V c (t.val - 1) (Nat.lt_of_le_of_lt (Nat.sub_le _ _) t.isLt)).2.2).2.2.1) := by
  obtain ⟨n, hn⟩ := t
  cases n with
  | zero => exact absurd (Nat.zero_mod _) h0
  | succ n => exact (dif_neg h0).trans ((dif_pos h1).trans rfl)

/-! ## The region's invariant -/

/-- Before position `n`: at the region's entry the unused scoped buffers, the accumulators and the generator
    register at anything; afterwards the accumulators at what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ owns (c : Thread nD τ) accM_ud fullShare ((outsAt1 V c n hn).2.1) ∗ owns (c : Thread nD τ) accM_lr fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ owns (c : Thread nD τ) accM_ud fullShare ((outsAt1 V c n hn).2.1) ∗ owns (c : Thread nD τ) accM_lr fullShare ((outsAt1 V c n hn).2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ owns (c : Thread nD τ) accM_ud fullShare ((outsAt1 V c (n - 1) (by omega)).2.1) ∗ owns (c : Thread nD τ) accM_lr fullShare ((outsAt1 V c (n - 1) (by omega)).2.2)) ∗ (∃ r, prngReg c r)) := by
  cases n with
  | zero => exact absurd rfl hz
  | succ n => rfl

/-! ## The proof data of the region -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
/-- The output window's buffer after point `t`. -/
theorem after1_12 (c : Dev nD) (t : Fin cfg1.N) : (dat1 V c).after 12 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation -/

/-- What the body is handed at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- What it hands back: an untouched window as it was handed over. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t)

set_option maxHeartbeats 4800000 in
/-- At any point the operands' buffers hold their blocks; the point's position modulo 4 says which way through the
    body it takes, and that way's triple applies: the invariant hands it the accumulators (at anything at the very
    first point, else at what the point before left) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  rw [show (dat1 V c).leavesExact 10 t = owns (c : Thread nD τ) (ms1_10 t) fullShare ((dat1 V c).after 10 t) from by
    unfold Dat.leavesExact; rw [liveAt1_10 t], after1_10]
  rw [show (dat1 V c).leavesExact 11 t = owns (c : Thread nD τ) (ms1_11 t) fullShare ((dat1 V c).after 11 t) from by
    unfold Dat.leavesExact; rw [liveAt1_11 t], after1_11]
  have hN : t.val < 32 := lt_of_lt_of_eq t.isLt (show cfg1.N = 32 from N_1)
  by_cases h0 : t.val % 4 = 0
  · have h1 : ¬t.val % 4 = 3 := by omega
    have hc1 : ¬cond1_1 (grid1.coords t) := fun h => h1 ((hcond1_1 t).mp h)
    rw [Dat.leavesExact_idle (dat1 V c) 12 t (idleAt1_12 t hc1) (noFlush1_12 t hc1)]
    rw [outsAt1_A V c t h0 hc1]
    (try dsimp only)
    by_cases hz : t.val = 0
    · rw [PhiS_castSucc V c t, PhiS_zero V c _ _ hz, PhiA1_eq]
      iintro ⟨⟨⟨Hs1, Hs2, Hs3, Hs4, Hs5, Hs6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA_at V c t ((hcond1_0 t).mpr h0) hc1).2.2 Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [Hs1 Hs2 Hs3 Hs4 Hs5 Hs6 HS0 HS1 Hg]
      · isplitl [Hs1 Hs2 Hs3 Hs4 Hs5 Hs6 HS0 HS1]
        · isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [HS0]
          · unfold owns; iexists _; isplitr
            swap; · iexact HS0
            ipureintro; exact View.read_writes_of_cover _ _ _ _ _ (scoverUd_A c _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scoverLr_A c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    · rw [PhiS_castSucc V c t, PhiS_pos V c _ _ hz]
      iintro ⟨⟨⟨Hs1, Hs2, Hs3, Hs4, Hs5, Hs6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA_at V c t ((hcond1_0 t).mpr h0) hc1).2.2 Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [Hs1 Hs2 Hs3 Hs4 Hs5 Hs6 HS0 HS1 Hg]
      · isplitl [Hs1 Hs2 Hs3 Hs4 Hs5 Hs6 HS0 HS1]
        · isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [HS0]
          · unfold owns; iexists _; isplitr
            swap; · iexact HS0
            ipureintro; exact View.read_writes_of_cover _ _ _ _ _ (scoverUd_A c _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scoverLr_A c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
  · have hz : t.val ≠ 0 := fun h => h0 (by rw [h])
    by_cases h1 : t.val % 4 = 3
    · have hc0 : ¬cond1_0 (grid1.coords t) := fun h => h0 ((hcond1_0 t).mp h)
      have hc1 : cond1_1 (grid1.coords t) := (hcond1_1 t).mpr h1
      rw [show (dat1 V c).leavesExact 12 t = owns (c : Thread nD τ) (ms1_12 t) fullShare ((dat1 V c).after 12 t) from by
        unfold Dat.leavesExact; rw [liveAt1_12 t hc1], after1_12]
      rw [outsAt1_C V c t h0 h1]
      (try dsimp only)
      rw [PhiS_castSucc V c t, PhiS_pos V c _ _ hz]
      iintro ⟨⟨⟨Hs1, Hs2, Hs3, Hs4, Hs5, Hs6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runC_at V c t hc0 hc1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      iintro ⟨H0, H1, H2, H3, H4, H5, H6, H7, H8, H9, H10, H11, ⟨%e12, H12⟩, ⟨%es0, HS0⟩, ⟨%es1, HS1⟩⟩
      isplitl [Hs1 Hs2 Hs3 Hs4 Hs5 Hs6 HS0 HS1 Hg]
      · isplitl [Hs1 Hs2 Hs3 Hs4 Hs5 Hs6 HS0 HS1]
        · isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [HS0]
          · unfold owns; iexists _; isplitr
            swap; · iexact HS0
            ipureintro; exact View.read_writes_of_cover _ _ _ _ _ (scoverUd_C c _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scoverLr_C c _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover12_C c _ _ _ _ _ _ _ _ _ _ _ _ _ _ _ _ _ _ _ _ _ _ _ _ _ _ _ _ _ _ _ _ _ _ _ _ _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 12 t (idleAt1_12 t hc1) (noFlush1_12 t hc1)]
      rw [outsAt1_B V c t h0 h1]
      (try dsimp only)
      rw [PhiS_castSucc V c t, PhiS_pos V c _ _ hz]
      iintro ⟨⟨⟨Hs1, Hs2, Hs3, Hs4, Hs5, Hs6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runB_at V c t hc0 hc1 _ _).2.2 Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [Hs1 Hs2 Hs3 Hs4 Hs5 Hs6 HS0 HS1 Hg]
      · isplitl [Hs1 Hs2 Hs3 Hs4 Hs5 Hs6 HS0 HS1]
        · isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [HS0]
          · unfold owns; iexists _; isplitr
            swap; · iexact HS0
            ipureintro; exact View.read_writes_of_cover _ _ _ _ _ (scoverUd_B c _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scoverLr_B c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12

/-- The region's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ ((dat1 V c).Φ 0 : sProp 𝕄) := by
  rw [show (dat1 V c).Φ 0 = PhiS V c 0 (Nat.zero_le _) from rfl, PhiS_zero V c 0 _ rfl]

/-- After the last point the invariant gives the same back: the accumulators' named contents are forgotten. -/
theorem hout1 (c : Dev nD) : ((dat1 V c).Φ (Fin.last cfg1.N) : sProp 𝕄) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨Hs1, Hs2, Hs3, Hs4, Hs5, Hs6, HS0, HS1⟩, Hg⟩
  isplitl [Hs1 Hs2 Hs3 Hs4 Hs5 Hs6 HS0 HS1]
  · isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [HS0]; · iexists _; iexact HS0
    iexists _; iexact HS1
  iexact Hg

end Region1

end Cert.KernelIdeal.Gen

end
-- ==== Proof.KI.Run.lean ====
import proofs.«171332_j72834055406175_2_alg».proof.Proof.Gen.KernelIdeal.Launch
import proofs.«171332_j72834055406175_2_alg».proof.Proof.Gen.KernelIdeal.Regions
import proofs.«171332_j72834055406175_2_alg».proof.Proof.KI.R0
import proofs.«171332_j72834055406175_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # The run of @main: host operations, region 0, host operations, region 1, a final reshape

The program is five segments. Between two segments every unscoped buffer of the TensorCore is held whole at a named
valuation; the six valuations are a fold from the launch memory: a stretch of host operations rewrites its results
(`StableHlo.after`), a region leaves its windows' arrays at what the pipeline's write-backs made of them
(`Dat.arrAt … N`) and every other buffer as it found it. -/

variable (m : (ℓ : Loc nD τ sig) → Buf (Elt F) ℓ) (ρ : Dev nD → PrngReg)

/-! ## The six boundary valuations -/

/-- The buffers of core `c` at launch. -/
abbrev W0 : Dev nD → Valuation τ sig (Elt F) := fun c b => (s₀ m ρ).mem ((c : Dev nD), b)
/-- After the first nine host operations: what region 0 is entered with. -/
abbrev W1 : Dev nD → Valuation τ sig (Elt F) := fun c => StableHlo.after hostOps0 (W0 m ρ c)
/-- `W1` at the TensorCore's own references: the entry contents region 0's proof data are stated at. -/
abbrev Vin0 : (c : Dev nD) → (b : Ref sig .tc) → Buf (Elt F) ((c : Thread nD τ).loc b) := fun c b => W1 m ρ c b
/-- When region 0 returns: its six arrays as the pipeline left them, the rest as at entry. -/
def W2 (c : Dev nD) : Valuation τ sig (Elt F) :=
  Pipeline.withArrays spec0 c (W1 m ρ c) fun w => (dat0 (Vin0 m ρ) c).arrAt w cfg0.N
/-- After the twelve host operations between the regions: what region 1 is entered with. -/
abbrev W3 : Dev nD → Valuation τ sig (Elt F) := fun c => StableHlo.after hostOps1 (W2 m ρ c)
/-- `W3` at the TensorCore's own references: the entry contents region 1's proof data are stated at. -/
abbrev Vin1 : (c : Dev nD) → (b : Ref sig .tc) → Buf (Elt F) ((c : Thread nD τ).loc b) := fun c b => W3 m ρ c b
/-- When region 1 returns: its thirteen arrays as the pipeline left them, the rest as at entry. -/
def W4 (c : Dev nD) : Valuation τ sig (Elt F) :=
  Pipeline.withArrays spec1 c (W3 m ρ c) fun w => (dat1 (Vin1 m ρ) c).arrAt w cfg1.N
/-- After the final reshape: what the program returns with. -/
abbrev W5 : Dev nD → Valuation τ sig (Elt F) := fun c => StableHlo.after hostOps2 (W4 m ρ c)

/-! ## A region's exit valuation, read at one of its arrays and off them -/

theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_off (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (Vin1 m ρ) c).arrAt w cfg1.N := by
  unfold W4; exact Pipeline.withArrays_arr spec1 launch1.win.arr_inj c _ _ w
theorem W4_off (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-- The exit valuations at the TensorCore's own references. -/
abbrev Vout0 : (c : Dev nD) → (b : Ref sig .tc) → Buf (Elt F) ((c : Thread nD τ).loc b) := fun c b => W2 m ρ c b
abbrev Vout1 : (c : Dev nD) → (b : Ref sig .tc) → Buf (Elt F) ((c : Thread nD τ).loc b) := fun c b => W4 m ρ c b

/-- Region 0's exit valuation has each array at the pipeline's final contents and agrees with the entry valuation
    off the arrays: the two facts that put the arrays back among the unscoped buffers. -/
theorem Vout0_arr (c : Dev nD) (w : Fin cfg0.W) : (dat0 (Vin0 m ρ) c).arrAt w cfg0.N = Vout0 m ρ c (Pipeline.arrRef spec0 w) :=
  (W2_arr m ρ c w).symm
theorem Vout0_off (c : Dev nD) : ∀ b, b ∉ Finset.univ.image (Pipeline.arrRef spec0) → Vout0 m ρ c b = Vin0 m ρ c b :=
  fun b hb => W2_off m ρ c b fun w e => hb (Finset.mem_image.mpr ⟨w, Finset.mem_univ _, e⟩)
/-- The same for region 1. -/
theorem Vout1_arr (c : Dev nD) (w : Fin cfg1.W) : (dat1 (Vin1 m ρ) c).arrAt w cfg1.N = Vout1 m ρ c (Pipeline.arrRef spec1 w) :=
  (W4_arr m ρ c w).symm
theorem Vout1_off (c : Dev nD) : ∀ b, b ∉ Finset.univ.image (Pipeline.arrRef spec1) → Vout1 m ρ c b = Vin1 m ρ c b :=
  fun b hb => W4_off m ρ c b fun w e => hb (Finset.mem_image.mpr ⟨w, Finset.mem_univ _, e⟩)

/-! # The proof data of both pipelines, and what rides beside the buffers -/

/-- Both pipelines' proof data, each at the contents its region is entered with. A literal `match` on the pipeline's
    index, so that `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c

/-- No protocol variant, no cross-core dues: no level is assigned to any pair. -/
abbrev noVar : Variants := Variants.none
abbrev noPairs : GSem nD τ sig → Finset Unit := fun _ => ∅
abbrev noLev : GSem nD τ sig → Unit → ℕ := fun _ _ => 0

/-- Beside the buffers a core carries, through all five segments, its generator register at some state (a region's
    invariant takes it in and gives it back) and the statement that it owes nothing. -/
abbrev rest (c : Dev nD) : sProp 𝕄 :=
  iprop((∃ r, prngReg c r) ∗ ∃ W, owes (c : Thread nD τ) (0 : CellTallies nD τ sig Unit) W)

/-- A stretch of host operations as a segment: it runs within the unscoped buffers held at `W`, with `rest` beside
    them, to the same buffers at `StableHlo.after ops (W c)`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs noLev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- An unscoped reference of the TensorCore is one of the buffers the thread state holds. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The thread state at the return, the dues apart: every unscoped buffer at `W5`, the generator register somewhere. -/
abbrev Tend (c : Dev nD) : sProp 𝕄 :=
  iprop(StableHlo.held (c : Thread nD τ) (Pipeline.ucRefs τ sig) (W5 m ρ c) ∗ ∃ r, prngReg c r)

/-! # The two regions as segments

A region is entered from every unscoped buffer at its entry valuation. Its arrays are split out of them, the rest
bypasses the region; the generator register (with the scoped buffers no window stages) enters the body's invariant
through the kernel's own `hinK` and comes back through `houtK`; at the exit the arrays, now at the pipeline's final
contents, rejoin the rest at the exit valuation. Neither kernel has a semaphore of its own, neither owes anything. -/

-- a library lemma stated over `pin pcs a p` meets the pinned configuration only when unification may unfold
-- plain definitions inside a metavariable's type
set_option backward.isDefEq.respectTransparency.types false in
def region0 : Pipeline.RegionSeg (pcfgs (F := F)) adm (pdats m ρ) () defs₀ noVar noPairs noLev 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ noPairs noLev 0 fun _ _ => rfl
  pre c := iprop(StableHlo.held (c : Thread nD τ) (Pipeline.ucRefs τ sig) (W1 m ρ c) ∗ rest c)
  post c := iprop(StableHlo.held (c : Thread nD τ) (Pipeline.ucRefs τ sig) (W2 m ρ c) ∗ rest c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun w => A_eq0 (Vin0 m ρ) c w
    rw [Pipeline.unscopedBufs_held] at hsplit
    iintro ⟨⟨Hbufs, Hreg, Hdue⟩, -, -⟩
    ihave Hs := hsplit $$ Hbufs
    icases Hs with ⟨Harr, Hoff⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%S, Hdue⟩; iexists S; isplitr; · ipureintro; exact fun _ _ => Or.inl trivial
      iexact Hdue
    isplitl [Hreg]; · iexact Hreg
    iexact Hoff
  hin c := by
    refine BIBase.Entails.trans ?_ (hin0 (Vin0 m ρ) c)
    unfold Pipeline.ΦA
    iintro ⟨Hreg, -, Hsc⟩
    isplitl [Hsc]; · iexact Hsc
    iexact Hreg
  hout c := by
    rw [Pipeline.ownSems0_none]
    refine BIBase.Entails.trans (hout0 (Vin0 m ρ) c) ?_
    unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (Vout0_arr m ρ c) (Vout0_off m ρ c)
    rw [Pipeline.unscopedBufs_held] at hjoin
    iintro ⟨Harr, Hdue, Hreg, Hoff⟩
    imodintro
    isplitl [Harr Hoff]
    · iapply hjoin; isplitl [Harr] <;> iassumption
    isplitl [Hreg]; · iexact Hreg
    unfold Pipeline.Dat.owesAt Pipeline.owesWithin
    icases Hdue with ⟨%S, -, Hdue⟩; iexists S; iexact Hdue

-- as for region 0
set_option backward.isDefEq.respectTransparency.types false in
def region1 : Pipeline.RegionSeg (pcfgs (F := F)) adm (pdats m ρ) () defs₀ noVar noPairs noLev 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ noPairs noLev 1 fun _ _ => rfl
  pre c := iprop(StableHlo.held (c : Thread nD τ) (Pipeline.ucRefs τ sig) (W3 m ρ c) ∗ rest c)
  post c := iprop(StableHlo.held (c : Thread nD τ) (Pipeline.ucRefs τ sig) (W4 m ρ c) ∗ rest c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun w => A_eq1 (Vin1 m ρ) c w
    rw [Pipeline.unscopedBufs_held] at hsplit
    iintro ⟨⟨Hbufs, Hreg, Hdue⟩, -, -⟩
    ihave Hs := hsplit $$ Hbufs
    icases Hs with ⟨Harr, Hoff⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%S, Hdue⟩; iexists S; isplitr; · ipureintro; exact fun _ _ => Or.inl trivial
      iexact Hdue
    isplitl [Hreg]; · iexact Hreg
    iexact Hoff
  hin c := by
    refine BIBase.Entails.trans ?_ (hin1 (Vin1 m ρ) c)
    unfold Pipeline.ΦA
    iintro ⟨Hreg, -, Hsc⟩
    isplitl [Hsc]; · iexact Hsc
    iexact Hreg
  hout c := by
    rw [Pipeline.ownSems0_none]
    refine BIBase.Entails.trans (hout1 (Vin1 m ρ) c) ?_
    unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (Vout1_arr m ρ c) (Vout1_off m ρ c)
    rw [Pipeline.unscopedBufs_held] at hjoin
    iintro ⟨Harr, Hdue, Hreg, Hoff⟩
    imodintro
    isplitl [Harr Hoff]
    · iapply hjoin; isplitl [Harr] <;> iassumption
    isplitl [Hreg]; · iexact Hreg
    unfold Pipeline.Dat.owesAt Pipeline.owesWithin
    icases Hdue with ⟨%S, -, Hdue⟩; iexists S; iexact Hdue

/-! # @main as its five segments, and the launch -/

/-- The five segments in @main's order. -/
abbrev runSegs : List (Pipeline.Seg (pcfgs (F := F)) adm (pdats m ρ) () defs₀ noVar noPairs noLev) :=
  [ .host (hostSeg hostOps0 hostOps0_sub hostOps0_fresh (W0 m ρ)),
    .region (region0 m ρ),
    .host (hostSeg hostOps1 hostOps1_sub hostOps1_fresh (W2 m ρ)),
    .region (region1 m ρ),
    .host (hostSeg hostOps2 hostOps2_sub hostOps2_fresh (W4 m ρ)) ]

/-- @main is the run of these segments: it is the chain of its five items, and the segments' run is that chain by
    definitional unfolding. -/
theorem main_run (c : Dev nD) : main (F := F) c = Pipeline.Seg.run (runSegs m ρ) := (main_chain c).trans (by chain_rfl)

-- the launch theorem's implicit arguments are found by unifying its conclusion with this one
set_option backward.isDefEq.respectTransparency.types false in
/-- THE RUN. From any memory `m` with every semaphore counter at zero, every weakly fair execution of @main on the
    TensorCores terminates, and in every final memory each unscoped buffer of each core holds `W5 m ρ c` there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ noVar noPairs noLev m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rest c)) (Tₙ := Tend m ρ)
    (hch := ⟨fun _ => .rfl, fun _ => .rfl, fun _ => .rfl, fun _ => .rfl, fun _ => .rfl, fun _ => sep_assoc'⟩)
    (hinit := by
      refine Pipeline.initEach noPairs noLev fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdue, -, Hreg, -⟩, -⟩
      imodintro
      isplitl [Hbufs]; · iexact Hbufs
      isplitl [Hreg]; · iexists _; iexact Hreg
      iexists ∅; iexact Hdue)
    (QY := fun c s => ∀ b ∈ Pipeline.ucRefs τ sig, s.mem (((c : Thread nD τ)).1, b) = W5 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W5 m ρ c) s')
      isplitl [Hbufs] <;> iassumption)
    (hQ := fun s h => h)

/-- info: 'Cert.KernelIdeal.Gen.run_all' depends on axioms: [propext, Classical.choice, Quot.sound] -/
#guard_msgs in #print axioms run_all

end Cert.KernelIdeal.Gen

end
-- ==== Proof.KI.Read.lean ====
import proofs.«171332_j72834055406175_2_alg».proof.Proof.KI.Run

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # Reading the boundary valuations back

Each lemma walks one buffer back through the fold, one segment per step: a stretch of host operations leaves alone what
it does not write, a region leaves alone what is no array of its windows and hands an input array back as it took it. -/

variable (m : (ℓ : Loc nD τ sig) → Buf (Elt F) ℓ) (ρ : Dev nD → PrngReg)

/-! ## One segment back -/

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- An input window's array leaves region 0 as it entered it: no write-back touches it. -/
theorem W2_input (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (Vin0 m ρ) c).arrAt_in w hin _).trans (A_eq0 (Vin0 m ρ) c w))
/-- The same for region 1. -/
theorem W4_input (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (Vin1 m ρ) c).arrAt_in w hin _).trans (A_eq1 (Vin1 m ρ) c w))

/-! ## Back to the launch -/

/-- A buffer the first stretch does not write holds its launch contents when region 0 is entered, -/
theorem W1_launch (c : Dev nD) (r : Ref sig .tc) (h0 : r ∉ hostOps0_W) :
    W1 m ρ c (Proc.devRef .tc r) = m ((c : Thread nD τ).loc r) :=
  (W1_keep m ρ c r h0).trans rfl
/-- and, if it is no array of region 0, when region 0 returns, -/
theorem W2_launch (c : Dev nD) (r : Ref sig .tc) (h0 : r ∉ hostOps0_W) (ha0 : ∀ w, Pipeline.arrRef spec0 w ≠ r) :
    W2 m ρ c (Proc.devRef .tc r) = m ((c : Thread nD τ).loc r) :=
  (W2_off m ρ c r ha0).trans (W1_launch m ρ c r h0)
/-- and, if the second stretch does not write it, when region 1 is entered, -/
theorem W3_launch (c : Dev nD) (r : Ref sig .tc) (h0 : r ∉ hostOps0_W) (ha0 : ∀ w, Pipeline.arrRef spec0 w ≠ r)
    (h1 : r ∉ hostOps1_W) : W3 m ρ c (Proc.devRef .tc r) = m ((c : Thread nD τ).loc r) :=
  (W3_keep m ρ c r h1).trans (W2_launch m ρ c r h0 ha0)
/-- and, if it is no array of region 1 and the final reshape does not write it, at the return. -/
theorem W5_launch (c : Dev nD) (r : Ref sig .tc) (h0 : r ∉ hostOps0_W) (ha0 : ∀ w, Pipeline.arrRef spec0 w ≠ r)
    (h1 : r ∉ hostOps1_W) (ha1 : ∀ w, Pipeline.arrRef spec1 w ≠ r) (h2 : r ∉ hostOps2_W) :
    W5 m ρ c (Proc.devRef .tc r) = m ((c : Thread nD τ).loc r) :=
  (W5_keep m ρ c r h2).trans <| (W4_off m ρ c r ha1).trans (W3_launch m ρ c r h0 ha0 h1)

/-! ## The fourteen arguments end as launched

No host operation writes an argument. Twelve of them are no array of either region; `main_arg2` and `main_arg3` are
input arrays of region 1. -/

theorem W5_main_arg0 (c : Dev nD) : W5 m ρ c (Proc.devRef .tc main_arg0) = m ((c : Thread nD τ).loc main_arg0) :=
  W5_launch m ρ c main_arg0 (by decide) (by decide) (by decide) (by decide) (by decide)
theorem W5_main_arg1 (c : Dev nD) : W5 m ρ c (Proc.devRef .tc main_arg1) = m ((c : Thread nD τ).loc main_arg1) :=
  W5_launch m ρ c main_arg1 (by decide) (by decide) (by decide) (by decide) (by decide)
/-- `main_arg2` is window 0's array of region 1, an input: the region hands it back as it took it. -/
theorem W5_main_arg2 (c : Dev nD) : W5 m ρ c (Proc.devRef .tc main_arg2) = m ((c : Thread nD τ).loc main_arg2) :=
  (W5_keep m ρ c main_arg2 (by decide)).trans <| (W4_input m ρ c 0 rfl).trans <|
    W3_launch m ρ c main_arg2 (by decide) (by decide) (by decide)
/-- `main_arg3` is window 1's array of region 1, an input: the region hands it back as it took it. -/
theorem W5_main_arg3 (c : Dev nD) : W5 m ρ c (Proc.devRef .tc main_arg3) = m ((c : Thread nD τ).loc main_arg3) :=
  (W5_keep m ρ c main_arg3 (by decide)).trans <| (W4_input m ρ c 1 rfl).trans <|
    W3_launch m ρ c main_arg3 (by decide) (by decide) (by decide)
theorem W5_main_arg4 (c : Dev nD) : W5 m ρ c (Proc.devRef .tc main_arg4) = m ((c : Thread nD τ).loc main_arg4) :=
  W5_launch m ρ c main_arg4 (by decide) (by decide) (by decide) (by decide) (by decide)
theorem W5_main_arg5 (c : Dev nD) : W5 m ρ c (Proc.devRef .tc main_arg5) = m ((c : Thread nD τ).loc main_arg5) :=
  W5_launch m ρ c main_arg5 (by decide) (by decide) (by decide) (by decide) (by decide)
theorem W5_main_arg6 (c : Dev nD) : W5 m ρ c (Proc.devRef .tc main_arg6) = m ((c : Thread nD τ).loc main_arg6) :=
  W5_launch m ρ c main_arg6 (by decide) (by decide) (by decide) (by decide) (by decide)
theorem W5_main_arg7 (c : Dev nD) : W5 m ρ c (Proc.devRef .tc main_arg7) = m ((c : Thread nD τ).loc main_arg7) :=
  W5_launch m ρ c main_arg7 (by decide) (by decide) (by decide) (by decide) (by decide)
theorem W5_main_arg8 (c : Dev nD) : W5 m ρ c (Proc.devRef .tc main_arg8) = m ((c : Thread nD τ).loc main_arg8) :=
  W5_launch m ρ c main_arg8 (by decide) (by decide) (by decide) (by decide) (by decide)
theorem W5_main_arg9 (c : Dev nD) : W5 m ρ c (Proc.devRef .tc main_arg9) = m ((c : Thread nD τ).loc main_arg9) :=
  W5_launch m ρ c main_arg9 (by decide) (by decide) (by decide) (by decide) (by decide)
theorem W5_main_arg10 (c : Dev nD) : W5 m ρ c (Proc.devRef .tc main_arg10) = m ((c : Thread nD τ).loc main_arg10) :=
  W5_launch m ρ c main_arg10 (by decide) (by decide) (by decide) (by decide) (by decide)
theorem W5_main_arg11 (c : Dev nD) : W5 m ρ c (Proc.devRef .tc main_arg11) = m ((c : Thread nD τ).loc main_arg11) :=
  W5_launch m ρ c main_arg11 (by decide) (by decide) (by decide) (by decide) (by decide)
theorem W5_main_arg12 (c : Dev nD) : W5 m ρ c (Proc.devRef .tc main_arg12) = m ((c : Thread nD τ).loc main_arg12) :=
  W5_launch m ρ c main_arg12 (by decide) (by decide) (by decide) (by decide) (by decide)
theorem W5_main_arg13 (c : Dev nD) : W5 m ρ c (Proc.devRef .tc main_arg13) = m ((c : Thread nD τ).loc main_arg13) :=
  W5_launch m ρ c main_arg13 (by decide) (by decide) (by decide) (by decide) (by decide)

/-! ## The two regions' results

Region 0 writes `main_v8` (its window 5); nothing after it writes that buffer, and region 1 only reads it (its
window 9). Region 1 writes `main_v21` (its window 12), which the final reshape reads into `main_v22`. -/

theorem W3_main_v8 (c : Dev nD) : W3 m ρ c (Proc.devRef .tc main_v8) = (dat0 (Vin0 m ρ) c).arrAt 5 cfg0.N :=
  (W3_keep m ρ c main_v8 (by decide)).trans (W2_arr m ρ c 5)
theorem W5_main_v8 (c : Dev nD) : W5 m ρ c (Proc.devRef .tc main_v8) = (dat0 (Vin0 m ρ) c).arrAt 5 cfg0.N :=
  (W5_keep m ρ c main_v8 (by decide)).trans <| (W4_input m ρ c 9 rfl).trans (W3_main_v8 m ρ c)

/-- The final reshape, applied to whatever region 1's exit valuation holds at `main_v21`, -/
theorem W5_main_v22_at (c : Dev nD) :
    W5 m ρ c (Proc.devRef .tc main_v22)
      = shapeCast S128x64x512 (W4 m ρ c (Proc.devRef .tc main_v21)) shapeCasts_S8192x512_S128x64x512 := by
  show StableHlo.after hostOps2 _ (Proc.devRef .tc main_v22) = _
  after_results <;> rfl
/-- which is region 1's output array as the pipeline left it. -/
theorem W5_main_v22 (c : Dev nD) :
    W5 m ρ c (Proc.devRef .tc main_v22)
      = shapeCast S128x64x512 ((dat1 (Vin1 m ρ) c).arrAt 12 cfg1.N) shapeCasts_S8192x512_S128x64x512 :=
  (W5_main_v22_at m ρ c).trans
    (congrArg (fun x => shapeCast S128x64x512 x shapeCasts_S8192x512_S128x64x512) (W4_arr m ρ c 12))

/-! ## What region 0 is entered with: its five operands as terms of the launch memory -/

theorem Vin0_main_v1 (c : Dev nD) :
    Vin0 m ρ c main_v1 = truncf .bf16 (shapeCast S8192x512 (m ((c : Thread nD τ).loc main_arg0)) shapeCasts_S128x64x512_S8192x512) bitsLt_bf16_f32 := by
  show StableHlo.after hostOps0 _ (Proc.devRef .tc main_v1) = _
  after_results <;> rfl
theorem Vin0_main_v2 (c : Dev nD) :
    Vin0 m ρ c main_v2 = shapeCast S1x8192 (m ((c : Thread nD τ).loc main_arg1)) shapeCasts_S8192_S1x8192 := by
  show StableHlo.after hostOps0 _ (Proc.devRef .tc main_v2) = _
  after_results <;> rfl
theorem Vin0_main_v6 (c : Dev nD) :
    Vin0 m ρ c main_v6 = truncf .bf16 (transpose S512x512 [1, 0] (m ((c : Thread nD τ).loc main_arg10)) transposes_S512x512_S512x512_1_0) bitsLt_bf16_f32 := by
  show StableHlo.after hostOps0 _ (Proc.devRef .tc main_v6) = _
  after_results <;> rfl
theorem Vin0_main_v7 (c : Dev nD) :
    Vin0 m ρ c main_v7 = shapeCast S1x512 (m ((c : Thread nD τ).loc main_arg11)) shapeCasts_S512_S1x512 := by
  show StableHlo.after hostOps0 _ (Proc.devRef .tc main_v7) = _
  after_results <;> rfl
theorem Vin0_main_v4 (c : Dev nD) :
    Vin0 m ρ c main_v4 = shapeCast S1x1 (Host.reduceAdd (m ((c : Thread nD τ).loc main_arg1)) (constant S_ .f32 0x00000000#32) reducesTo_S8192_S_d0 h_S_) shapeCasts_S_S1x1 := by
  show StableHlo.after hostOps0 _ (Proc.devRef .tc main_v4) = _
  after_results <;> rfl

/-! ## What region 1 is entered with

Eight operands are results of the second stretch, each a function of one argument, which reaches that stretch as
launched; `main_v1` is region 0's first operand again (an input there, so handed back unchanged); `main_v8` is region
0's result; `main_arg2` and `main_arg3` are arguments. -/

theorem Vin1_main_v10_at (c : Dev nD) :
    Vin1 m ρ c main_v10 = truncf .bf16 (transpose S512x512 [1, 0] (W2 m ρ c (Proc.devRef .tc main_arg4)) transposes_S512x512_S512x512_1_0) bitsLt_bf16_f32 := by
  show StableHlo.after hostOps1 _ (Proc.devRef .tc main_v10) = _
  after_results <;> rfl
theorem Vin1_main_v10 (c : Dev nD) :
    Vin1 m ρ c main_v10 = truncf .bf16 (transpose S512x512 [1, 0] (m ((c : Thread nD τ).loc main_arg4)) transposes_S512x512_S512x512_1_0) bitsLt_bf16_f32 :=
  (Vin1_main_v10_at m ρ c).trans (congrArg (fun x => truncf .bf16 (transpose S512x512 [1, 0] x transposes_S512x512_S512x512_1_0) bitsLt_bf16_f32) (W2_launch m ρ c main_arg4 (by decide) (by decide)))
theorem Vin1_main_v12_at (c : Dev nD) :
    Vin1 m ρ c main_v12 = truncf .bf16 (transpose S512x512 [1, 0] (W2 m ρ c (Proc.devRef .tc main_arg6)) transposes_S512x512_S512x512_1_0) bitsLt_bf16_f32 := by
  show StableHlo.after hostOps1 _ (Proc.devRef .tc main_v12) = _
  after_results <;> rfl
theorem Vin1_main_v12 (c : Dev nD) :
    Vin1 m ρ c main_v12 = truncf .bf16 (transpose S512x512 [1, 0] (m ((c : Thread nD τ).loc main_arg6)) transposes_S512x512_S512x512_1_0) bitsLt_bf16_f32 :=
  (Vin1_main_v12_at m ρ c).trans (congrArg (fun x => truncf .bf16 (transpose S512x512 [1, 0] x transposes_S512x512_S512x512_1_0) bitsLt_bf16_f32) (W2_launch m ρ c main_arg6 (by decide) (by decide)))
theorem Vin1_main_v14_at (c : Dev nD) :
    Vin1 m ρ c main_v14 = truncf .bf16 (transpose S512x512 [1, 0] (W2 m ρ c (Proc.devRef .tc main_arg8)) transposes_S512x512_S512x512_1_0) bitsLt_bf16_f32 := by
  show StableHlo.after hostOps1 _ (Proc.devRef .tc main_v14) = _
  after_results <;> rfl
theorem Vin1_main_v14 (c : Dev nD) :
    Vin1 m ρ c main_v14 = truncf .bf16 (transpose S512x512 [1, 0] (m ((c : Thread nD τ).loc main_arg8)) transposes_S512x512_S512x512_1_0) bitsLt_bf16_f32 :=
  (Vin1_main_v14_at m ρ c).trans (congrArg (fun x => truncf .bf16 (transpose S512x512 [1, 0] x transposes_S512x512_S512x512_1_0) bitsLt_bf16_f32) (W2_launch m ρ c main_arg8 (by decide) (by decide)))
theorem Vin1_main_v16_at (c : Dev nD) :
    Vin1 m ρ c main_v16 = truncf .bf16 (transpose S512x512 [1, 0] (W2 m ρ c (Proc.devRef .tc main_arg12)) transposes_S512x512_S512x512_1_0) bitsLt_bf16_f32 := by
  show StableHlo.after hostOps1 _ (Proc.devRef .tc main_v16) = _
  after_results <;> rfl
theorem Vin1_main_v16 (c : Dev nD) :
    Vin1 m ρ c main_v16 = truncf .bf16 (transpose S512x512 [1, 0] (m ((c : Thread nD τ).loc main_arg12)) transposes_S512x512_S512x512_1_0) bitsLt_bf16_f32 :=
  (Vin1_main_v16_at m ρ c).trans (congrArg (fun x => truncf .bf16 (transpose S512x512 [1, 0] x transposes_S512x512_S512x512_1_0) bitsLt_bf16_f32) (W2_launch m ρ c main_arg12 (by decide) (by decide)))
theorem Vin1_main_v17_at (c : Dev nD) :
    Vin1 m ρ c main_v17 = shapeCast S1x512 (W2 m ρ c (Proc.devRef .tc main_arg5)) shapeCasts_S512_S1x512 := by
  show StableHlo.after hostOps1 _ (Proc.devRef .tc main_v17) = _
  after_results <;> rfl
theorem Vin1_main_v17 (c : Dev nD) :
    Vin1 m ρ c main_v17 = shapeCast S1x512 (m ((c : Thread nD τ).loc main_arg5)) shapeCasts_S512_S1x512 :=
  (Vin1_main_v17_at m ρ c).trans (congrArg (fun x => shapeCast S1x512 x shapeCasts_S512_S1x512) (W2_launch m ρ c main_arg5 (by decide) (by decide)))
theorem Vin1_main_v18_at (c : Dev nD) :
    Vin1 m ρ c main_v18 = shapeCast S1x512 (W2 m ρ c (Proc.devRef .tc main_arg7)) shapeCasts_S512_S1x512 := by
  show StableHlo.after hostOps1 _ (Proc.devRef .tc main_v18) = _
  after_results <;> rfl
theorem Vin1_main_v18 (c : Dev nD) :
    Vin1 m ρ c main_v18 = shapeCast S1x512 (m ((c : Thread nD τ).loc main_arg7)) shapeCasts_S512_S1x512 :=
  (Vin1_main_v18_at m ρ c).trans (congrArg (fun x => shapeCast S1x512 x shapeCasts_S512_S1x512) (W2_launch m ρ c main_arg7 (by decide) (by decide)))
theorem Vin1_main_v19_at (c : Dev nD) :
    Vin1 m ρ c main_v19 = shapeCast S1x512 (W2 m ρ c (Proc.devRef .tc main_arg9)) shapeCasts_S512_S1x512 := by
  show StableHlo.after hostOps1 _ (Proc.devRef .tc main_v19) = _
  after_results <;> rfl
theorem Vin1_main_v19 (c : Dev nD) :
    Vin1 m ρ c main_v19 = shapeCast S1x512 (m ((c : Thread nD τ).loc main_arg9)) shapeCasts_S512_S1x512 :=
  (Vin1_main_v19_at m ρ c).trans (congrArg (fun x => shapeCast S1x512 x shapeCasts_S512_S1x512) (W2_launch m ρ c main_arg9 (by decide) (by decide)))
theorem Vin1_main_v20_at (c : Dev nD) :
    Vin1 m ρ c main_v20 = shapeCast S1x512 (W2 m ρ c (Proc.devRef .tc main_arg13)) shapeCasts_S512_S1x512 := by
  show StableHlo.after hostOps1 _ (Proc.devRef .tc main_v20) = _
  after_results <;> rfl
theorem Vin1_main_v20 (c : Dev nD) :
    Vin1 m ρ c main_v20 = shapeCast S1x512 (m ((c : Thread nD τ).loc main_arg13)) shapeCasts_S512_S1x512 :=
  (Vin1_main_v20_at m ρ c).trans (congrArg (fun x => shapeCast S1x512 x shapeCasts_S512_S1x512) (W2_launch m ρ c main_arg13 (by decide) (by decide)))
theorem Vin1_main_v1 (c : Dev nD) : Vin1 m ρ c main_v1 = Vin0 m ρ c main_v1 :=
  (W3_keep m ρ c main_v1 (by decide)).trans (W2_input m ρ c 0 rfl)
theorem Vin1_main_v8 (c : Dev nD) : Vin1 m ρ c main_v8 = (dat0 (Vin0 m ρ) c).arrAt 5 cfg0.N :=
  W3_main_v8 m ρ c
theorem Vin1_main_arg2 (c : Dev nD) : Vin1 m ρ c main_arg2 = m ((c : Thread nD τ).loc main_arg2) :=
  W3_launch m ρ c main_arg2 (by decide) (by decide) (by decide)
theorem Vin1_main_arg3 (c : Dev nD) : Vin1 m ρ c main_arg3 = m ((c : Thread nD τ).loc main_arg3) :=
  W3_launch m ρ c main_arg3 (by decide) (by decide) (by decide)

/-! # The frame -/

/-- From any memory with every semaphore counter at zero, every weakly fair execution of @main on the TensorCores
    terminates, and every final memory holds each of the fourteen arguments as launched: `run_all`, read at the
    arguments' buffers. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
    (h c _ (mem_ucRefs main_arg0 (by decide))).trans (W5_main_arg0 m ρ c),
    (h c _ (mem_ucRefs main_arg1 (by decide))).trans (W5_main_arg1 m ρ c),
    (h c _ (mem_ucRefs main_arg2 (by decide))).trans (W5_main_arg2 m ρ c),
    (h c _ (mem_ucRefs main_arg3 (by decide))).trans (W5_main_arg3 m ρ c),
    (h c _ (mem_ucRefs main_arg4 (by decide))).trans (W5_main_arg4 m ρ c),
    (h c _ (mem_ucRefs main_arg5 (by decide))).trans (W5_main_arg5 m ρ c),
    (h c _ (mem_ucRefs main_arg6 (by decide))).trans (W5_main_arg6 m ρ c),
    (h c _ (mem_ucRefs main_arg7 (by decide))).trans (W5_main_arg7 m ρ c),
    (h c _ (mem_ucRefs main_arg8 (by decide))).trans (W5_main_arg8 m ρ c),
    (h c _ (mem_ucRefs main_arg9 (by decide))).trans (W5_main_arg9 m ρ c),
    (h c _ (mem_ucRefs main_arg10 (by decide))).trans (W5_main_arg10 m ρ c),
    (h c _ (mem_ucRefs main_arg11 (by decide))).trans (W5_main_arg11 m ρ c),
    (h c _ (mem_ucRefs main_arg12 (by decide))).trans (W5_main_arg12 m ρ c),
    (h c _ (mem_ucRefs main_arg13 (by decide))).trans (W5_main_arg13 m ρ c)⟩) (run_all m ρ)

/-- info: 'Cert.KernelIdeal.Gen.frame' depends on axioms: [propext, Classical.choice, Quot.sound] -/
#guard_msgs in #print axioms frame

end Cert.KernelIdeal.Gen

end
-- ==== Proof.K.R0.lean ====
/-
  The first kernel of the program, on its one grid point: the pooled global feature
      h_g = (mask · relu(X · W_gᵀ + b_g)) / Σ mask
  computed in one step from five operands staged whole (the rows X as a [8192, 512] block, the mask as a row
  [1, 8192], the transposed weight [512, 512], the bias row [1, 512] and the mask's sum as a [1, 1] block) into the
  one [1, 512] block of its result. This module says what the body leaves in that block — one store covering it,
  whose value is the body's arithmetic `k0_pay1` of the five loaded blocks — proves the body's triple, and states
  the proof data of the region at any contents `V` of the core's buffers at the region's entry. Nothing here depends
  on the float instance.
-/
import proofs.«171332_j72834055406175_2_alg».proof.Proof.Gen.Kernel.Launch
import proofs.«171332_j72834055406175_2_alg».proof.Proof.Gen.Kernel.Skeleton
import proofs.«171332_j72834055406175_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The operands' blocks -/

/-- The block of window `w`'s array that grid point `t` addresses, read off the contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 is staged whole at every point: whatever proof data has its array at `V` and leaves the
    block in place finds, in the window's current buffer, the block of the array the point's index selects. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 is staged whole at every point: whatever proof data has its array at `V` and leaves the
    block in place finds, in the window's current buffer, the block of the array the point's index selects. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 is staged whole at every point: whatever proof data has its array at `V` and leaves the
    block in place finds, in the window's current buffer, the block of the array the point's index selects. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 is staged whole at every point: whatever proof data has its array at `V` and leaves the
    block in place finds, in the window's current buffer, the block of the array the point's index selects. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 is staged whole at every point: whatever proof data has its array at `V` and leaves the
    block in place finds, in the window's current buffer, the block of the array the point's index selects. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: every access is the whole buffer -/

abbrev whole0_X : Rect S8192x512 := Rect.unit (s := S8192x512) ![0, 0] S8192x512.size inb_S8192x512_S8192x512_0_0
abbrev whole0_M : Rect S1x8192 := Rect.unit (s := S1x8192) ![0, 0] S1x8192.size inb_S1x8192_S1x8192_0_0
abbrev whole0_W : Rect S512x512 := Rect.unit (s := S512x512) ![0, 0] S512x512.size inb_S512x512_S512x512_0_0
abbrev whole0_B : Rect S1x512 := Rect.unit (s := S1x512) ![0, 0] S1x512.size inb_S1x512_S1x512_0_0
abbrev whole0_N : Rect S1x1 := Rect.unit (s := S1x1) ![0, 0] S1x1.size inb_S1x1_S1x1_0_0

/-! ## What the body leaves in the result's block -/

/-- The result block after the body: its one store, of the body's arithmetic on the five loaded operands
    (rows, mask row, weight, bias row, mask sum — the windows in their order). -/
def out0_5 (x0 : Vec F S8192x512 .bf16) (x1 : Vec F S1x8192 .f32) (x2 : Vec F S512x512 .bf16) (x3 : Vec F S1x512 .f32) (x4 : Vec F S1x1 .f32) :
    Vec F S1x512 .f32 :=
  View.canon [⟨whole0_B, k0_pay1 (View.ld x0 whole0_X) (View.ld x2 whole0_W) (View.ld x3 whole0_B) (View.ld x1 whole0_M) (View.ld x4 whole0_N)⟩]

/-- The one store is of the whole block, so it covers it. -/
theorem cover0_5 (p0 : Vec F S1x512 .f32) (y : S1x512.Idx) :
    ∃ pc ∈ ([⟨whole0_B, p0⟩] : List (View.Piece (Elt F) S1x512 .f32)), y ∈ pc.1.set :=
  View.cover_of_tiled [⟨whole0_B, p0⟩] S1x512.size (by rfl) y

/-! ## The body's triple -/

set_option maxHeartbeats 1000000 in
/-- The body, called on whole buffers holding the five operands and a result buffer at any contents, runs without a
    fault and returns with the operands as they were and the result buffer at `out0_5` of them. -/
theorem sound_kernel0 (c : Dev nD) (E : Set ℕ) (i : grid0.Coords)
    (a1 : Memref sig .tc .vmem S8192x512 .bf16) (h1 : a1.IsWhole) (a2 : Memref sig .tc .vmem S1x8192 .f32) (h2 : a2.IsWhole)
    (a3 : Memref sig .tc .vmem S512x512 .bf16) (h3 : a3.IsWhole) (a4 : Memref sig .tc .vmem S1x512 .f32) (h4 : a4.IsWhole)
    (a5 : Memref sig .tc .vmem S1x1 .f32) (h5 : a5.IsWhole) (a6 : Memref sig .tc .vmem S1x512 .f32) (h6 : a6.IsWhole)
    (x0 : Vec F S8192x512 .bf16) (x1 : Vec F S1x8192 .f32) (x2 : Vec F S512x512 .bf16) (x3 : Vec F S1x512 .f32) (x4 : Vec F S1x1 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (out0_5 x0 x1 x2 x3 x4)) -∗ K ⟨⟩))
      ⊢ wp frame (wpE (defs₀ (F := F)) Variants.none c none) E (cc0__hg_kernel i a1 h1 a2 h2 a3 h3 a4 h4 a5 h5 a6 h6) K := by
  simp only [cc0__hg_kernel_eq_skeleton]; unfold cc0__hg_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data of the region -/

/-- The region's proof data on core `c`: the arrays as the region finds them; after the body each operand's buffer
    still at its block and the result's at `out0_5` of the operands' blocks; the invariant is the untouched rest of the
    core's scoped memory and its generator register; nothing is owed to another core; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
/-- The result's block after point `t`: the body's store of its arithmetic on the operands' blocks. -/
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- The invariant is the same at both ends of the region. -/
theorem hin0 (c : Dev nD) : Pipeline.ΦA spec0 c ⊢ ((dat0 V c).Φ 0 : sProp 𝕄) := by
  rw [show (dat0 V c).Φ 0 = Pipeline.ΦA spec0 c from rfl]
theorem hout0 (c : Dev nD) : ((dat0 V c).Φ (Fin.last cfg0.N) : sProp 𝕄) ⊢ Pipeline.ΦA spec0 c := by
  rw [show (dat0 V c).Φ (Fin.last cfg0.N) = Pipeline.ΦA spec0 c from rfl]

/-! ## The body obligation -/

/-- What the body is handed at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- At any point the operands' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The region's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.K.R1Defs.lean ====
/-
  The second kernel of the program, on its grid of 8 row blocks × 4 column blocks (point t = 4·i + k): what its
  three ways through the body share. At every point the body adds, into two [1024, 512] accumulators it keeps in
  scratch memory, the products of the (i, k) blocks of the two adjacency matrices with rows 2048·k … of the feature
  matrix; at k = 0 it first clears the accumulators, and at k = 3 it afterwards forms the block's output rows from
  the accumulators and the dense layers' weights. This module names the windows' blocks, shows that each of the
  twelve operands is found staged at its block at every point, decides the two branch conditions over the grid
  (k = 0 is t ≡ 0, k = 3 is t ≡ 3 modulo 4), says where the output window is left untouched, and opens the region's
  invariant into the two accumulators and the rest. Nothing here depends on the float instance.
-/
import proofs.«171332_j72834055406175_2_alg».proof.Proof.Gen.Kernel.Launch
import proofs.«171332_j72834055406175_2_alg».proof.Proof.Gen.Kernel.Skeleton
import proofs.«171332_j72834055406175_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The operands' blocks -/

/-- The block of window `w`'s array that grid point `t` addresses, read off the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each operand window is found, at every point, holding the block its index selects — fetched there, or kept
    from the last point that fetched it (the index has not moved since) — for any proof data whose arrays are `V`'s
    and whose body leaves the operand's buffer as it found it. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The two branch conditions, over the grid -/

/-- The first branch (clear the accumulators) is taken when the column-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (form the output rows) is taken when the column-block coordinate is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is left untouched -/

theorem idleAt1_12 : ∀ t : Fin cfg1.N, ¬cond1_1 (grid1.coords t) → cfg1.idle 12 (grid1.coords t) = true := by decide +kernel
theorem noFlush1_12 : ∀ t : Fin cfg1.N, ¬cond1_1 (grid1.coords t) → (cfg1.win 12).flush t = false := by decide +kernel
theorem liveAt1_12 : ∀ t : Fin cfg1.N, cond1_1 (grid1.coords t) → cfg1.idle 12 (grid1.coords t) = false := by decide +kernel
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
theorem liveAt1_8 : ∀ t : Fin cfg1.N, cfg1.idle 8 (grid1.coords t) = false := by decide +kernel
theorem liveAt1_9 : ∀ t : Fin cfg1.N, cfg1.idle 9 (grid1.coords t) = false := by decide +kernel
theorem liveAt1_10 : ∀ t : Fin cfg1.N, cfg1.idle 10 (grid1.coords t) = false := by decide +kernel
theorem liveAt1_11 : ∀ t : Fin cfg1.N, cfg1.idle 11 (grid1.coords t) = false := by decide +kernel

/-! ## The buffers the body is called on -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x512 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x512 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x512 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x512 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1024x512 .f32 := win1_12.stage (cfg1.slots t 12)
abbrev hs1_12 (t : Fin cfg1.N) : (ms1_12 t).IsWhole := hstage1_12 ((cfg1.slots t 12).cast nbuf1_12)
/-- The two accumulators: whole scratch buffers of the kernel's own. -/
abbrev accM_ud : Memref sig .tc .vmem S1024x512 .f32 := Memref.whole cc1_scratch0
abbrev accM_lr : Memref sig .tc .vmem S1024x512 .f32 := Memref.whole cc1_scratch1
/-- One staging buffer of the output window, through which its contents are stated. -/
abbrev VO1_12 : View sig .tc .vmem S1024x512 .f32 := (Memref.whole cc1_stg12_0 : Memref sig .tc .vmem S1024x512 .f32).view

/-- The rest of the core's scoped memory the region does not use: the first kernel's six staging buffers, each
    whole at some contents. -/
def idleScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f))

/-- The region's starting invariant, opened: the unused scoped buffers, the two accumulators at some contents, and
    the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f)
          ∗ (∃ d, owns (c : Thread nD τ) accM_ud fullShare d) ∗ (∃ d, owns (c : Thread nD τ) accM_lr fullShare d)) ∗ (∃ r, prngReg c r)) := by
  unfold Pipeline.ΦA; rw [scopedRest1_eq]; simp only [accM_ud, accM_lr, owns_whole]; try rfl

end Cert.Kernel.Gen

end
-- ==== Proof.K.R1RunA.lean ====
/-
  The second kernel's body at a point whose column block is the first (k = 0): it clears the two accumulators and
  then accumulates into them. From the two adjacency blocks and the feature matrix, the accumulators at any contents,
  it runs without a fault and leaves the operands as they were and each accumulator overwritten whole (twice: the
  clearing store, then the accumulating one).
-/
import proofs.«171332_j72834055406175_2_alg».proof.Proof.K.R1Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two accumulators at such a point (found by running the body), with
    the body's triple. -/
noncomputable def run1_A (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : cond1_0 i) (hc1 : ¬cond1_1 i)
    (x0 x1 : Vec F S1024x2048 .f32) (x2 : Vec F S8192x512 .bf16) :
    Σ' (LS0 : List (View.Piece (Elt F) S1024x512 .f32)), { LS1 : List (View.Piece (Elt F) S1024x512 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ (∃ d, owns (c : Thread nD τ) a15 fullShare d) ∗ (∃ d, owns (c : Thread nD τ) a16 fullShare d)
            ∗ (iprop(owns (c : Thread nD τ) a2 fullShare x0 ∗ owns (c : Thread nD τ) a3 fullShare x1 ∗ owns (c : Thread nD τ) a4 fullShare x2 ∗ (∃ f, a15.view.loc (c : Thread nD τ) ↦[a15.view.set]{fullShare} a15.view.writes (Elt F) f LS0) ∗ (∃ f, a16.view.loc (c : Thread nD τ) ↦[a16.view.set]{fullShare} a16.view.writes (Elt F) f LS1)) -∗ K ⟨⟩))
          ⊢ wp frame (wpE (defs₀ (F := F)) Variants.none c none) E (cc1__main_kernel i a2 h2 a3 h3 a4 h4 a5 h5 a6 h6 a7 h7 a8 h8 a9 h9 a10 h10 a11 h11 a12 h12 a13 h13 a14 h14 a15 h15 a16 h16) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := h2.eq_unread hf0; obtain rfl := h3.eq_unread hf1; obtain rfl := h4.eq_unread hf2
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [HS0]; · iexists _; iexact HS0
    iexists _; iexact HS1

end Cert.Kernel.Gen

end
-- ==== Proof.K.R1RunB.lean ====
/-
  The second kernel's body at a point whose column block is neither the first nor the last (k = 1, 2): it only
  accumulates. From the two adjacency blocks, the feature matrix and the two accumulators at known contents it runs
  without a fault and leaves the operands as they were and each accumulator overwritten whole, by one store.
-/
import proofs.«171332_j72834055406175_2_alg».proof.Proof.K.R1Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two accumulators at such a point (found by running the body), with
    the body's triple. -/
noncomputable def run1_B (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : ¬cond1_1 i)
    (x0 x1 : Vec F S1024x2048 .f32) (x2 : Vec F S8192x512 .bf16) (s0 s1 : Vec F S1024x512 .f32) :
    Σ' (LS0 : List (View.Piece (Elt F) S1024x512 .f32)), { LS1 : List (View.Piece (Elt F) S1024x512 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a15 fullShare s0 ∗ owns (c : Thread nD τ) a16 fullShare s1
            ∗ (iprop(owns (c : Thread nD τ) a2 fullShare x0 ∗ owns (c : Thread nD τ) a3 fullShare x1 ∗ owns (c : Thread nD τ) a4 fullShare x2 ∗ (∃ f, a15.view.loc (c : Thread nD τ) ↦[a15.view.set]{fullShare} a15.view.writes (Elt F) f LS0) ∗ (∃ f, a16.view.loc (c : Thread nD τ) ↦[a16.view.set]{fullShare} a16.view.writes (Elt F) f LS1)) -∗ K ⟨⟩))
          ⊢ wp frame (wpE (defs₀ (F := F)) Variants.none c none) E (cc1__main_kernel i a2 h2 a3 h3 a4 h4 a5 h5 a6 h6 a7 h7 a8 h8 a9 h9 a10 h10 a11 h11 a12 h12 a13 h13 a14 h14 a15 h15 a16 h16) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := h2.eq_unread hf0; obtain rfl := h3.eq_unread hf1; obtain rfl := h4.eq_unread hf2
    obtain rfl := h15.eq_unread hfs0; obtain rfl := h16.eq_unread hfs1
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [HS0]; · iexists _; iexact HS0
    iexists _; iexact HS1

end Cert.Kernel.Gen

end
-- ==== Proof.K.R1RunC.lean ====
/-
  The second kernel's body at a point whose column block is the last (k = 3): it accumulates once more and then
  forms the block's output rows — the three dense layers of the feature rows and the two accumulators, the pooled
  feature's layer added to every row, and the rectifier — storing them whole into the output window's buffer. From
  all twelve operands and the two accumulators at known contents, the output buffer at any contents, it runs without
  a fault and leaves the operands as they were, each accumulator overwritten whole and the output buffer written whole.
-/
import proofs.«171332_j72834055406175_2_alg».proof.Proof.K.R1Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The pieces the body's stores leave in the output buffer and the two accumulators at such a point (found by
    running the body), with the body's triple. -/
noncomputable def run1_C (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : cond1_1 i)
    (x0 : Vec F S1024x2048 .f32) (x1 : Vec F S1024x2048 .f32) (x2 : Vec F S8192x512 .bf16) (x3 : Vec F S512x512 .bf16) (x4 : Vec F S1x512 .f32) (x5 : Vec F S512x512 .bf16) (x6 : Vec F S1x512 .f32) (x7 : Vec F S512x512 .bf16) (x8 : Vec F S1x512 .f32) (x9 : Vec F S1x512 .f32) (x10 : Vec F S512x512 .bf16) (x11 : Vec F S1x512 .f32) (s0 s1 : Vec F S1024x512 .f32) :
    Σ' (L12 : List (View.Piece (Elt F) S1024x512 .f32)) (LS0 : List (View.Piece (Elt F) S1024x512 .f32)), { LS1 : List (View.Piece (Elt F) S1024x512 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ (∃ d, owns (c : Thread nD τ) a14 fullShare d) ∗ owns (c : Thread nD τ) a15 fullShare s0 ∗ owns (c : Thread nD τ) a16 fullShare s1
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare x9 ∗ owns (c : Thread nD τ) a12 fullShare x10 ∗ owns (c : Thread nD τ) a13 fullShare x11 ∗ (∃ f, a14.view.loc (c : Thread nD τ) ↦[a14.view.set]{fullShare} a14.view.writes (Elt F) f L12) ∗ (∃ f, a15.view.loc (c : Thread nD τ) ↦[a15.view.set]{fullShare} a15.view.writes (Elt F) f LS0) ∗ (∃ f, a16.view.loc (c : Thread nD τ) ↦[a16.view.set]{fullShare} a16.view.writes (Elt F) f LS1)) -∗ K ⟨⟩))
          ⊢ wp frame (wpE (defs₀ (F := F)) Variants.none c none) E (cc1__main_kernel i a2 h2 a3 h3 a4 h4 a5 h5 a6 h6 a7 h7 a8 h8 a9 h9 a10 h10 a11 h11 a12 h12 a13 h13 a14 h14 a15 h15 a16 h16) K } := by
  refine ⟨?_, ?_, ?_, fun E K => ?run⟩
  case run =>
    simp only [cc1__main_kernel_eq_skeleton]; unfold cc1__main_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%fs1, %hfs1, HS1⟩, Hk⟩
    obtain rfl := h2.eq_unread hf0; obtain rfl := h3.eq_unread hf1; obtain rfl := h4.eq_unread hf2; obtain rfl := h5.eq_unread hf3; obtain rfl := h6.eq_unread hf4; obtain rfl := h7.eq_unread hf5; obtain rfl := h8.eq_unread hf6; obtain rfl := h9.eq_unread hf7; obtain rfl := h10.eq_unread hf8; obtain rfl := h11.eq_unread hf9; obtain rfl := h12.eq_unread hf10; obtain rfl := h13.eq_unread hf11
    obtain rfl := h15.eq_unread hfs0; obtain rfl := h16.eq_unread hfs1
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; isplitr; · ipureintro; exact h10.read_unread _
      iexact H8
    isplitl [H9]
    · iexists _; isplitr; · ipureintro; exact h11.read_unread _
      iexact H9
    isplitl [H10]
    · iexists _; isplitr; · ipureintro; exact h12.read_unread _
      iexact H10
    isplitl [H11]
    · iexists _; isplitr; · ipureintro; exact h13.read_unread _
      iexact H11
    isplitl [H12]; · iexists _; iexact H12
    isplitl [HS0]; · iexists _; iexact HS0
    iexists _; iexact HS1

end Cert.Kernel.Gen

end
-- ==== Proof.K.R1.lean ====
/-
  The second kernel of the program as a region: what its two accumulators and its output window hold after each grid
  point, by recursion on the point (t = 4·i + k): at k = 0 the accumulators are cleared and the first products added,
  at k = 1, 2 the next products are added to what the point before left, at k = 3 the last products are added and the
  block's output rows are formed from the accumulators. The region's invariant names the accumulators' contents from
  the first point on; the output window is untouched, and not written back, at the points with k < 3. From the three
  ways through the body (one module each) this module assembles the region's proof data and its body obligation.
  Nothing here depends on the float instance.
-/
import proofs.«171332_j72834055406175_2_alg».proof.Proof.K.R1RunA
import proofs.«171332_j72834055406175_2_alg».proof.Proof.K.R1RunB
import proofs.«171332_j72834055406175_2_alg».proof.Proof.K.R1RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of each way through the body cover the buffers they write -/

theorem scoverUd_A (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : cond1_0 i) (hc1 : ¬cond1_1 i) (x0 x1 : Vec F S1024x2048 .f32) (x2 : Vec F S8192x512 .bf16) (y : S1024x512.Idx) :
    ∃ pc ∈ (run1_A c i a2 h2 a3 h3 a4 h4 a5 h5 a6 h6 a7 h7 a8 h8 a9 h9 a10 h10 a11 h11 a12 h12 a13 h13 a14 h14 a15 h15 a16 h16 hc0 hc1 x0 x1 x2).1, y ∈ pc.1.set :=
  View.cover_of_tiledL (run1_A c i a2 h2 a3 h3 a4 h4 a5 h5 a6 h6 a7 h7 a8 h8 a9 h9 a10 h10 a11 h11 a12 h12 a13 h13 a14 h14 a15 h15 a16 h16 hc0 hc1 x0 x1 x2).1 S1024x512.size (by sl_kernel_rfl) y
theorem scoverLr_A (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : cond1_0 i) (hc1 : ¬cond1_1 i) (x0 x1 : Vec F S1024x2048 .f32) (x2 : Vec F S8192x512 .bf16) (y : S1024x512.Idx) :
    ∃ pc ∈ (run1_A c i a2 h2 a3 h3 a4 h4 a5 h5 a6 h6 a7 h7 a8 h8 a9 h9 a10 h10 a11 h11 a12 h12 a13 h13 a14 h14 a15 h15 a16 h16 hc0 hc1 x0 x1 x2).2.1, y ∈ pc.1.set :=
  View.cover_of_tiledL (run1_A c i a2 h2 a3 h3 a4 h4 a5 h5 a6 h6 a7 h7 a8 h8 a9 h9 a10 h10 a11 h11 a12 h12 a13 h13 a14 h14 a15 h15 a16 h16 hc0 hc1 x0 x1 x2).2.1 S1024x512.size (by sl_kernel_rfl) y
theorem scoverUd_B (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : ¬cond1_1 i) (x0 x1 : Vec F S1024x2048 .f32) (x2 : Vec F S8192x512 .bf16) (s0 s1 : Vec F S1024x512 .f32) (y : S1024x512.Idx) :
    ∃ pc ∈ (run1_B c i a2 h2 a3 h3 a4 h4 a5 h5 a6 h6 a7 h7 a8 h8 a9 h9 a10 h10 a11 h11 a12 h12 a13 h13 a14 h14 a15 h15 a16 h16 hc0 hc1 x0 x1 x2 s0 s1).1, y ∈ pc.1.set :=
  View.cover_of_tiledL (run1_B c i a2 h2 a3 h3 a4 h4 a5 h5 a6 h6 a7 h7 a8 h8 a9 h9 a10 h10 a11 h11 a12 h12 a13 h13 a14 h14 a15 h15 a16 h16 hc0 hc1 x0 x1 x2 s0 s1).1 S1024x512.size (by sl_kernel_rfl) y
theorem scoverLr_B (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : ¬cond1_1 i) (x0 x1 : Vec F S1024x2048 .f32) (x2 : Vec F S8192x512 .bf16) (s0 s1 : Vec F S1024x512 .f32) (y : S1024x512.Idx) :
    ∃ pc ∈ (run1_B c i a2 h2 a3 h3 a4 h4 a5 h5 a6 h6 a7 h7 a8 h8 a9 h9 a10 h10 a11 h11 a12 h12 a13 h13 a14 h14 a15 h15 a16 h16 hc0 hc1 x0 x1 x2 s0 s1).2.1, y ∈ pc.1.set :=
  View.cover_of_tiledL (run1_B c i a2 h2 a3 h3 a4 h4 a5 h5 a6 h6 a7 h7 a8 h8 a9 h9 a10 h10 a11 h11 a12 h12 a13 h13 a14 h14 a15 h15 a16 h16 hc0 hc1 x0 x1 x2 s0 s1).2.1 S1024x512.size (by sl_kernel_rfl) y
theorem cover12_C (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : cond1_1 i) (x0 : Vec F S1024x2048 .f32) (x1 : Vec F S1024x2048 .f32) (x2 : Vec F S8192x512 .bf16) (x3 : Vec F S512x512 .bf16) (x4 : Vec F S1x512 .f32) (x5 : Vec F S512x512 .bf16) (x6 : Vec F S1x512 .f32) (x7 : Vec F S512x512 .bf16) (x8 : Vec F S1x512 .f32) (x9 : Vec F S1x512 .f32) (x10 : Vec F S512x512 .bf16) (x11 : Vec F S1x512 .f32) (s0 s1 : Vec F S1024x512 .f32) (y : S1024x512.Idx) :
    ∃ pc ∈ (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).1, y ∈ pc.1.set :=
  View.cover_of_tiledL (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).1 S1024x512.size (by sl_kernel_rfl) y
theorem scoverUd_C (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : cond1_1 i) (x0 : Vec F S1024x2048 .f32) (x1 : Vec F S1024x2048 .f32) (x2 : Vec F S8192x512 .bf16) (x3 : Vec F S512x512 .bf16) (x4 : Vec F S1x512 .f32) (x5 : Vec F S512x512 .bf16) (x6 : Vec F S1x512 .f32) (x7 : Vec F S512x512 .bf16) (x8 : Vec F S1x512 .f32) (x9 : Vec F S1x512 .f32) (x10 : Vec F S512x512 .bf16) (x11 : Vec F S1x512 .f32) (s0 s1 : Vec F S1024x512 .f32) (y : S1024x512.Idx) :
    ∃ pc ∈ (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).2.1, y ∈ pc.1.set :=
  View.cover_of_tiledL (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).2.1 S1024x512.size (by sl_kernel_rfl) y
theorem scoverLr_C (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : cond1_1 i) (x0 : Vec F S1024x2048 .f32) (x1 : Vec F S1024x2048 .f32) (x2 : Vec F S8192x512 .bf16) (x3 : Vec F S512x512 .bf16) (x4 : Vec F S1x512 .f32) (x5 : Vec F S512x512 .bf16) (x6 : Vec F S1x512 .f32) (x7 : Vec F S512x512 .bf16) (x8 : Vec F S1x512 .f32) (x9 : Vec F S1x512 .f32) (x10 : Vec F S512x512 .bf16) (x11 : Vec F S1x512 .f32) (s0 s1 : Vec F S1024x512 .f32) (y : S1024x512.Idx) :
    ∃ pc ∈ (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).2.2.1, y ∈ pc.1.set :=
  View.cover_of_tiledL (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).2.2.1 S1024x512.size (by sl_kernel_rfl) y

section Region1

variable (V : (c : Dev nD) → (b : Ref sig .tc) → Buf (Elt F) ((c : Thread nD τ).loc b))

/-! ## Each way through the body at a grid point, on the buffers the pipeline passes there and the operands' blocks -/

abbrev runA_at (c : Dev nD) (t : Fin cfg1.N) (hc0 : cond1_0 (grid1.coords t)) (hc1 : ¬cond1_1 (grid1.coords t)) :=
  run1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) accM_ud (Memref.isWhole_whole _) accM_lr (Memref.isWhole_whole _) hc0 hc1 (iblk1 V c 0 t) (iblk1 V c 1 t) (iblk1 V c 2 t)
abbrev runB_at (c : Dev nD) (t : Fin cfg1.N) (hc0 : ¬cond1_0 (grid1.coords t)) (hc1 : ¬cond1_1 (grid1.coords t)) (s0 s1 : Vec F S1024x512 .f32) :=
  run1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) accM_ud (Memref.isWhole_whole _) accM_lr (Memref.isWhole_whole _) hc0 hc1 (iblk1 V c 0 t) (iblk1 V c 1 t) (iblk1 V c 2 t) s0 s1
abbrev runC_at (c : Dev nD) (t : Fin cfg1.N) (hc0 : ¬cond1_0 (grid1.coords t)) (hc1 : cond1_1 (grid1.coords t)) (s0 s1 : Vec F S1024x512 .f32) :=
  run1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) accM_ud (Memref.isWhole_whole _) accM_lr (Memref.isWhole_whole _) hc0 hc1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) s0 s1

/-- What a list of whole-buffer stores leaves in an accumulator, read back. -/
abbrev readUd (L : List (View.Piece (Elt F) S1024x512 .f32)) : Vec F S1024x512 .f32 :=
  accM_ud.view.read (Elt F) (accM_ud.view.writes (Elt F) accM_ud.view.junk L)
abbrev readLr (L : List (View.Piece (Elt F) S1024x512 .f32)) : Vec F S1024x512 .f32 :=
  accM_lr.view.read (Elt F) (accM_lr.view.writes (Elt F) accM_lr.view.junk L)
abbrev readOut (L : List (View.Piece (Elt F) S1024x512 .f32)) : Vec F S1024x512 .f32 :=
  VO1_12.read (Elt F) (VO1_12.writes (Elt F) VO1_12.junk L)

/-! ## What the output window and the accumulators hold after each point -/

/-- After the point at position `n`: (the output window's buffer, the first accumulator, the second accumulator).
    The output component is a placeholder at the points with k < 3, where the window is neither stored into nor
    written back. -/
def outsAt1 (c : Dev nD) : (n : ℕ) → n < cfg1.N → Vec F S1024x512 .f32 × Vec F S1024x512 .f32 × Vec F S1024x512 .f32
  | 0, hn =>
    (readOut [],
     readUd (runA_at V c ⟨0, hn⟩ ((hcond1_0 ⟨0, hn⟩).mpr (Nat.zero_mod _)) (fun h => absurd ((hcond1_1 ⟨0, hn⟩).mp h) (by show ¬(0 % 4 = 3); omega))).1,
     readLr (runA_at V c ⟨0, hn⟩ ((hcond1_0 ⟨0, hn⟩).mpr (Nat.zero_mod _)) (fun h => absurd ((hcond1_1 ⟨0, hn⟩).mp h) (by show ¬(0 % 4 = 3); omega))).2.1)
  | n + 1, hn =>
    if h0 : (n + 1) % 4 = 0 then
      (readOut [],
       readUd (runA_at V c ⟨n + 1, hn⟩ ((hcond1_0 ⟨n + 1, hn⟩).mpr h0) (fun h => absurd ((hcond1_1 ⟨n + 1, hn⟩).mp h) (by show ¬(n + 1) % 4 = 3; omega))).1,
       readLr (runA_at V c ⟨n + 1, hn⟩ ((hcond1_0 ⟨n + 1, hn⟩).mpr h0) (fun h => absurd ((hcond1_1 ⟨n + 1, hn⟩).mp h) (by show ¬(n + 1) % 4 = 3; omega))).2.1)
    else
      if h1 : (n + 1) % 4 = 3 then
        (readOut (runC_at V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2).1,
         readUd (runC_at V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2).2.1,
         readLr (runC_at V c ⟨n + 1, hn⟩ (fun h => h0 ((hcond1_0 ⟨n + 1, hn⟩).mp h)) ((hcond1_1 ⟨n + 1, hn⟩).mpr h1) (outsAt1 c n (Nat.lt_of_succ_lt hn)).2.1 (outsAt1 c n (Nat.lt_of_succ_lt hn)).2.2).2.2.1)
      else
        (readOut [],
         readUd (runB_at V c ⟨n + 1, hn⟩ (fun h => h0 ((hcond1_0 ⟨n + 1, hn⟩).mp h)) (fun h => h1 ((hcond1_1 ⟨n + 1, hn⟩).mp h)) (outsAt1 c n (Nat.lt_of_succ_lt hn)).2.1 (outsAt1 c n (Nat.lt_of_succ_lt hn)).2.2).1,
         readLr (runB_at V c ⟨n + 1, hn⟩ (fun h => h0 ((hcond1_0 ⟨n + 1, hn⟩).mp h)) (fun h => h1 ((hcond1_1 ⟨n + 1, hn⟩).mp h)) (outsAt1 c n (Nat.lt_of_succ_lt hn)).2.1 (outsAt1 c n (Nat.lt_of_succ_lt hn)).2.2).2.1)

/-- At a point with k = 0. -/
theorem outsAt1_A (c : Dev nD) (t : Fin cfg1.N) (h0 : t.val % 4 = 0) (hc1 : ¬cond1_1 (grid1.coords t)) :
    outsAt1 V c t.val t.isLt
      = (readOut [], readUd (runA_at V c t ((hcond1_0 t).mpr h0) hc1).1, readLr (runA_at V c t ((hcond1_0 t).mpr h0) hc1).2.1) := by
  obtain ⟨n, hn⟩ := t
  cases n with
  | zero => exact rfl
  | succ n => exact (dif_pos h0).trans rfl

/-- At a point with k = 1 or 2: over what the point before left in the accumulators. -/
theorem outsAt1_B (c : Dev nD) (t : Fin cfg1.N) (h0 : ¬t.val % 4 = 0) (h1 : ¬t.val % 4 = 3) :
    outsAt1 V c t.val t.isLt
      = (readOut [],
         readUd (runB_at V c t (fun h => h0 ((hcond1_0 t).mp h)) (fun h => h1 ((hcond1_1 t).mp h)) (outsAt1 V c (t.val - 1) (Nat.lt_of_le_of_lt (Nat.sub_le _ _) t.isLt)).2.1 (outsAt1 V c (t.val - 1) (Nat.lt_of_le_of_lt (Nat.sub_le _ _) t.isLt)).2.2).1,
         readLr (runB_at V c t (fun h => h0 ((hcond1_0 t).mp h)) (fun h => h1 ((hcond1_1 t).mp h)) (outsAt1 V c (t.val - 1) (Nat.lt_of_le_of_lt (Nat.sub_le _ _) t.isLt)).2.1 (outsAt1 V c (t.val - 1) (Nat.lt_of_le_of_lt (Nat.sub_le _ _) t.isLt)).2.2).2.1) := by
  obtain ⟨n, hn⟩ := t
  cases n with
  | zero => exact absurd (Nat.zero_mod _) h0
  | succ n => exact (dif_neg h0).trans ((dif_neg h1).trans rfl)

/-- At a point with k = 3: over what the point before left in the accumulators. -/
theorem outsAt1_C (c : Dev nD) (t : Fin cfg1.N) (h0 : ¬t.val % 4 = 0) (h1 : t.val % 4 = 3) :
    outsAt1 V c t.val t.isLt
      = (readOut (runC_at V c t (fun h => h0 ((hcond1_0 t).mp h)) ((hcond1_1 t).mpr h1) (outsAt1 V c (t.val - 1) (Nat.lt_of_le_of_lt (Nat.sub_le _ _) t.isLt)).2.1 (outsAt1 V c (t.val - 1) (Nat.lt_of_le_of_lt (Nat.sub_le _ _) t.isLt)).2.2).1,
         readUd (runC_at V c t (fun h => h0 ((hcond1_0 t).mp h)) ((hcond1_1 t).mpr h1) (outsAt1 V c (t.val - 1) (Nat.lt_of_le_of_lt (Nat.sub_le _ _) t.isLt)).2.1 (outsAt1 V c (t.val - 1) (Nat.lt_of_le_of_lt (Nat.sub_le _ _) t.isLt)).2.2).2.1,
         readLr (runC_at V c t (fun h => h0 ((hcond1_0 t).mp h)) ((hcond1_1 t).mpr h1) (outsAt1 V c (t.val - 1) (Nat.lt_of_le_of_lt (Nat.sub_le _ _) t.isLt)).2.1 (outsAt1 V c (t.val - 1) (Nat.lt_of_le_of_lt (Nat.sub_le _ _) t.isLt)).2.2).2.2.1) := by
  obtain ⟨n, hn⟩ := t
  cases n with
  | zero => exact absurd (Nat.zero_mod _) h0
  | succ n => exact (dif_neg h0).trans ((dif_pos h1).trans rfl)

/-! ## The region's invariant -/

/-- Before position `n`: at the region's entry the unused scoped buffers, the accumulators and the generator
    register at anything; afterwards the accumulators at what the point before left in them. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ owns (c : Thread nD τ) accM_ud fullShare ((outsAt1 V c n hn).2.1) ∗ owns (c : Thread nD τ) accM_lr fullShare ((outsAt1 V c n hn).2.2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ owns (c : Thread nD τ) accM_ud fullShare ((outsAt1 V c n hn).2.1) ∗ owns (c : Thread nD τ) accM_lr fullShare ((outsAt1 V c n hn).2.2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ owns (c : Thread nD τ) accM_ud fullShare ((outsAt1 V c (n - 1) (by omega)).2.1) ∗ owns (c : Thread nD τ) accM_lr fullShare ((outsAt1 V c (n - 1) (by omega)).2.2)) ∗ (∃ r, prngReg c r)) := by
  cases n with
  | zero => exact absurd rfl hz
  | succ n => rfl

/-! ## The proof data of the region -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
/-- The output window's buffer after point `t`. -/
theorem after1_12 (c : Dev nD) (t : Fin cfg1.N) : (dat1 V c).after 12 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation -/

/-- What the body is handed at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- What it hands back: an untouched window as it was handed over. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t)

set_option maxHeartbeats 4800000 in
/-- At any point the operands' buffers hold their blocks; the point's position modulo 4 says which way through the
    body it takes, and that way's triple applies: the invariant hands it the accumulators (at anything at the very
    first point, else at what the point before left) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  rw [show (dat1 V c).leavesExact 9 t = owns (c : Thread nD τ) (ms1_9 t) fullShare ((dat1 V c).after 9 t) from by
    unfold Dat.leavesExact; rw [liveAt1_9 t], after1_9]
  rw [show (dat1 V c).leavesExact 10 t = owns (c : Thread nD τ) (ms1_10 t) fullShare ((dat1 V c).after 10 t) from by
    unfold Dat.leavesExact; rw [liveAt1_10 t], after1_10]
  rw [show (dat1 V c).leavesExact 11 t = owns (c : Thread nD τ) (ms1_11 t) fullShare ((dat1 V c).after 11 t) from by
    unfold Dat.leavesExact; rw [liveAt1_11 t], after1_11]
  have hN : t.val < 32 := lt_of_lt_of_eq t.isLt (show cfg1.N = 32 from N_1)
  by_cases h0 : t.val % 4 = 0
  · have h1 : ¬t.val % 4 = 3 := by omega
    have hc1 : ¬cond1_1 (grid1.coords t) := fun h => h1 ((hcond1_1 t).mp h)
    rw [Dat.leavesExact_idle (dat1 V c) 12 t (idleAt1_12 t hc1) (noFlush1_12 t hc1)]
    rw [outsAt1_A V c t h0 hc1]
    (try dsimp only)
    by_cases hz : t.val = 0
    · rw [PhiS_castSucc V c t, PhiS_zero V c _ _ hz, PhiA1_eq]
      iintro ⟨⟨⟨Hs1, Hs2, Hs3, Hs4, Hs5, Hs6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA_at V c t ((hcond1_0 t).mpr h0) hc1).2.2 Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [Hs1 Hs2 Hs3 Hs4 Hs5 Hs6 HS0 HS1 Hg]
      · isplitl [Hs1 Hs2 Hs3 Hs4 Hs5 Hs6 HS0 HS1]
        · isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [HS0]
          · unfold owns; iexists _; isplitr
            swap; · iexact HS0
            ipureintro; exact View.read_writes_of_cover _ _ _ _ _ (scoverUd_A c _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scoverLr_A c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    · rw [PhiS_castSucc V c t, PhiS_pos V c _ _ hz]
      iintro ⟨⟨⟨Hs1, Hs2, Hs3, Hs4, Hs5, Hs6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA_at V c t ((hcond1_0 t).mpr h0) hc1).2.2 Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [Hs1 Hs2 Hs3 Hs4 Hs5 Hs6 HS0 HS1 Hg]
      · isplitl [Hs1 Hs2 Hs3 Hs4 Hs5 Hs6 HS0 HS1]
        · isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [HS0]
          · unfold owns; iexists _; isplitr
            swap; · iexact HS0
            ipureintro; exact View.read_writes_of_cover _ _ _ _ _ (scoverUd_A c _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scoverLr_A c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
  · have hz : t.val ≠ 0 := fun h => h0 (by rw [h])
    by_cases h1 : t.val % 4 = 3
    · have hc0 : ¬cond1_0 (grid1.coords t) := fun h => h0 ((hcond1_0 t).mp h)
      have hc1 : cond1_1 (grid1.coords t) := (hcond1_1 t).mpr h1
      rw [show (dat1 V c).leavesExact 12 t = owns (c : Thread nD τ) (ms1_12 t) fullShare ((dat1 V c).after 12 t) from by
        unfold Dat.leavesExact; rw [liveAt1_12 t hc1], after1_12]
      rw [outsAt1_C V c t h0 h1]
      (try dsimp only)
      rw [PhiS_castSucc V c t, PhiS_pos V c _ _ hz]
      iintro ⟨⟨⟨Hs1, Hs2, Hs3, Hs4, Hs5, Hs6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runC_at V c t hc0 hc1 _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      iintro ⟨H0, H1, H2, H3, H4, H5, H6, H7, H8, H9, H10, H11, ⟨%e12, H12⟩, ⟨%es0, HS0⟩, ⟨%es1, HS1⟩⟩
      isplitl [Hs1 Hs2 Hs3 Hs4 Hs5 Hs6 HS0 HS1 Hg]
      · isplitl [Hs1 Hs2 Hs3 Hs4 Hs5 Hs6 HS0 HS1]
        · isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [HS0]
          · unfold owns; iexists _; isplitr
            swap; · iexact HS0
            ipureintro; exact View.read_writes_of_cover _ _ _ _ _ (scoverUd_C c _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scoverLr_C c _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover12_C c _ _ _ _ _ _ _ _ _ _ _ _ _ _ _ _ _ _ _ _ _ _ _ _ _ _ _ _ _ _ _ _ _ _ _ _ _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 12 t (idleAt1_12 t hc1) (noFlush1_12 t hc1)]
      rw [outsAt1_B V c t h0 h1]
      (try dsimp only)
      rw [PhiS_castSucc V c t, PhiS_pos V c _ _ hz]
      iintro ⟨⟨⟨Hs1, Hs2, Hs3, Hs4, Hs5, Hs6, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runB_at V c t hc0 hc1 _ _).2.2 Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [Hs1 Hs2 Hs3 Hs4 Hs5 Hs6 HS0 HS1 Hg]
      · isplitl [Hs1 Hs2 Hs3 Hs4 Hs5 Hs6 HS0 HS1]
        · isplitl [Hs1]; · iexact Hs1
          isplitl [Hs2]; · iexact Hs2
          isplitl [Hs3]; · iexact Hs3
          isplitl [Hs4]; · iexact Hs4
          isplitl [Hs5]; · iexact Hs5
          isplitl [Hs6]; · iexact Hs6
          isplitl [HS0]
          · unfold owns; iexists _; isplitr
            swap; · iexact HS0
            ipureintro; exact View.read_writes_of_cover _ _ _ _ _ (scoverUd_B c _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scoverLr_B c _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12

/-- The region's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ ((dat1 V c).Φ 0 : sProp 𝕄) := by
  rw [show (dat1 V c).Φ 0 = PhiS V c 0 (Nat.zero_le _) from rfl, PhiS_zero V c 0 _ rfl]

/-- After the last point the invariant gives the same back: the accumulators' named contents are forgotten. -/
theorem hout1 (c : Dev nD) : ((dat1 V c).Φ (Fin.last cfg1.N) : sProp 𝕄) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 32 := N_1; omega), PhiA1_eq]
  iintro ⟨⟨Hs1, Hs2, Hs3, Hs4, Hs5, Hs6, HS0, HS1⟩, Hg⟩
  isplitl [Hs1 Hs2 Hs3 Hs4 Hs5 Hs6 HS0 HS1]
  · isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [HS0]; · iexists _; iexact HS0
    iexists _; iexact HS1
  iexact Hg

end Region1

end Cert.Kernel.Gen

end
-- ==== Proof.K.Run.lean ====
import proofs.«171332_j72834055406175_2_alg».proof.Proof.Gen.Kernel.Launch
import proofs.«171332_j72834055406175_2_alg».proof.Proof.Gen.Kernel.Regions
import proofs.«171332_j72834055406175_2_alg».proof.Proof.K.R0
import proofs.«171332_j72834055406175_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # The run of @main: host operations, region 0, host operations, region 1, a final reshape

The program is five segments. Between two segments every unscoped buffer of the TensorCore is held whole at a named
valuation; the six valuations are a fold from the launch memory: a stretch of host operations rewrites its results
(`StableHlo.after`), a region leaves its windows' arrays at what the pipeline's write-backs made of them
(`Dat.arrAt … N`) and every other buffer as it found it. -/

variable (m : (ℓ : Loc nD τ sig) → Buf (Elt F) ℓ) (ρ : Dev nD → PrngReg)

/-! ## The six boundary valuations -/

/-- The buffers of core `c` at launch. -/
abbrev W0 : Dev nD → Valuation τ sig (Elt F) := fun c b => (s₀ m ρ).mem ((c : Dev nD), b)
/-- After the first nine host operations: what region 0 is entered with. -/
abbrev W1 : Dev nD → Valuation τ sig (Elt F) := fun c => StableHlo.after hostOps0 (W0 m ρ c)
/-- `W1` at the TensorCore's own references: the entry contents region 0's proof data are stated at. -/
abbrev Vin0 : (c : Dev nD) → (b : Ref sig .tc) → Buf (Elt F) ((c : Thread nD τ).loc b) := fun c b => W1 m ρ c b
/-- When region 0 returns: its six arrays as the pipeline left them, the rest as at entry. -/
def W2 (c : Dev nD) : Valuation τ sig (Elt F) :=
  Pipeline.withArrays spec0 c (W1 m ρ c) fun w => (dat0 (Vin0 m ρ) c).arrAt w cfg0.N
/-- After the twelve host operations between the regions: what region 1 is entered with. -/
abbrev W3 : Dev nD → Valuation τ sig (Elt F) := fun c => StableHlo.after hostOps1 (W2 m ρ c)
/-- `W3` at the TensorCore's own references: the entry contents region 1's proof data are stated at. -/
abbrev Vin1 : (c : Dev nD) → (b : Ref sig .tc) → Buf (Elt F) ((c : Thread nD τ).loc b) := fun c b => W3 m ρ c b
/-- When region 1 returns: its thirteen arrays as the pipeline left them, the rest as at entry. -/
def W4 (c : Dev nD) : Valuation τ sig (Elt F) :=
  Pipeline.withArrays spec1 c (W3 m ρ c) fun w => (dat1 (Vin1 m ρ) c).arrAt w cfg1.N
/-- After the final reshape: what the program returns with. -/
abbrev W5 : Dev nD → Valuation τ sig (Elt F) := fun c => StableHlo.after hostOps2 (W4 m ρ c)

/-! ## A region's exit valuation, read at one of its arrays and off them -/

theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_off (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (Vin1 m ρ) c).arrAt w cfg1.N := by
  unfold W4; exact Pipeline.withArrays_arr spec1 launch1.win.arr_inj c _ _ w
theorem W4_off (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-- The exit valuations at the TensorCore's own references. -/
abbrev Vout0 : (c : Dev nD) → (b : Ref sig .tc) → Buf (Elt F) ((c : Thread nD τ).loc b) := fun c b => W2 m ρ c b
abbrev Vout1 : (c : Dev nD) → (b : Ref sig .tc) → Buf (Elt F) ((c : Thread nD τ).loc b) := fun c b => W4 m ρ c b

/-- Region 0's exit valuation has each array at the pipeline's final contents and agrees with the entry valuation
    off the arrays: the two facts that put the arrays back among the unscoped buffers. -/
theorem Vout0_arr (c : Dev nD) (w : Fin cfg0.W) : (dat0 (Vin0 m ρ) c).arrAt w cfg0.N = Vout0 m ρ c (Pipeline.arrRef spec0 w) :=
  (W2_arr m ρ c w).symm
theorem Vout0_off (c : Dev nD) : ∀ b, b ∉ Finset.univ.image (Pipeline.arrRef spec0) → Vout0 m ρ c b = Vin0 m ρ c b :=
  fun b hb => W2_off m ρ c b fun w e => hb (Finset.mem_image.mpr ⟨w, Finset.mem_univ _, e⟩)
/-- The same for region 1. -/
theorem Vout1_arr (c : Dev nD) (w : Fin cfg1.W) : (dat1 (Vin1 m ρ) c).arrAt w cfg1.N = Vout1 m ρ c (Pipeline.arrRef spec1 w) :=
  (W4_arr m ρ c w).symm
theorem Vout1_off (c : Dev nD) : ∀ b, b ∉ Finset.univ.image (Pipeline.arrRef spec1) → Vout1 m ρ c b = Vin1 m ρ c b :=
  fun b hb => W4_off m ρ c b fun w e => hb (Finset.mem_image.mpr ⟨w, Finset.mem_univ _, e⟩)

/-! # The proof data of both pipelines, and what rides beside the buffers -/

/-- Both pipelines' proof data, each at the contents its region is entered with. A literal `match` on the pipeline's
    index, so that `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c

/-- No protocol variant, no cross-core dues: no level is assigned to any pair. -/
abbrev noVar : Variants := Variants.none
abbrev noPairs : GSem nD τ sig → Finset Unit := fun _ => ∅
abbrev noLev : GSem nD τ sig → Unit → ℕ := fun _ _ => 0

/-- Beside the buffers a core carries, through all five segments, its generator register at some state (a region's
    invariant takes it in and gives it back) and the statement that it owes nothing. -/
abbrev rest (c : Dev nD) : sProp 𝕄 :=
  iprop((∃ r, prngReg c r) ∗ ∃ W, owes (c : Thread nD τ) (0 : CellTallies nD τ sig Unit) W)

/-- A stretch of host operations as a segment: it runs within the unscoped buffers held at `W`, with `rest` beside
    them, to the same buffers at `StableHlo.after ops (W c)`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs noLev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- An unscoped reference of the TensorCore is one of the buffers the thread state holds. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The thread state at the return, the dues apart: every unscoped buffer at `W5`, the generator register somewhere. -/
abbrev Tend (c : Dev nD) : sProp 𝕄 :=
  iprop(StableHlo.held (c : Thread nD τ) (Pipeline.ucRefs τ sig) (W5 m ρ c) ∗ ∃ r, prngReg c r)

/-! # The two regions as segments

A region is entered from every unscoped buffer at its entry valuation. Its arrays are split out of them, the rest
bypasses the region; the generator register (with the scoped buffers no window stages) enters the body's invariant
through the kernel's own `hinK` and comes back through `houtK`; at the exit the arrays, now at the pipeline's final
contents, rejoin the rest at the exit valuation. Neither kernel has a semaphore of its own, neither owes anything. -/

-- a library lemma stated over `pin pcs a p` meets the pinned configuration only when unification may unfold
-- plain definitions inside a metavariable's type
set_option backward.isDefEq.respectTransparency.types false in
def region0 : Pipeline.RegionSeg (pcfgs (F := F)) adm (pdats m ρ) () defs₀ noVar noPairs noLev 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ noPairs noLev 0 fun _ _ => rfl
  pre c := iprop(StableHlo.held (c : Thread nD τ) (Pipeline.ucRefs τ sig) (W1 m ρ c) ∗ rest c)
  post c := iprop(StableHlo.held (c : Thread nD τ) (Pipeline.ucRefs τ sig) (W2 m ρ c) ∗ rest c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun w => A_eq0 (Vin0 m ρ) c w
    rw [Pipeline.unscopedBufs_held] at hsplit
    iintro ⟨⟨Hbufs, Hreg, Hdue⟩, -, -⟩
    ihave Hs := hsplit $$ Hbufs
    icases Hs with ⟨Harr, Hoff⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%S, Hdue⟩; iexists S; isplitr; · ipureintro; exact fun _ _ => Or.inl trivial
      iexact Hdue
    isplitl [Hreg]; · iexact Hreg
    iexact Hoff
  hin c := by
    refine BIBase.Entails.trans ?_ (hin0 (Vin0 m ρ) c)
    unfold Pipeline.ΦA
    iintro ⟨Hreg, -, Hsc⟩
    isplitl [Hsc]; · iexact Hsc
    iexact Hreg
  hout c := by
    rw [Pipeline.ownSems0_none]
    refine BIBase.Entails.trans (hout0 (Vin0 m ρ) c) ?_
    unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (Vout0_arr m ρ c) (Vout0_off m ρ c)
    rw [Pipeline.unscopedBufs_held] at hjoin
    iintro ⟨Harr, Hdue, Hreg, Hoff⟩
    imodintro
    isplitl [Harr Hoff]
    · iapply hjoin; isplitl [Harr] <;> iassumption
    isplitl [Hreg]; · iexact Hreg
    unfold Pipeline.Dat.owesAt Pipeline.owesWithin
    icases Hdue with ⟨%S, -, Hdue⟩; iexists S; iexact Hdue

-- as for region 0
set_option backward.isDefEq.respectTransparency.types false in
def region1 : Pipeline.RegionSeg (pcfgs (F := F)) adm (pdats m ρ) () defs₀ noVar noPairs noLev 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ noPairs noLev 1 fun _ _ => rfl
  pre c := iprop(StableHlo.held (c : Thread nD τ) (Pipeline.ucRefs τ sig) (W3 m ρ c) ∗ rest c)
  post c := iprop(StableHlo.held (c : Thread nD τ) (Pipeline.ucRefs τ sig) (W4 m ρ c) ∗ rest c)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun w => A_eq1 (Vin1 m ρ) c w
    rw [Pipeline.unscopedBufs_held] at hsplit
    iintro ⟨⟨Hbufs, Hreg, Hdue⟩, -, -⟩
    ihave Hs := hsplit $$ Hbufs
    icases Hs with ⟨Harr, Hoff⟩
    imodintro
    isplitl [Harr]; · iexact Harr
    isplitr; · unfold Pipeline.prefHeld; rw [show (Finset.univ : Finset (Fin 0)) = ∅ from rfl, BI.bigSep_empty]; iempintro
    isplitl [Hdue]
    · unfold Pipeline.Dat.owesAt Pipeline.owesWithin
      icases Hdue with ⟨%S, Hdue⟩; iexists S; isplitr; · ipureintro; exact fun _ _ => Or.inl trivial
      iexact Hdue
    isplitl [Hreg]; · iexact Hreg
    iexact Hoff
  hin c := by
    refine BIBase.Entails.trans ?_ (hin1 (Vin1 m ρ) c)
    unfold Pipeline.ΦA
    iintro ⟨Hreg, -, Hsc⟩
    isplitl [Hsc]; · iexact Hsc
    iexact Hreg
  hout c := by
    rw [Pipeline.ownSems0_none]
    refine BIBase.Entails.trans (hout1 (Vin1 m ρ) c) ?_
    unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (Vout1_arr m ρ c) (Vout1_off m ρ c)
    rw [Pipeline.unscopedBufs_held] at hjoin
    iintro ⟨Harr, Hdue, Hreg, Hoff⟩
    imodintro
    isplitl [Harr Hoff]
    · iapply hjoin; isplitl [Harr] <;> iassumption
    isplitl [Hreg]; · iexact Hreg
    unfold Pipeline.Dat.owesAt Pipeline.owesWithin
    icases Hdue with ⟨%S, -, Hdue⟩; iexists S; iexact Hdue

/-! # @main as its five segments, and the launch -/

/-- The five segments in @main's order. -/
abbrev runSegs : List (Pipeline.Seg (pcfgs (F := F)) adm (pdats m ρ) () defs₀ noVar noPairs noLev) :=
  [ .host (hostSeg hostOps0 hostOps0_sub hostOps0_fresh (W0 m ρ)),
    .region (region0 m ρ),
    .host (hostSeg hostOps1 hostOps1_sub hostOps1_fresh (W2 m ρ)),
    .region (region1 m ρ),
    .host (hostSeg hostOps2 hostOps2_sub hostOps2_fresh (W4 m ρ)) ]

/-- @main is the run of these segments: it is the chain of its five items, and the segments' run is that chain by
    definitional unfolding. -/
theorem main_run (c : Dev nD) : main (F := F) c = Pipeline.Seg.run (runSegs m ρ) := (main_chain c).trans (by chain_rfl)

-- the launch theorem's implicit arguments are found by unifying its conclusion with this one
set_option backward.isDefEq.respectTransparency.types false in
/-- THE RUN. From any memory `m` with every semaphore counter at zero, every weakly fair execution of @main on the
    TensorCores terminates, and in every final memory each unscoped buffer of each core holds `W5 m ρ c` there. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ noVar noPairs noLev m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ rest c)) (Tₙ := Tend m ρ)
    (hch := ⟨fun _ => .rfl, fun _ => .rfl, fun _ => .rfl, fun _ => .rfl, fun _ => .rfl, fun _ => sep_assoc'⟩)
    (hinit := by
      refine Pipeline.initEach noPairs noLev fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdue, -, Hreg, -⟩, -⟩
      imodintro
      isplitl [Hbufs]; · iexact Hbufs
      isplitl [Hreg]; · iexists _; iexact Hreg
      iexists ∅; iexact Hdue)
    (QY := fun c s => ∀ b ∈ Pipeline.ucRefs τ sig, s.mem (((c : Thread nD τ)).1, b) = W5 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W5 m ρ c) s')
      isplitl [Hbufs] <;> iassumption)
    (hQ := fun s h => h)

/-- info: 'Cert.Kernel.Gen.run_all' depends on axioms: [propext, Classical.choice, Quot.sound] -/
#guard_msgs in #print axioms run_all

end Cert.Kernel.Gen

end
-- ==== Proof.K.Read.lean ====
import proofs.«171332_j72834055406175_2_alg».proof.Proof.K.Run

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! # Reading the boundary valuations back

Each lemma walks one buffer back through the fold, one segment per step: a stretch of host operations leaves alone what
it does not write, a region leaves alone what is no array of its windows and hands an input array back as it took it. -/

variable (m : (ℓ : Loc nD τ sig) → Buf (Elt F) ℓ) (ρ : Dev nD → PrngReg)

/-! ## One segment back -/

theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h

/-- An input window's array leaves region 0 as it entered it: no write-back touches it. -/
theorem W2_input (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (Vin0 m ρ) c).arrAt_in w hin _).trans (A_eq0 (Vin0 m ρ) c w))
/-- The same for region 1. -/
theorem W4_input (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (Vin1 m ρ) c).arrAt_in w hin _).trans (A_eq1 (Vin1 m ρ) c w))

/-! ## Back to the launch -/

/-- A buffer the first stretch does not write holds its launch contents when region 0 is entered, -/
theorem W1_launch (c : Dev nD) (r : Ref sig .tc) (h0 : r ∉ hostOps0_W) :
    W1 m ρ c (Proc.devRef .tc r) = m ((c : Thread nD τ).loc r) :=
  (W1_keep m ρ c r h0).trans rfl
/-- and, if it is no array of region 0, when region 0 returns, -/
theorem W2_launch (c : Dev nD) (r : Ref sig .tc) (h0 : r ∉ hostOps0_W) (ha0 : ∀ w, Pipeline.arrRef spec0 w ≠ r) :
    W2 m ρ c (Proc.devRef .tc r) = m ((c : Thread nD τ).loc r) :=
  (W2_off m ρ c r ha0).trans (W1_launch m ρ c r h0)
/-- and, if the second stretch does not write it, when region 1 is entered, -/
theorem W3_launch (c : Dev nD) (r : Ref sig .tc) (h0 : r ∉ hostOps0_W) (ha0 : ∀ w, Pipeline.arrRef spec0 w ≠ r)
    (h1 : r ∉ hostOps1_W) : W3 m ρ c (Proc.devRef .tc r) = m ((c : Thread nD τ).loc r) :=
  (W3_keep m ρ c r h1).trans (W2_launch m ρ c r h0 ha0)
/-- and, if it is no array of region 1 and the final reshape does not write it, at the return. -/
theorem W5_launch (c : Dev nD) (r : Ref sig .tc) (h0 : r ∉ hostOps0_W) (ha0 : ∀ w, Pipeline.arrRef spec0 w ≠ r)
    (h1 : r ∉ hostOps1_W) (ha1 : ∀ w, Pipeline.arrRef spec1 w ≠ r) (h2 : r ∉ hostOps2_W) :
    W5 m ρ c (Proc.devRef .tc r) = m ((c : Thread nD τ).loc r) :=
  (W5_keep m ρ c r h2).trans <| (W4_off m ρ c r ha1).trans (W3_launch m ρ c r h0 ha0 h1)

/-! ## The fourteen arguments end as launched

No host operation writes an argument. Twelve of them are no array of either region; `main_arg2` and `main_arg3` are
input arrays of region 1. -/

theorem W5_main_arg0 (c : Dev nD) : W5 m ρ c (Proc.devRef .tc main_arg0) = m ((c : Thread nD τ).loc main_arg0) :=
  W5_launch m ρ c main_arg0 (by decide) (by decide) (by decide) (by decide) (by decide)
theorem W5_main_arg1 (c : Dev nD) : W5 m ρ c (Proc.devRef .tc main_arg1) = m ((c : Thread nD τ).loc main_arg1) :=
  W5_launch m ρ c main_arg1 (by decide) (by decide) (by decide) (by decide) (by decide)
/-- `main_arg2` is window 0's array of region 1, an input: the region hands it back as it took it. -/
theorem W5_main_arg2 (c : Dev nD) : W5 m ρ c (Proc.devRef .tc main_arg2) = m ((c : Thread nD τ).loc main_arg2) :=
  (W5_keep m ρ c main_arg2 (by decide)).trans <| (W4_input m ρ c 0 rfl).trans <|
    W3_launch m ρ c main_arg2 (by decide) (by decide) (by decide)
/-- `main_arg3` is window 1's array of region 1, an input: the region hands it back as it took it. -/
theorem W5_main_arg3 (c : Dev nD) : W5 m ρ c (Proc.devRef .tc main_arg3) = m ((c : Thread nD τ).loc main_arg3) :=
  (W5_keep m ρ c main_arg3 (by decide)).trans <| (W4_input m ρ c 1 rfl).trans <|
    W3_launch m ρ c main_arg3 (by decide) (by decide) (by decide)
theorem W5_main_arg4 (c : Dev nD) : W5 m ρ c (Proc.devRef .tc main_arg4) = m ((c : Thread nD τ).loc main_arg4) :=
  W5_launch m ρ c main_arg4 (by decide) (by decide) (by decide) (by decide) (by decide)
theorem W5_main_arg5 (c : Dev nD) : W5 m ρ c (Proc.devRef .tc main_arg5) = m ((c : Thread nD τ).loc main_arg5) :=
  W5_launch m ρ c main_arg5 (by decide) (by decide) (by decide) (by decide) (by decide)
theorem W5_main_arg6 (c : Dev nD) : W5 m ρ c (Proc.devRef .tc main_arg6) = m ((c : Thread nD τ).loc main_arg6) :=
  W5_launch m ρ c main_arg6 (by decide) (by decide) (by decide) (by decide) (by decide)
theorem W5_main_arg7 (c : Dev nD) : W5 m ρ c (Proc.devRef .tc main_arg7) = m ((c : Thread nD τ).loc main_arg7) :=
  W5_launch m ρ c main_arg7 (by decide) (by decide) (by decide) (by decide) (by decide)
theorem W5_main_arg8 (c : Dev nD) : W5 m ρ c (Proc.devRef .tc main_arg8) = m ((c : Thread nD τ).loc main_arg8) :=
  W5_launch m ρ c main_arg8 (by decide) (by decide) (by decide) (by decide) (by decide)
theorem W5_main_arg9 (c : Dev nD) : W5 m ρ c (Proc.devRef .tc main_arg9) = m ((c : Thread nD τ).loc main_arg9) :=
  W5_launch m ρ c main_arg9 (by decide) (by decide) (by decide) (by decide) (by decide)
theorem W5_main_arg10 (c : Dev nD) : W5 m ρ c (Proc.devRef .tc main_arg10) = m ((c : Thread nD τ).loc main_arg10) :=
  W5_launch m ρ c main_arg10 (by decide) (by decide) (by decide) (by decide) (by decide)
theorem W5_main_arg11 (c : Dev nD) : W5 m ρ c (Proc.devRef .tc main_arg11) = m ((c : Thread nD τ).loc main_arg11) :=
  W5_launch m ρ c main_arg11 (by decide) (by decide) (by decide) (by decide) (by decide)
theorem W5_main_arg12 (c : Dev nD) : W5 m ρ c (Proc.devRef .tc main_arg12) = m ((c : Thread nD τ).loc main_arg12) :=
  W5_launch m ρ c main_arg12 (by decide) (by decide) (by decide) (by decide) (by decide)
theorem W5_main_arg13 (c : Dev nD) : W5 m ρ c (Proc.devRef .tc main_arg13) = m ((c : Thread nD τ).loc main_arg13) :=
  W5_launch m ρ c main_arg13 (by decide) (by decide) (by decide) (by decide) (by decide)

/-! ## The two regions' results

Region 0 writes `main_v8` (its window 5); nothing after it writes that buffer, and region 1 only reads it (its
window 9). Region 1 writes `main_v21` (its window 12), which the final reshape reads into `main_v22`. -/

theorem W3_main_v8 (c : Dev nD) : W3 m ρ c (Proc.devRef .tc main_v8) = (dat0 (Vin0 m ρ) c).arrAt 5 cfg0.N :=
  (W3_keep m ρ c main_v8 (by decide)).trans (W2_arr m ρ c 5)
theorem W5_main_v8 (c : Dev nD) : W5 m ρ c (Proc.devRef .tc main_v8) = (dat0 (Vin0 m ρ) c).arrAt 5 cfg0.N :=
  (W5_keep m ρ c main_v8 (by decide)).trans <| (W4_input m ρ c 9 rfl).trans (W3_main_v8 m ρ c)

/-- The final reshape, applied to whatever region 1's exit valuation holds at `main_v21`, -/
theorem W5_main_v22_at (c : Dev nD) :
    W5 m ρ c (Proc.devRef .tc main_v22)
      = shapeCast S128x64x512 (W4 m ρ c (Proc.devRef .tc main_v21)) shapeCasts_S8192x512_S128x64x512 := by
  show StableHlo.after hostOps2 _ (Proc.devRef .tc main_v22) = _
  after_results <;> rfl
/-- which is region 1's output array as the pipeline left it. -/
theorem W5_main_v22 (c : Dev nD) :
    W5 m ρ c (Proc.devRef .tc main_v22)
      = shapeCast S128x64x512 ((dat1 (Vin1 m ρ) c).arrAt 12 cfg1.N) shapeCasts_S8192x512_S128x64x512 :=
  (W5_main_v22_at m ρ c).trans
    (congrArg (fun x => shapeCast S128x64x512 x shapeCasts_S8192x512_S128x64x512) (W4_arr m ρ c 12))

/-! ## What region 0 is entered with: its five operands as terms of the launch memory -/

theorem Vin0_main_v1 (c : Dev nD) :
    Vin0 m ρ c main_v1 = truncf .bf16 (shapeCast S8192x512 (m ((c : Thread nD τ).loc main_arg0)) shapeCasts_S128x64x512_S8192x512) bitsLt_bf16_f32 := by
  show StableHlo.after hostOps0 _ (Proc.devRef .tc main_v1) = _
  after_results <;> rfl
theorem Vin0_main_v2 (c : Dev nD) :
    Vin0 m ρ c main_v2 = shapeCast S1x8192 (m ((c : Thread nD τ).loc main_arg1)) shapeCasts_S8192_S1x8192 := by
  show StableHlo.after hostOps0 _ (Proc.devRef .tc main_v2) = _
  after_results <;> rfl
theorem Vin0_main_v6 (c : Dev nD) :
    Vin0 m ρ c main_v6 = truncf .bf16 (transpose S512x512 [1, 0] (m ((c : Thread nD τ).loc main_arg10)) transposes_S512x512_S512x512_1_0) bitsLt_bf16_f32 := by
  show StableHlo.after hostOps0 _ (Proc.devRef .tc main_v6) = _
  after_results <;> rfl
theorem Vin0_main_v7 (c : Dev nD) :
    Vin0 m ρ c main_v7 = shapeCast S1x512 (m ((c : Thread nD τ).loc main_arg11)) shapeCasts_S512_S1x512 := by
  show StableHlo.after hostOps0 _ (Proc.devRef .tc main_v7) = _
  after_results <;> rfl
theorem Vin0_main_v4 (c : Dev nD) :
    Vin0 m ρ c main_v4 = shapeCast S1x1 (Host.reduceAdd (m ((c : Thread nD τ).loc main_arg1)) (constant S_ .f32 0x00000000#32) reducesTo_S8192_S_d0 h_S_) shapeCasts_S_S1x1 := by
  show StableHlo.after hostOps0 _ (Proc.devRef .tc main_v4) = _
  after_results <;> rfl

/-! ## What region 1 is entered with

Eight operands are results of the second stretch, each a function of one argument, which reaches that stretch as
launched; `main_v1` is region 0's first operand again (an input there, so handed back unchanged); `main_v8` is region
0's result; `main_arg2` and `main_arg3` are arguments. -/

theorem Vin1_main_v10_at (c : Dev nD) :
    Vin1 m ρ c main_v10 = truncf .bf16 (transpose S512x512 [1, 0] (W2 m ρ c (Proc.devRef .tc main_arg4)) transposes_S512x512_S512x512_1_0) bitsLt_bf16_f32 := by
  show StableHlo.after hostOps1 _ (Proc.devRef .tc main_v10) = _
  after_results <;> rfl
theorem Vin1_main_v10 (c : Dev nD) :
    Vin1 m ρ c main_v10 = truncf .bf16 (transpose S512x512 [1, 0] (m ((c : Thread nD τ).loc main_arg4)) transposes_S512x512_S512x512_1_0) bitsLt_bf16_f32 :=
  (Vin1_main_v10_at m ρ c).trans (congrArg (fun x => truncf .bf16 (transpose S512x512 [1, 0] x transposes_S512x512_S512x512_1_0) bitsLt_bf16_f32) (W2_launch m ρ c main_arg4 (by decide) (by decide)))
theorem Vin1_main_v12_at (c : Dev nD) :
    Vin1 m ρ c main_v12 = truncf .bf16 (transpose S512x512 [1, 0] (W2 m ρ c (Proc.devRef .tc main_arg6)) transposes_S512x512_S512x512_1_0) bitsLt_bf16_f32 := by
  show StableHlo.after hostOps1 _ (Proc.devRef .tc main_v12) = _
  after_results <;> rfl
theorem Vin1_main_v12 (c : Dev nD) :
    Vin1 m ρ c main_v12 = truncf .bf16 (transpose S512x512 [1, 0] (m ((c : Thread nD τ).loc main_arg6)) transposes_S512x512_S512x512_1_0) bitsLt_bf16_f32 :=
  (Vin1_main_v12_at m ρ c).trans (congrArg (fun x => truncf .bf16 (transpose S512x512 [1, 0] x transposes_S512x512_S512x512_1_0) bitsLt_bf16_f32) (W2_launch m ρ c main_arg6 (by decide) (by decide)))
theorem Vin1_main_v14_at (c : Dev nD) :
    Vin1 m ρ c main_v14 = truncf .bf16 (transpose S512x512 [1, 0] (W2 m ρ c (Proc.devRef .tc main_arg8)) transposes_S512x512_S512x512_1_0) bitsLt_bf16_f32 := by
  show StableHlo.after hostOps1 _ (Proc.devRef .tc main_v14) = _
  after_results <;> rfl
theorem Vin1_main_v14 (c : Dev nD) :
    Vin1 m ρ c main_v14 = truncf .bf16 (transpose S512x512 [1, 0] (m ((c : Thread nD τ).loc main_arg8)) transposes_S512x512_S512x512_1_0) bitsLt_bf16_f32 :=
  (Vin1_main_v14_at m ρ c).trans (congrArg (fun x => truncf .bf16 (transpose S512x512 [1, 0] x transposes_S512x512_S512x512_1_0) bitsLt_bf16_f32) (W2_launch m ρ c main_arg8 (by decide) (by decide)))
theorem Vin1_main_v16_at (c : Dev nD) :
    Vin1 m ρ c main_v16 = truncf .bf16 (transpose S512x512 [1, 0] (W2 m ρ c (Proc.devRef .tc main_arg12)) transposes_S512x512_S512x512_1_0) bitsLt_bf16_f32 := by
  show StableHlo.after hostOps1 _ (Proc.devRef .tc main_v16) = _
  after_results <;> rfl
theorem Vin1_main_v16 (c : Dev nD) :
    Vin1 m ρ c main_v16 = truncf .bf16 (transpose S512x512 [1, 0] (m ((c : Thread nD τ).loc main_arg12)) transposes_S512x512_S512x512_1_0) bitsLt_bf16_f32 :=
  (Vin1_main_v16_at m ρ c).trans (congrArg (fun x => truncf .bf16 (transpose S512x512 [1, 0] x transposes_S512x512_S512x512_1_0) bitsLt_bf16_f32) (W2_launch m ρ c main_arg12 (by decide) (by decide)))
theorem Vin1_main_v17_at (c : Dev nD) :
    Vin1 m ρ c main_v17 = shapeCast S1x512 (W2 m ρ c (Proc.devRef .tc main_arg5)) shapeCasts_S512_S1x512 := by
  show StableHlo.after hostOps1 _ (Proc.devRef .tc main_v17) = _
  after_results <;> rfl
theorem Vin1_main_v17 (c : Dev nD) :
    Vin1 m ρ c main_v17 = shapeCast S1x512 (m ((c : Thread nD τ).loc main_arg5)) shapeCasts_S512_S1x512 :=
  (Vin1_main_v17_at m ρ c).trans (congrArg (fun x => shapeCast S1x512 x shapeCasts_S512_S1x512) (W2_launch m ρ c main_arg5 (by decide) (by decide)))
theorem Vin1_main_v18_at (c : Dev nD) :
    Vin1 m ρ c main_v18 = shapeCast S1x512 (W2 m ρ c (Proc.devRef .tc main_arg7)) shapeCasts_S512_S1x512 := by
  show StableHlo.after hostOps1 _ (Proc.devRef .tc main_v18) = _
  after_results <;> rfl
theorem Vin1_main_v18 (c : Dev nD) :
    Vin1 m ρ c main_v18 = shapeCast S1x512 (m ((c : Thread nD τ).loc main_arg7)) shapeCasts_S512_S1x512 :=
  (Vin1_main_v18_at m ρ c).trans (congrArg (fun x => shapeCast S1x512 x shapeCasts_S512_S1x512) (W2_launch m ρ c main_arg7 (by decide) (by decide)))
theorem Vin1_main_v19_at (c : Dev nD) :
    Vin1 m ρ c main_v19 = shapeCast S1x512 (W2 m ρ c (Proc.devRef .tc main_arg9)) shapeCasts_S512_S1x512 := by
  show StableHlo.after hostOps1 _ (Proc.devRef .tc main_v19) = _
  after_results <;> rfl
theorem Vin1_main_v19 (c : Dev nD) :
    Vin1 m ρ c main_v19 = shapeCast S1x512 (m ((c : Thread nD τ).loc main_arg9)) shapeCasts_S512_S1x512 :=
  (Vin1_main_v19_at m ρ c).trans (congrArg (fun x => shapeCast S1x512 x shapeCasts_S512_S1x512) (W2_launch m ρ c main_arg9 (by decide) (by decide)))
theorem Vin1_main_v20_at (c : Dev nD) :
    Vin1 m ρ c main_v20 = shapeCast S1x512 (W2 m ρ c (Proc.devRef .tc main_arg13)) shapeCasts_S512_S1x512 := by
  show StableHlo.after hostOps1 _ (Proc.devRef .tc main_v20) = _
  after_results <;> rfl
theorem Vin1_main_v20 (c : Dev nD) :
    Vin1 m ρ c main_v20 = shapeCast S1x512 (m ((c : Thread nD τ).loc main_arg13)) shapeCasts_S512_S1x512 :=
  (Vin1_main_v20_at m ρ c).trans (congrArg (fun x => shapeCast S1x512 x shapeCasts_S512_S1x512) (W2_launch m ρ c main_arg13 (by decide) (by decide)))
theorem Vin1_main_v1 (c : Dev nD) : Vin1 m ρ c main_v1 = Vin0 m ρ c main_v1 :=
  (W3_keep m ρ c main_v1 (by decide)).trans (W2_input m ρ c 0 rfl)
theorem Vin1_main_v8 (c : Dev nD) : Vin1 m ρ c main_v8 = (dat0 (Vin0 m ρ) c).arrAt 5 cfg0.N :=
  W3_main_v8 m ρ c
theorem Vin1_main_arg2 (c : Dev nD) : Vin1 m ρ c main_arg2 = m ((c : Thread nD τ).loc main_arg2) :=
  W3_launch m ρ c main_arg2 (by decide) (by decide) (by decide)
theorem Vin1_main_arg3 (c : Dev nD) : Vin1 m ρ c main_arg3 = m ((c : Thread nD τ).loc main_arg3) :=
  W3_launch m ρ c main_arg3 (by decide) (by decide) (by decide)

/-! # The frame -/

/-- From any memory with every semaphore counter at zero, every weakly fair execution of @main on the TensorCores
    terminates, and every final memory holds each of the fourteen arguments as launched: `run_all`, read at the
    arguments' buffers. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
    (h c _ (mem_ucRefs main_arg0 (by decide))).trans (W5_main_arg0 m ρ c),
    (h c _ (mem_ucRefs main_arg1 (by decide))).trans (W5_main_arg1 m ρ c),
    (h c _ (mem_ucRefs main_arg2 (by decide))).trans (W5_main_arg2 m ρ c),
    (h c _ (mem_ucRefs main_arg3 (by decide))).trans (W5_main_arg3 m ρ c),
    (h c _ (mem_ucRefs main_arg4 (by decide))).trans (W5_main_arg4 m ρ c),
    (h c _ (mem_ucRefs main_arg5 (by decide))).trans (W5_main_arg5 m ρ c),
    (h c _ (mem_ucRefs main_arg6 (by decide))).trans (W5_main_arg6 m ρ c),
    (h c _ (mem_ucRefs main_arg7 (by decide))).trans (W5_main_arg7 m ρ c),
    (h c _ (mem_ucRefs main_arg8 (by decide))).trans (W5_main_arg8 m ρ c),
    (h c _ (mem_ucRefs main_arg9 (by decide))).trans (W5_main_arg9 m ρ c),
    (h c _ (mem_ucRefs main_arg10 (by decide))).trans (W5_main_arg10 m ρ c),
    (h c _ (mem_ucRefs main_arg11 (by decide))).trans (W5_main_arg11 m ρ c),
    (h c _ (mem_ucRefs main_arg12 (by decide))).trans (W5_main_arg12 m ρ c),
    (h c _ (mem_ucRefs main_arg13 (by decide))).trans (W5_main_arg13 m ρ c)⟩) (run_all m ρ)

/-- info: 'Cert.Kernel.Gen.frame' depends on axioms: [propext, Classical.choice, Quot.sound] -/
#guard_msgs in #print axioms frame

end Cert.Kernel.Gen

end
-- ==== Proof.KI.Claims.lean ====
import proofs.«171332_j72834055406175_2_alg».proof.Defs
import proofs.«171332_j72834055406175_2_alg».proof.Proof.Gen.Pre_finite_inputs
import proofs.«171332_j72834055406175_2_alg».proof.Proof.KI.Read
import proofs.«171332_j72834055406175_2_alg».proof.Proof.K.Read

noncomputable section

namespace Cert.Proof.Frames

open Idealize.ShloMosaic Idealize.SL.Sem

/-! # The two frame statements of the certificate, for the two kernel programs

Each is the program's frame, proved at any float instance, read at the instance the statement names; its
precondition on the launch memory is not needed. -/

/-- The idealized kernel program runs to the end from any launch memory and leaves its fourteen arguments as launched. -/
theorem frame_KernelIdeal :
    _root_.Cert.frame_KernelIdeal (hKernelIdeal := Cert.KernelIdeal.Gen.facts) (hPre_finite_inputs := Cert.Pre_finite_inputs.Gen.facts) :=
  fun m ρ _ => Cert.KernelIdeal.Gen.frame m ρ

/-- The kernel program as printed, at the bit-level instance, likewise. -/
theorem frame_Kernel :
    _root_.Cert.frame_Kernel (hKernel := Cert.Kernel.Gen.facts) (hPre_finite_inputs := Cert.Pre_finite_inputs.Gen.facts) :=
  fun m ρ _ => Cert.Kernel.Gen.frame m ρ

end Cert.Proof.Frames

end
-- ==== Proof.KI.Results.lean ====
import proofs.«171332_j72834055406175_2_alg».proof.Proof.KI.Read

noncomputable section

namespace Cert.Proof.KernelIdealResults

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-! # What the program returns

Its two results are `main_v22` — region 1's output array as the pipeline's write-backs left it, reshaped to
128 × 64 × 512 — and `main_v8` — region 0's output array as the pipeline left it. -/

/-- The contents of `main_v22` at the return. -/
abbrev result22 (c : Dev nD) : Buf (Elt F) ((c.tc : Thread nD τ).loc main_v22) :=
  shapeCast S128x64x512 ((dat1 (Vin1 m ρ) c).arrAt 12 cfg1.N) shapeCasts_S8192x512_S128x64x512
/-- The contents of `main_v8` at the return. -/
abbrev result8 (c : Dev nD) : Buf (Elt F) ((c.tc : Thread nD τ).loc main_v8) :=
  (dat0 (Vin0 m ρ) c).arrAt 5 cfg0.N

/-- From any memory with every semaphore counter at zero, every weakly fair execution of @main on the TensorCores
    terminates, and every final memory holds the two results at `result22`, `result8` and each argument as launched:
    `run_all`, read at those sixteen buffers. -/
theorem results_run : θ_run defs (onTc (τ := τ) (main (F := F))) ⟨m, fun _ => 0, ρ⟩ (fun r => ∀ c : Dev nD,
      r.2.mem ((c.tc : Thread nD τ).loc main_v22) = result22 m ρ c
      ∧ r.2.mem ((c.tc : Thread nD τ).loc main_v8) = result8 m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨
    (h c _ (mem_ucRefs main_v22 (by decide))).trans (W5_main_v22 m ρ c),
    (h c _ (mem_ucRefs main_v8 (by decide))).trans (W5_main_v8 m ρ c),
    (h c _ (mem_ucRefs main_arg0 (by decide))).trans (W5_main_arg0 m ρ c),
    (h c _ (mem_ucRefs main_arg1 (by decide))).trans (W5_main_arg1 m ρ c),
    (h c _ (mem_ucRefs main_arg2 (by decide))).trans (W5_main_arg2 m ρ c),
    (h c _ (mem_ucRefs main_arg3 (by decide))).trans (W5_main_arg3 m ρ c),
    (h c _ (mem_ucRefs main_arg4 (by decide))).trans (W5_main_arg4 m ρ c),
    (h c _ (mem_ucRefs main_arg5 (by decide))).trans (W5_main_arg5 m ρ c),
    (h c _ (mem_ucRefs main_arg6 (by decide))).trans (W5_main_arg6 m ρ c),
    (h c _ (mem_ucRefs main_arg7 (by decide))).trans (W5_main_arg7 m ρ c),
    (h c _ (mem_ucRefs main_arg8 (by decide))).trans (W5_main_arg8 m ρ c),
    (h c _ (mem_ucRefs main_arg9 (by decide))).trans (W5_main_arg9 m ρ c),
    (h c _ (mem_ucRefs main_arg10 (by decide))).trans (W5_main_arg10 m ρ c),
    (h c _ (mem_ucRefs main_arg11 (by decide))).trans (W5_main_arg11 m ρ c),
    (h c _ (mem_ucRefs main_arg12 (by decide))).trans (W5_main_arg12 m ρ c),
    (h c _ (mem_ucRefs main_arg13 (by decide))).trans (W5_main_arg13 m ρ c)⟩) (run_all m ρ)

/-- info: 'Cert.Proof.KernelIdealResults.results_run' depends on axioms: [propext, Classical.choice, Quot.sound] -/
#guard_msgs in #print axioms results_run

end Cert.Proof.KernelIdealResults

end
-- ==== Proof.KI.Val0.lean ====
/-
  The first kernel's result array after its region, as a value. The region has one grid point, and at that point every
  window's block is its whole array: each operand's block is the array as the region finds it, and the one block the
  point writes back is the whole result array. So the result array ends at the body's arithmetic of the five operand
  arrays.
-/
import proofs.«171332_j72834055406175_2_alg».proof.Proof.KI.R0
import Idealize.ShloMosaic.Lib.Pipeline.Value

set_option maxRecDepth 16384

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section Region0Value

variable (V : (c : Dev nD) → (b : Ref sig .tc) → Buf (Elt F) ((c : Thread nD τ).loc b))

theorem zeros0 : (![0, 0] : Fin 2 → Nat) = fun _ => 0 := funext fun a => by fin_cases a <;> rfl

/-- At the one grid point every window's block index is zero on both axes. -/
theorem idx_zero0 : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- The rows' block is the whole array. -/
theorem iblk0_0 (c : Dev nD) (t : Fin cfg0.N) : iblk0 V c 0 t = V c main_v1 := by
  unfold iblk0
  funext j
  show V c main_v1 (((cfg0.win 0).blk t).view.emb j) = V c main_v1 j
  refine congrArg (V c main_v1) (funext fun a => Fin.ext ?_)
  obtain ⟨⟨e0, e1⟩, -⟩ := idx_zero0 t
  match a with
  | ⟨0, _⟩ => show win0_0.index t (0 : Fin 2) * 8192 + 1 * (j 0).val = (j 0).val; rw [e0]; omega
  | ⟨1, _⟩ => show win0_0.index t (1 : Fin 2) * 512 + 1 * (j 1).val = (j 1).val; rw [e1]; omega

/-- The mask row's block is the whole array. -/
theorem iblk0_1 (c : Dev nD) (t : Fin cfg0.N) : iblk0 V c 1 t = V c main_v2 := by
  unfold iblk0
  funext j
  show V c main_v2 (((cfg0.win 1).blk t).view.emb j) = V c main_v2 j
  refine congrArg (V c main_v2) (funext fun a => Fin.ext ?_)
  obtain ⟨-, ⟨e0, e1⟩, -⟩ := idx_zero0 t
  match a with
  | ⟨0, _⟩ => show win0_1.index t (0 : Fin 2) * 1 + 1 * (j 0).val = (j 0).val; rw [e0]; omega
  | ⟨1, _⟩ => show win0_1.index t (1 : Fin 2) * 8192 + 1 * (j 1).val = (j 1).val; rw [e1]; omega

/-- The weight's block is the whole array. -/
theorem iblk0_2 (c : Dev nD) (t : Fin cfg0.N) : iblk0 V c 2 t = V c main_v6 := by
  unfold iblk0
  funext j
  show V c main_v6 (((cfg0.win 2).blk t).view.emb j) = V c main_v6 j
  refine congrArg (V c main_v6) (funext fun a => Fin.ext ?_)
  obtain ⟨-, -, ⟨e0, e1⟩, -⟩ := idx_zero0 t
  match a with
  | ⟨0, _⟩ => show win0_2.index t (0 : Fin 2) * 512 + 1 * (j 0).val = (j 0).val; rw [e0]; omega
  | ⟨1, _⟩ => show win0_2.index t (1 : Fin 2) * 512 + 1 * (j 1).val = (j 1).val; rw [e1]; omega

/-- The bias row's block is the whole array. -/
theorem iblk0_3 (c : Dev nD) (t : Fin cfg0.N) : iblk0 V c 3 t = V c main_v7 := by
  unfold iblk0
  funext j
  show V c main_v7 (((cfg0.win 3).blk t).view.emb j) = V c main_v7 j
  refine congrArg (V c main_v7) (funext fun a => Fin.ext ?_)
  obtain ⟨-, -, -, ⟨e0, e1⟩, -⟩ := idx_zero0 t
  match a with
  | ⟨0, _⟩ => show win0_3.index t (0 : Fin 2) * 1 + 1 * (j 0).val = (j 0).val; rw [e0]; omega
  | ⟨1, _⟩ => show win0_3.index t (1 : Fin 2) * 512 + 1 * (j 1).val = (j 1).val; rw [e1]; omega

/-- The mask sum's block is the whole array. -/
theorem iblk0_4 (c : Dev nD) (t : Fin cfg0.N) : iblk0 V c 4 t = V c main_v4 := by
  unfold iblk0
  funext j
  show V c main_v4 (((cfg0.win 4).blk t).view.emb j) = V c main_v4 j
  refine congrArg (V c main_v4) (funext fun a => Fin.ext ?_)
  obtain ⟨-, -, -, -, ⟨e0, e1⟩, -⟩ := idx_zero0 t
  match a with
  | ⟨0, _⟩ => show win0_4.index t (0 : Fin 2) * 1 + 1 * (j 0).val = (j 0).val; rw [e0]; omega
  | ⟨1, _⟩ => show win0_4.index t (1 : Fin 2) * 1 + 1 * (j 1).val = (j 1).val; rw [e1]; omega

/-- What the one point writes back is its block — the whole array — of the body's arithmetic of the operand arrays. -/
theorem flushed0_5_eq (c : Dev nD) (t : Fin cfg0.N) :
    (dat0 V c).flushed 5 t = ((cfg0.win 5).blk t).view.read (Elt F)
      (k0_pay1 (V c main_v1) (V c main_v6) (V c main_v7) (V c main_v2) (V c main_v4)) := by
  show (cfg0.win 5).cut (grid0.coords t) ((dat0 V c).after 5 t) = _
  rw [after0_5]
  unfold out0_5
  rw [View.canon_unit_zero zeros0]
  simp only [View.ld_unit_zero (S := S8192x512) zeros0, View.ld_unit_zero (S := S512x512) zeros0,
    View.ld_unit_zero (S := S1x512) zeros0, View.ld_unit_zero (S := S1x8192) zeros0, View.ld_unit_zero (S := S1x1) zeros0]
  rw [iblk0_0, iblk0_1, iblk0_2, iblk0_3, iblk0_4]
  funext j
  show k0_pay1 (V c main_v1) (V c main_v6) (V c main_v7) (V c main_v2) (V c main_v4) j
    = k0_pay1 (V c main_v1) (V c main_v6) (V c main_v7) (V c main_v2) (V c main_v4) (((cfg0.win 5).blk t).view.emb j)
  refine congrArg (k0_pay1 (V c main_v1) (V c main_v6) (V c main_v7) (V c main_v2) (V c main_v4)) (funext fun a => Fin.ext ?_)
  obtain ⟨-, -, -, -, -, ⟨e0, e1⟩⟩ := idx_zero0 t
  match a with
  | ⟨0, _⟩ => show (j 0).val = win0_5.index t (0 : Fin 2) * 1 + 1 * (j 0).val; rw [e0]; omega
  | ⟨1, _⟩ => show (j 1).val = win0_5.index t (1 : Fin 2) * 512 + 1 * (j 1).val; rw [e1]; omega

/-- An index of the result array is in point t's block iff each coordinate is in the block's range on its axis. -/
theorem mem_blk0_5 (t : Fin cfg0.N) (i : S1x512.Idx) :
    i ∈ ((cfg0.win 5).blk t).view.set ↔ ∀ a : Fin 2, win0_5.index t a * S1x512.size a ≤ (i a).val ∧ (i a).val < win0_5.index t a * S1x512.size a + S1x512.size a := by
  show i ∈ ((View.whole main_v8).slice (win0_5.rect t)).set ↔ _
  rw [View.set_slice_whole, Rect.mem_set_unit]
  exact Iff.rfl

/-- The one point's block is the whole result array. -/
theorem covered0_5 (i : S1x512.Idx) : ∃ t : Fin cfg0.N, (cfg0.win 5).flush t = true ∧ i ∈ ((cfg0.win 5).blk t).view.set := by
  refine ⟨⟨0, by decide⟩, flush0_5 _, ?_⟩
  rw [mem_blk0_5]
  obtain ⟨-, -, -, -, -, ⟨e0, e1⟩⟩ := idx_zero0 ⟨0, by decide⟩
  intro a
  match a with
  | ⟨0, _⟩ =>
    show win0_5.index ⟨0, by decide⟩ (0 : Fin 2) * 1 ≤ (i 0).val ∧ (i 0).val < win0_5.index ⟨0, by decide⟩ (0 : Fin 2) * 1 + 1
    have h : (i 0).val < 1 := (i 0).isLt
    rw [e0]; omega
  | ⟨1, _⟩ =>
    show win0_5.index ⟨0, by decide⟩ (1 : Fin 2) * 512 ≤ (i 1).val ∧ (i 1).val < win0_5.index ⟨0, by decide⟩ (1 : Fin 2) * 512 + 512
    have h : (i 1).val < 512 := (i 1).isLt
    rw [e1]; omega

/-- The result array after the region: the body's arithmetic of the five operand arrays as the region finds them. -/
theorem final_hg (c : Dev nD) :
    (dat0 V c).arrAt 5 cfg0.N = k0_pay1 (V c main_v1) (V c main_v6) (V c main_v7) (V c main_v2) (V c main_v4) :=
  (dat0 V c).arrAt_eq_of_cover 5 _ (fun t _ => flushed0_5_eq V c t) (fun i => covered0_5 i)

end Region0Value

end Cert.KernelIdeal.Gen

end
-- ==== Proof.LibBlockedSum.lean ====
/-
  A sum over an axis of length nb · bs may be taken block by block: for each of the nb blocks in order, the sum over the
  bs entries of the block. Stated for any commutative additive monoid (the extended reals among them: re-grouping a sum
  needs no finiteness), with the entry of block k at offset d addressed as (bs · k + d) mod (nb · bs) so that the
  statement needs no bound proofs; within range the remainder is the number itself.
-/
import Mathlib.Algebra.BigOperators.Fin
import Mathlib.Algebra.BigOperators.Field
import Mathlib.Logic.Equiv.Fin.Basic
import Mathlib.Tactic.Ring

namespace Cert.Lib

open Finset

/-- The sum over the blocks, in order, of the sums over each block is the sum over the whole axis. -/
theorem sum_range_blocks {M : Type*} [AddCommMonoid M] (nb bs : ℕ) (hpos : 0 < nb * bs) (f : Fin (nb * bs) → M) :
    ∑ k ∈ Finset.range nb, ∑ d : Fin bs, f ⟨(bs * k + d.val) % (nb * bs), Nat.mod_lt _ hpos⟩ = ∑ j, f j := by
  rw [← Fin.sum_univ_eq_sum_range (fun k => ∑ d : Fin bs, f ⟨(bs * k + d.val) % (nb * bs), Nat.mod_lt _ hpos⟩) nb]
  rw [← Fintype.sum_prod_type']
  refine Fintype.sum_equiv finProdFinEquiv _ _ (fun ⟨k, d⟩ => ?_)
  congr 1
  apply Fin.ext
  show (bs * k.val + d.val) % (nb * bs) = d.val + bs * k.val
  have hlt : bs * k.val + d.val < nb * bs := by
    have h1 : bs * k.val + d.val < bs * k.val + bs := Nat.add_lt_add_left d.isLt _
    have h2 : bs * k.val + bs = bs * (k.val + 1) := by ring
    have h3 : bs * (k.val + 1) ≤ bs * nb := Nat.mul_le_mul_left bs k.isLt
    calc bs * k.val + d.val < bs * (k.val + 1) := h2 ▸ h1
      _ ≤ bs * nb := h3
      _ = nb * bs := Nat.mul_comm _ _
  rw [Nat.mod_eq_of_lt hlt, Nat.add_comm]

/-- The partial sums over the first blocks grow by one block at a time. -/
theorem sum_range_blocks_succ {M : Type*} [AddCommMonoid M] (g : ℕ → M) (k : ℕ) :
    ∑ j ∈ Finset.range (k + 1), g j = (∑ j ∈ Finset.range k, g j) + g k := Finset.sum_range_succ g k

end Cert.Lib
-- ==== Proof.ValSums.lean ====
/-
  The one piece of algebra between the two programs. The kernel forms each entry of a_ud @ xf (and of a_lr @ xf)
  in four steps: it starts from zero and adds, for each of the four blocks of 2048 columns in order, that block's
  sum of products. The reference takes the sum over all 8192 columns at once. In any commutative additive monoid the
  two agree: a finite sum may be taken block by block. Nothing about the extended reals is used beyond that.
-/
import proofs.«171332_j72834055406175_2_alg».proof.Proof.LibBlockedSum

namespace Cert.Bridge

open Finset

/-- Zero plus the four block sums, added in order, is the sum over the whole axis of length 8192 = 4 · 2048. -/
theorem sum_four_blocks {M : Type*} [AddCommMonoid M] (f : Fin 8192 → M) (T : Fin 4 → M)
    (hT : ∀ b : Fin 4, T b = ∑ d : Fin 2048, f ⟨2048 * b.val + d.val, by have := b.isLt; have := d.isLt; omega⟩) :
    (((0 + T 0) + T 1) + T 2) + T 3 = ∑ j, f j := by
  have key := Cert.Lib.sum_range_blocks (M := M) 4 2048 (by norm_num) f
  rw [← key]
  have hmod : ∀ (b : Fin 4),
      (∑ d : Fin 2048, f ⟨(2048 * b.val + d.val) % (4 * 2048), Nat.mod_lt _ (by norm_num)⟩) = T b := by
    intro b
    rw [hT b]
    refine Finset.sum_congr rfl fun d _ => ?_
    congr 1
    apply Fin.ext
    show (2048 * b.val + d.val) % (4 * 2048) = 2048 * b.val + d.val
    have := b.isLt; have := d.isLt
    omega
  rw [Finset.sum_range_succ, Finset.sum_range_succ, Finset.sum_range_succ, Finset.sum_range_succ, Finset.sum_range_zero]
  have h0 := hmod 0
  have h1 := hmod 1
  have h2 := hmod 2
  have h3 := hmod 3
  simp only [Fin.val_zero, Fin.val_one, Fin.val_two] at h0 h1 h2
  have h3' : ((3 : Fin 4) : ℕ) = 3 := rfl
  rw [h3'] at h3
  rw [h0, h1, h2, h3]

end Cert.Bridge
-- ==== Proof.ValMatmul.lean ====
/-
  A plain M×K by K×N matrix product (left operand contracted on its columns, right operand on its rows, no batch
  axis) into the zero accumulator, at the exact-real instance and read at one output entry (p, c): the sum over
  m of A(p, m) · X(m, c). Every matrix product of both kernels is of this form, and so is every
  matrix product of the reference, computed on the host with no accumulator.
-/
import Idealize.ShloMosaic.Lib.ValueIdx
import Idealize.ShloMosaic.PureOps.Ideal.Laws

noncomputable section

namespace Cert.Bridge

open Idealize.ShloMosaic Idealize.ShloMosaic.ValueIdx

/-- The product into the zero accumulator at entry (p, c) is the sum of the K products along row p and column c. -/
theorem plain_matmul_zero_apply {φ₁ φ₂ : FTy} (M K N : ℕ) (prec : Option ContractPrecision)
    (A : FVec Ideal ⟨2, ![M, K]⟩ φ₁) (X : FVec Ideal ⟨2, ![K, N]⟩ φ₂) (p : Fin M) (c : Fin N) :
    FloatOps.matmul (DotDims.plain M K N) prec A X (constant ⟨2, ![M, N]⟩ .f32 0x00000000#32) (ix2 p c)
      = ∑ m : Fin K, A (ix2 p m) * X (ix2 m c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- The host's product of the same two operands at entry (p, c) is the same sum. -/
theorem plain_dotGeneral_apply {φ₁ φ₂ : FTy} (M K N : ℕ) (prec : Option ContractPrecision) (sched : HostSchedule)
    (A : FVec Ideal ⟨2, ![M, K]⟩ φ₁) (X : FVec Ideal ⟨2, ![K, N]⟩ φ₂) (p : Fin M) (c : Fin N) :
    FloatOps.dotGeneral (DotDims.plain M K N) prec sched A X (ix2 p c) = ∑ m : Fin K, A (ix2 p m) * X (ix2 m c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

end Cert.Bridge

end
-- ==== Proof.ValSpec.lean ====
/-
  What both programs compute at one output entry, as functions over the extended reals.

  A dense layer at output column c takes a row v of 512 numbers to the sum over k of v(k) · W(c, k) plus b(c)
  (the weights are stored [out, in], so the layer multiplies by the transpose). The main result at a row is the
  larger of zero and the sum, associated to the left as both programs associate it, of four such layers: of the row of
  xf, of the row of a_ud @ xf, of the row of a_lr @ xf, and of the one row h_g. The side result h_g at column c is the
  mask-weighted sum over all rows of relu of a dense layer of the row, divided by the number of valid rows.
-/
import Idealize.ShloMosaic.Lib.ValueIdx
import Idealize.ShloMosaic.PureOps.Ideal

noncomputable section

namespace Cert.Bridge

open Idealize.ShloMosaic Idealize.ShloMosaic.ValueIdx

/-- One dense layer at output column c. -/
def dense (v : Fin 512 → EReal) (W : (⟨2, ![512, 512]⟩ : Shape).Idx → EReal) (b : (⟨1, ![512]⟩ : Shape).Idx → EReal)
    (c : Fin 512) : EReal :=
  ∑ k : Fin 512, v k * W (ix2 c k) + b (ix1 c)

/-- The main result at one row and column c, from the row of xf, the rows of the two neighbour products and h_g. -/
def outAt (xr ud lr hgr : Fin 512 → EReal)
    (W : (⟨2, ![512, 512]⟩ : Shape).Idx → EReal) (b : (⟨1, ![512]⟩ : Shape).Idx → EReal)
    (Wud : (⟨2, ![512, 512]⟩ : Shape).Idx → EReal) (bud : (⟨1, ![512]⟩ : Shape).Idx → EReal)
    (Wlr : (⟨2, ![512, 512]⟩ : Shape).Idx → EReal) (blr : (⟨1, ![512]⟩ : Shape).Idx → EReal)
    (Wgo : (⟨2, ![512, 512]⟩ : Shape).Idx → EReal) (bgo : (⟨1, ![512]⟩ : Shape).Idx → EReal) (c : Fin 512) : EReal :=
  max (((dense xr W b c + dense ud Wud bud c) + dense lr Wlr blr c) + dense hgr Wgo bgo c)
    (Ideal.ofBits .f32 0x00000000#32)

/-- The side result h_g at column c: the mask-weighted sum over the rows of relu of the row's dense layer, divided
    by the count n. -/
def hgAt (xf : (⟨2, ![8192, 512]⟩ : Shape).Idx → EReal) (mask : (⟨1, ![8192]⟩ : Shape).Idx → EReal) (n : EReal)
    (Wg : (⟨2, ![512, 512]⟩ : Shape).Idx → EReal) (bg : (⟨1, ![512]⟩ : Shape).Idx → EReal) (c : Fin 512) : EReal :=
  Ideal.div (∑ r : Fin 8192, mask (ix1 r) * max (dense (fun k => xf (ix2 r k)) Wg bg c) (Ideal.ofBits .f32 0x00000000#32)) n

end Cert.Bridge

end
-- ==== Proof.ValOperands.lean ====
/-
  The operands the kernel program hands its two kernels, as terms of the program's arguments: the activations
  flattened to [8192, 512], each weight matrix transposed, each bias as a [1, 512] row, the mask as a [1, 8192] row,
  and the mask's sum as a [1, 1] array (each further changed to the narrower float format where the program does so,
  which at the exact-real instance changes nothing).
-/
import proofs.«171332_j72834055406175_2_alg».proof.Proof.Gen.KernelIdeal
import Idealize.ShloMosaic.PureOps.Ideal

noncomputable section

namespace Cert.Bridge

open Idealize.ShloMosaic Idealize.SL.Sem Cert.KernelIdeal Cert.KernelIdeal.Gen

/-- The flattened activations, as the kernels receive them. -/
abbrev opX (x0 : Vec Ideal S128x64x512 .f32) : Vec Ideal S8192x512 .bf16 :=
  truncf (F := Ideal) .bf16 (shapeCast S8192x512 x0 shapeCasts_S128x64x512_S8192x512) bitsLt_bf16_f32
/-- A weight matrix transposed, as the kernels receive it. -/
abbrev opW (w : Vec Ideal S512x512 .f32) : Vec Ideal S512x512 .bf16 :=
  truncf (F := Ideal) .bf16 (transpose S512x512 [1, 0] w transposes_S512x512_S512x512_1_0) bitsLt_bf16_f32
/-- A bias as a row. -/
abbrev opB (b : Vec Ideal S512 .f32) : Vec Ideal S1x512 .f32 := shapeCast S1x512 b shapeCasts_S512_S1x512
/-- The mask as a row. -/
abbrev opM (x1 : Vec Ideal S8192 .f32) : Vec Ideal S1x8192 .f32 := shapeCast S1x8192 x1 shapeCasts_S8192_S1x8192
/-- The number of valid rows (the mask's sum), as a one-by-one array. -/
abbrev opN (x1 : Vec Ideal S8192 .f32) : Vec Ideal S1x1 .f32 :=
  shapeCast S1x1 (Host.reduceAdd x1 (constant (F := Ideal) S_ .f32 0x00000000#32) reducesTo_S8192_S_d0 h_S_) shapeCasts_S_S1x1

end Cert.Bridge

end
-- ==== Proof.ValKerMain.lean ====
/-
  The main kernel's arithmetic read at one entry, at the exact-real instance. Every change of float format is the
  identity there, a cast of a shape to itself is the identity, a matrix product into the zero accumulator at (p, c)
  is the sum of the products along row p and column c, and a [1, 512] row broadcast over 1024 rows is read at its
  column. So: the two zero accumulators are zero everywhere; one accumulation step adds to the previous accumulator
  the sum over the 2048 columns of the loaded block; and the closing arithmetic at (p, c) is the function
  outAt of row p of the four operands (the row of xf, the two accumulators' rows, the one row h_g).
-/
import proofs.«171332_j72834055406175_2_alg».proof.Proof.Gen.KernelIdeal.Skeleton
import proofs.«171332_j72834055406175_2_alg».proof.Proof.ValMatmul
import proofs.«171332_j72834055406175_2_alg».proof.Proof.ValSpec
import proofs.«171332_j72834055406175_2_alg».proof.Proof.ValOperands
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.SL.Sem Idealize.ShloMosaic.ValueIdx Cert.KernelIdeal Cert.KernelIdeal.Gen

/-- The accumulator of a_ud @ xf starts at zero. -/
theorem pay1_apply (j : S1024x512.Idx) : k1_pay1 (F := Ideal) j = 0 := by
  unfold k1_pay1
  simp only [shapeCast_self]
  exact Ideal.ofBits_zero_f32

/-- The accumulator of a_lr @ xf starts at zero. -/
theorem pay2_apply (j : S1024x512.Idx) : k1_pay2 (F := Ideal) j = 0 := by
  unfold k1_pay2
  simp only [shapeCast_self]
  exact Ideal.ofBits_zero_f32

/-- One accumulation step of a_ud @ xf at (p, c): the previous value plus the block's 2048 products. -/
theorem pay4_apply (A : Vec Ideal S1024x2048 .f32) (X : Vec Ideal S2048x512 .bf16) (acc : Vec Ideal S1024x512 .f32)
    (p : Fin 1024) (c : Fin 512) :
    k1_pay4 (F := Ideal) A X acc (ix2 p c) = acc (ix2 p c) + ∑ m : Fin 2048, A (ix2 p m) * X (ix2 m c) := by
  unfold k1_pay4 k1_pay3
  simp only [shapeCast_self]
  show acc (ix2 p c) + FloatOps.matmul (DotDims.plain 1024 2048 512) none (truncf (F := Ideal) .bf16 A bitsLt_bf16_f32) X
    (constant ⟨2, ![1024, 512]⟩ .f32 0x00000000#32) (ix2 p c) = _
  rw [plain_matmul_zero_apply]
  rfl

/-- One accumulation step of a_lr @ xf at (p, c): the previous value plus the block's 2048 products. -/
theorem pay5_apply (A : Vec Ideal S1024x2048 .f32) (X : Vec Ideal S2048x512 .bf16) (acc : Vec Ideal S1024x512 .f32)
    (p : Fin 1024) (c : Fin 512) :
    k1_pay5 (F := Ideal) A X acc (ix2 p c) = acc (ix2 p c) + ∑ m : Fin 2048, A (ix2 p m) * X (ix2 m c) := by
  unfold k1_pay5 k1_pay3
  simp only [shapeCast_self]
  show acc (ix2 p c) + FloatOps.matmul (DotDims.plain 1024 2048 512) none (truncf (F := Ideal) .bf16 A bitsLt_bf16_f32) X
    (constant ⟨2, ![1024, 512]⟩ .f32 0x00000000#32) (ix2 p c) = _
  rw [plain_matmul_zero_apply]
  rfl

/-- The row h_g reaches its layer unchanged. -/
theorem pay8_eq (hg : Vec Ideal S1x512 .f32) : k1_pay8 (F := Ideal) hg = hg := by
  unfold k1_pay8
  simp only [shapeCast_self]
  rfl

/-- A dense layer as the kernels compute it — the product of an operand of any number of rows with the transposed
    weights into the zero accumulator, plus the bias row — at (p, c), with the weights and the bias as the
    arguments hold them. -/
theorem ker_dense_apply (M : ℕ) (v : FVec Ideal ⟨2, ![M, 512]⟩ .bf16) (w : Vec Ideal S512x512 .f32) (b : Vec Ideal S512 .f32)
    (p : Fin M) (c : Fin 512) :
    FloatOps.matmul (φ₁ := .bf16) (φ₂ := .bf16) (DotDims.plain M 512 512) none v
        (truncf (F := Ideal) .bf16 (transpose S512x512 [1, 0] w transposes_S512x512_S512x512_1_0) bitsLt_bf16_f32)
        (constant ⟨2, ![M, 512]⟩ .f32 0x00000000#32) (ix2 p c)
      + shapeCast S1x512 b shapeCasts_S512_S1x512 (ix2 (0 : Fin 1) c)
      = dense (fun k => v (ix2 p k)) w b c := by
  rw [plain_matmul_zero_apply, shapeCast_a_1a_apply]
  unfold dense
  refine congrArg (· + b (ix1 c)) (Finset.sum_congr rfl fun k _ => ?_)
  show v (ix2 p k) * transpose S512x512 [1, 0] w transposes_S512x512_S512x512_1_0 (ix2 k c) = _
  rw [transpose_ix2_apply]

/-- The kernel's closing arithmetic at (p, c): the three dense layers summed, the layer of h_g added, relu. -/
theorem ker_tail_apply (xm : Vec Ideal S1024x512 .bf16) (aU aL : Vec Ideal S1024x512 .f32) (hg : Vec Ideal S1x512 .f32)
    (x4 : Vec Ideal S512x512 .f32) (x5 : Vec Ideal S512 .f32) (x6 : Vec Ideal S512x512 .f32) (x7 : Vec Ideal S512 .f32)
    (x8 : Vec Ideal S512x512 .f32) (x9 : Vec Ideal S512 .f32) (x12 : Vec Ideal S512x512 .f32) (x13 : Vec Ideal S512 .f32)
    (p : Fin 1024) (c : Fin 512) :
    k1_pay6 (F := Ideal) (k1_pay7 (F := Ideal) xm (opW x4) (opB x5) aU (opW x6) (opB x7) aL (opW x8) (opB x9))
        (k1_pay8 (F := Ideal) hg) (opW x12) (opB x13) (ix2 p c)
      = outAt (fun k => xm (ix2 p k)) (fun k => aU (ix2 p k)) (fun k => aL (ix2 p k)) (fun k => hg (ix2 (0 : Fin 1) k))
          x4 x5 x6 x7 x8 x9 x12 x13 c := by
  have hD : dot_S1024x512_S512x512_S1024x512_1_0_0_1_n_n = DotDims.plain 1024 512 512 := rfl
  have hD1 : dot_S1x512_S512x512_S1x512_1_0_0_1_n_n = DotDims.plain 1 512 512 := rfl
  rw [pay8_eq]
  unfold k1_pay6 k1_pay7
  simp only [shapeCast_self, maximumf_apply, addf_apply, matmul, hD, hD1, broadcast_apply, broadcastTo_1b_ab_apply]
  rw [ker_dense_apply, ker_dense_apply, ker_dense_apply, ker_dense_apply]
  rfl

end Cert.Bridge

end
-- ==== Proof.ValRef.lean ====
/-
  The reference program's stages read at one entry, at the exact-real instance. A dense layer of the reference —
  the host's product with the transposed weights plus the bias broadcast over the rows — at (r, c) is the function
  dense of row r of its operand; the relu stage before the last reshape at (r, c) is outAt of row r of xf, of
  a_ud @ xf, of a_lr @ xf and of the one row h_g; and h_g at column c is hgAt of xf, the mask and the mask's sum.
-/
import proofs.«171332_j72834055406175_2_alg».proof.Proof.Gen.ReferenceIdeal.Read
import proofs.«171332_j72834055406175_2_alg».proof.Proof.ValMatmul
import proofs.«171332_j72834055406175_2_alg».proof.Proof.ValSpec
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.SL.Sem Idealize.ShloMosaic.ValueIdx Cert.ReferenceIdeal Cert.ReferenceIdeal.Gen
  Cert.ReferenceIdeal.Read

/-- A bias broadcast to a row and then over all 8192 rows, read at (r, c): the bias at c. -/
theorem ref_bias_apply (b : Vec Ideal S512 .f32) (r : Fin 8192) (c : Fin 512) :
    broadcastInDim S8192x512 ![0, 1] bcast_S1x512_S8192x512_0_1 (broadcastInDim S1x512 ![1] bcast_S512_S1x512_1 b) (ix2 r c)
      = b (ix1 c) := by
  rw [broadcastInDim_apply ![0, 1] bcast_S1x512_S8192x512_0_1 _ (ix2 r c) (ix2 (0 : Fin 1) c)
        (fun a => by match a with | ⟨0, _⟩ => rfl | ⟨1, _⟩ => rfl),
      broadcastInDim_apply ![1] bcast_S512_S1x512_1 b (ix2 (0 : Fin 1) c) (ix1 c)
        (fun a => by match a with | ⟨0, _⟩ => rfl)]

/-- A dense layer of the reference over an [8192, 512] operand, at (r, c). -/
theorem ref_dense_apply (L : Vec Ideal S8192x512 .f32) (w : Vec Ideal S512x512 .f32) (b : Vec Ideal S512 .f32)
    (r : Fin 8192) (c : Fin 512) :
    addf (F := Ideal) (φ := .f32) (Host.dotGeneral (F := Ideal) (φ₁ := .f32) (φ₂ := .f32) dot_S8192x512_S512x512_S8192x512_1_0_0_1_n_n none L
            (transpose S512x512 [1, 0] w transposes_S512x512_S512x512_1_0))
         (broadcastInDim S8192x512 ![0, 1] bcast_S1x512_S8192x512_0_1 (broadcastInDim S1x512 ![1] bcast_S512_S1x512_1 b))
         (ix2 r c)
      = dense (fun k => L (ix2 r k)) w b c := by
  show FloatOps.dotGeneral (F := Ideal) (φ₁ := .f32) (φ₂ := .f32) (DotDims.plain 8192 512 512) none .single L
        (transpose S512x512 [1, 0] w transposes_S512x512_S512x512_1_0) (ix2 r c) + _ = _
  rw [plain_dotGeneral_apply, ref_bias_apply]
  unfold dense
  refine congrArg (· + b (ix1 c)) (Finset.sum_congr rfl fun k _ => ?_)
  rw [transpose_ix2_apply]

/-- The layer of the one row h_g, broadcast over all 8192 rows, at (r, c). -/
theorem ref_dense_row_apply (L : Vec Ideal S1x512 .f32) (w : Vec Ideal S512x512 .f32) (b : Vec Ideal S512 .f32)
    (r : Fin 8192) (c : Fin 512) :
    broadcastInDim S8192x512 ![0, 1] bcast_S1x512_S8192x512_0_1
        (addf (F := Ideal) (φ := .f32)
          (Host.dotGeneral (F := Ideal) (φ₁ := .f32) (φ₂ := .f32) dot_S1x512_S512x512_S1x512_1_0_0_1_n_n none L
            (transpose S512x512 [1, 0] w transposes_S512x512_S512x512_1_0))
          (broadcastInDim S1x512 ![1] bcast_S512_S1x512_1 b)) (ix2 r c)
      = dense (fun k => L (ix2 (0 : Fin 1) k)) w b c := by
  rw [broadcastInDim_apply ![0, 1] bcast_S1x512_S8192x512_0_1 _ (ix2 r c) (ix2 (0 : Fin 1) c)
        (fun a => by match a with | ⟨0, _⟩ => rfl | ⟨1, _⟩ => rfl)]
  show FloatOps.dotGeneral (F := Ideal) (φ₁ := .f32) (φ₂ := .f32) (DotDims.plain 1 512 512) none .single L
        (transpose S512x512 [1, 0] w transposes_S512x512_S512x512_1_0) (ix2 (0 : Fin 1) c)
      + broadcastInDim S1x512 ![1] bcast_S512_S1x512_1 b (ix2 (0 : Fin 1) c) = _
  rw [plain_dotGeneral_apply, broadcastInDim_apply ![1] bcast_S512_S1x512_1 b (ix2 (0 : Fin 1) c) (ix1 c)
        (fun a => by match a with | ⟨0, _⟩ => rfl)]
  unfold dense
  refine congrArg (· + b (ix1 c)) (Finset.sum_congr rfl fun k _ => ?_)
  rw [transpose_ix2_apply]

/-- The reference's a_ud @ xf at (r, k): the sum over all 8192 columns of a_ud's row r against xf's column k. -/
theorem ref_ud_apply (x0 : Vec Ideal S128x64x512 .f32) (x2 : Vec Ideal S8192x8192 .f32) (r : Fin 8192) (k : Fin 512) :
    val_main_v1 (F := Ideal) x0 x2 (ix2 r k) = ∑ m : Fin 8192, x2 (ix2 r m) * val_main_v0 (F := Ideal) x0 (ix2 m k) :=
  plain_dotGeneral_apply 8192 8192 512 none .single x2 (val_main_v0 (F := Ideal) x0) r k

/-- The reference's a_lr @ xf at (r, k), likewise. -/
theorem ref_lr_apply (x0 : Vec Ideal S128x64x512 .f32) (x3 : Vec Ideal S8192x8192 .f32) (r : Fin 8192) (k : Fin 512) :
    val_main_v2 (F := Ideal) x0 x3 (ix2 r k) = ∑ m : Fin 8192, x3 (ix2 r m) * val_main_v0 (F := Ideal) x0 (ix2 m k) :=
  plain_dotGeneral_apply 8192 8192 512 none .single x3 (val_main_v0 (F := Ideal) x0) r k

/-- The reference's relu stage before its last reshape, at (r, c). -/
theorem ref_main_apply (x0 : Vec Ideal S128x64x512 .f32) (x1 : Vec Ideal S8192 .f32) (x2 x3 : Vec Ideal S8192x8192 .f32)
    (x4 : Vec Ideal S512x512 .f32) (x5 : Vec Ideal S512 .f32) (x6 : Vec Ideal S512x512 .f32) (x7 : Vec Ideal S512 .f32)
    (x8 : Vec Ideal S512x512 .f32) (x9 : Vec Ideal S512 .f32) (x10 : Vec Ideal S512x512 .f32) (x11 : Vec Ideal S512 .f32)
    (x12 : Vec Ideal S512x512 .f32) (x13 : Vec Ideal S512 .f32) (r : Fin 8192) (c : Fin 512) :
    val_main_v37 (F := Ideal) x0 x1 x2 x3 x4 x5 x6 x7 x8 x9 x10 x11 x12 x13 (ix2 r c)
      = outAt (fun k => val_main_v0 (F := Ideal) x0 (ix2 r k)) (fun k => val_main_v1 (F := Ideal) x0 x2 (ix2 r k))
          (fun k => val_main_v2 (F := Ideal) x0 x3 (ix2 r k))
          (fun k => val_main_v30 (F := Ideal) x0 x1 x10 x11 (ix2 (0 : Fin 1) k))
          x4 x5 x6 x7 x8 x9 x12 x13 c := by
  have h7 : val_main_v7 (F := Ideal) x0 x4 x5 (ix2 r c) = dense (fun k => val_main_v0 (F := Ideal) x0 (ix2 r k)) x4 x5 c :=
    ref_dense_apply (val_main_v0 (F := Ideal) x0) x4 x5 r c
  have h12 : val_main_v12 (F := Ideal) x0 x2 x6 x7 (ix2 r c)
      = dense (fun k => val_main_v1 (F := Ideal) x0 x2 (ix2 r k)) x6 x7 c :=
    ref_dense_apply (val_main_v1 (F := Ideal) x0 x2) x6 x7 r c
  have h18 : val_main_v18 (F := Ideal) x0 x3 x8 x9 (ix2 r c)
      = dense (fun k => val_main_v2 (F := Ideal) x0 x3 (ix2 r k)) x8 x9 c :=
    ref_dense_apply (val_main_v2 (F := Ideal) x0 x3) x8 x9 r c
  have h35 : val_main_v35 (F := Ideal) x0 x1 x10 x11 x12 x13 (ix2 r c)
      = dense (fun k => val_main_v30 (F := Ideal) x0 x1 x10 x11 (ix2 (0 : Fin 1) k)) x12 x13 c :=
    ref_dense_row_apply (val_main_v30 (F := Ideal) x0 x1 x10 x11) x12 x13 r c
  rw [val_main_v37_apply, val_main_v36_apply, val_main_v19_apply, val_main_v13_apply, h7, h12, h18, h35]
  rfl

/-- The reference's h_g at column c. -/
theorem ref_hg_apply (x0 : Vec Ideal S128x64x512 .f32) (x1 : Vec Ideal S8192 .f32)
    (x10 : Vec Ideal S512x512 .f32) (x11 : Vec Ideal S512 .f32) (u : Fin 1) (c : Fin 512) :
    val_main_v30 (F := Ideal) x0 x1 x10 x11 (ix2 u c)
      = hgAt (val_main_v0 (F := Ideal) x0) x1 (val_main_v20 (F := Ideal) x1 (fun a => a.elim0)) x10 x11 c := by
  have h26 : ∀ k : Fin 8192, val_main_v26 (F := Ideal) x0 x10 x11 (ix2 k c)
      = dense (fun k' => val_main_v0 (F := Ideal) x0 (ix2 k k')) x10 x11 c :=
    fun k => ref_dense_apply (val_main_v0 (F := Ideal) x0) x10 x11 k c
  have h28 : val_main_v28 (F := Ideal) x0 x1 x10 x11 (ix2 u c)
      = ∑ k : Fin 8192, val_main_v21 (F := Ideal) x1 (ix2 u k) * val_main_v27 (F := Ideal) x0 x10 x11 (ix2 k c) :=
    plain_dotGeneral_apply 1 8192 512 none .single (val_main_v21 (F := Ideal) x1) (val_main_v27 (F := Ideal) x0 x10 x11) u c
  have h21 : ∀ k : Fin 8192, val_main_v21 (F := Ideal) x1 (ix2 u k) = x1 (ix1 k) := fun k => by
    unfold val_main_v21
    exact broadcastInDim_apply ![1] bcast_S8192_S1x8192_1 x1 (ix2 u k) (ix1 k) (fun a => by match a with | ⟨0, _⟩ => rfl)
  have h29 : val_main_v29 (F := Ideal) x1 (ix2 u c) = val_main_v20 (F := Ideal) x1 (fun a => a.elim0) :=
    val_main_v29_apply x1 (ix2 u c)
  rw [val_main_v30_apply, h28, h29]
  unfold hgAt
  refine congrArg (fun s => Ideal.div s _) (Finset.sum_congr rfl fun k _ => ?_)
  rw [h21 k, val_main_v27_apply, h26 k]
  rfl

end Cert.Bridge

end
-- ==== Proof.ValKerHg.lean ====
/-
  The h_g kernel's arithmetic read at one entry, at the exact-real instance: at column c it is hgAt of the
  flattened activations, the mask, and the one entry of the [1, 1] array holding the mask's sum.
-/
import proofs.«171332_j72834055406175_2_alg».proof.Proof.ValKerMain

noncomputable section

namespace Cert.Bridge

open Idealize.ShloMosaic Idealize.SL.Sem Idealize.ShloMosaic.ValueIdx Cert.KernelIdeal Cert.KernelIdeal.Gen

/-- The h_g kernel's result at (u, c), u the one row. -/
theorem ker_hg_apply (x0 : Vec Ideal S128x64x512 .f32) (x1 : Vec Ideal S8192 .f32)
    (x10 : Vec Ideal S512x512 .f32) (x11 : Vec Ideal S512 .f32) (u : Fin 1) (c : Fin 512) :
    k0_pay1 (F := Ideal) (opX x0) (opW x10) (opB x11) (opM x1) (opN x1) (ix2 u c)
      = hgAt (opX x0) x1 (opN x1 (ix2 (0 : Fin 1) (0 : Fin 1))) x10 x11 c := by
  have hD : dot_S8192x512_S512x512_S8192x512_1_0_0_1_n_n = DotDims.plain 8192 512 512 := rfl
  have hD1 : dot_S1x8192_S8192x512_S1x512_1_0_0_1_n_n = DotDims.plain 1 8192 512 := rfl
  unfold k0_pay1
  simp only [shapeCast_self, divf_apply, matmul, hD, hD1, broadcast_apply]
  rw [plain_matmul_zero_apply]
  unfold hgAt
  have hn : extractAt ![0, 0] (opN x1) inpos_S1x1_p0_0 = opN x1 (ix2 (0 : Fin 1) (0 : Fin 1)) := by
    unfold extractAt
    exact congrArg (opN x1) (funext fun a => by match a with | ⟨0, _⟩ => rfl | ⟨1, _⟩ => rfl)
  rw [hn]
  refine congrArg (fun s => Ideal.div s _) (Finset.sum_congr rfl fun r _ => ?_)
  show shapeCast S1x8192 x1 shapeCasts_S8192_S1x8192 (ix2 u r)
      * max (FloatOps.matmul (F := Ideal) (φ₁ := .bf16) (φ₂ := .bf16) (DotDims.plain 8192 512 512) none (opX x0) (opW x10)
              (constant ⟨2, ![8192, 512]⟩ .f32 0x00000000#32) (ix2 r c)
            + broadcastTo S8192x512 (opB x11) broadcasts_S1x512_S8192x512 (ix2 r c))
          (Ideal.ofBits .f32 0x00000000#32) = _
  rw [shapeCast_a_1a_apply, broadcastTo_1b_ab_apply, ker_dense_apply]

end Cert.Bridge

end
-- ==== Proof.ValHg.lean ====
/-
  The h_g kernel's result is the reference's h_g, entry by entry: both are hgAt of the flattened activations, the
  mask and the mask's sum.
-/
import proofs.«171332_j72834055406175_2_alg».proof.Proof.ValKerHg
import proofs.«171332_j72834055406175_2_alg».proof.Proof.ValRef

noncomputable section

namespace Cert.Bridge

open Idealize.ShloMosaic Idealize.SL.Sem Idealize.ShloMosaic.ValueIdx Cert.KernelIdeal Cert.KernelIdeal.Gen

/-- The flattened activations the kernels receive are the reference's first stage. -/
theorem opX_eq (x0 : Vec Ideal S128x64x512 .f32) : opX x0 = Cert.ReferenceIdeal.Read.val_main_v0 (F := Ideal) x0 := rfl

/-- The one entry of the [1, 1] array holding the mask's sum is the reference's sum of the mask. -/
theorem count_eq (x1 : Vec Ideal S8192 .f32) :
    opN x1 (ix2 (0 : Fin 1) (0 : Fin 1)) = Cert.ReferenceIdeal.Read.val_main_v20 (F := Ideal) x1 (fun a => a.elim0) := by
  have hn : S_.numel = 1 := by decide
  show shapeCast S1x1 (Host.reduceAdd x1 (constant (F := Ideal) S_ .f32 0x00000000#32) reducesTo_S8192_S_d0 h_S_)
      shapeCasts_S_S1x1 (ix2 (0 : Fin 1) (0 : Fin 1)) = _
  rw [shapeCast_apply _ shapeCasts_S_S1x1 (ix2 (0 : Fin 1) (0 : Fin 1)) (fun a => a.elim0) (by
    have h1 := (S_.rowMajor (fun a => a.elim0)).isLt
    rw [Shape.rowMajor_val_two]
    show _ = 0 * 1 + 0
    omega)]
  rfl

/-- The h_g kernel's result, of the operands the kernel program hands it, is the reference's h_g. -/
theorem hg_value (x0 : Vec Ideal S128x64x512 .f32) (x1 : Vec Ideal S8192 .f32)
    (x10 : Vec Ideal S512x512 .f32) (x11 : Vec Ideal S512 .f32) :
    k0_pay1 (F := Ideal) (opX x0) (opW x10) (opB x11) (opM x1) (opN x1)
      = Cert.ReferenceIdeal.Read.val_main_v30 (F := Ideal) x0 x1 x10 x11 := by
  funext j
  obtain ⟨u, c, rfl⟩ : ∃ (u : Fin 1) (c : Fin 512), j = ix2 u c := ⟨j 0, j 1, eq_ix2 j⟩
  rw [ker_hg_apply, ref_hg_apply, count_eq, opX_eq]

end Cert.Bridge

end
-- ==== Proof.ValMain.lean ====
/-
  The main kernel's result is the reference's relu stage, block by block. At an entry (p, c) of row block i the
  kernel's closing arithmetic is outAt of row p of its four operands, and the reference's stage at (1024 i + p, c) is
  outAt of row 1024 i + p of xf, a_ud @ xf, a_lr @ xf and of h_g. The rows of xf agree because the kernel's block is
  that block of xf; h_g agrees by the h_g kernel's value; and a row of each accumulator — zero plus, for each of
  the four blocks of 2048 columns in order, the block's sum of products — is the reference's sum over all 8192
  columns, a finite sum taken block by block.
-/
import proofs.«171332_j72834055406175_2_alg».proof.Proof.ValSums
import proofs.«171332_j72834055406175_2_alg».proof.Proof.ValKerMain
import proofs.«171332_j72834055406175_2_alg».proof.Proof.ValRef
import proofs.«171332_j72834055406175_2_alg».proof.Proof.ValHg

noncomputable section

namespace Cert.Bridge

open Idealize.ShloMosaic Idealize.SL.Sem Idealize.ShloMosaic.ValueIdx Cert.KernelIdeal Cert.KernelIdeal.Gen

/-- Zero plus the four blocks' sums of products, in order, at row p of row block i and column c, is the whole row
    1024 i + p of the [8192, 8192] matrix against column c of xf. -/
theorem acc_four_blocks (A : Vec Ideal S8192x8192 .f32) (X : Vec Ideal S8192x512 .bf16) (i : Fin 8)
    (a : Fin 4 → Vec Ideal S1024x2048 .f32) (xk : Fin 4 → Vec Ideal S2048x512 .bf16)
    (ha : ∀ (k : Fin 4) (y : S1024x2048.Idx) (j : S8192x8192.Idx),
      (j 0).val = 1024 * i.val + (y 0).val → (j 1).val = 2048 * k.val + (y 1).val → a k y = A j)
    (hxk : ∀ (k : Fin 4) (y : S2048x512.Idx) (j : S8192x512.Idx),
      (j 0).val = 2048 * k.val + (y 0).val → (j 1).val = (y 1).val → xk k y = X j)
    (p : Fin 1024) (c : Fin 512) (r : Fin 8192) (hr : r.val = 1024 * i.val + p.val) :
    ((((0 : EReal) + ∑ d : Fin 2048, a 0 (ix2 p d) * xk 0 (ix2 d c)) + ∑ d : Fin 2048, a 1 (ix2 p d) * xk 1 (ix2 d c))
        + ∑ d : Fin 2048, a 2 (ix2 p d) * xk 2 (ix2 d c)) + ∑ d : Fin 2048, a 3 (ix2 p d) * xk 3 (ix2 d c)
      = ∑ m : Fin 8192, A (ix2 r m) * X (ix2 m c) :=
  sum_four_blocks (fun m : Fin 8192 => A (ix2 r m) * X (ix2 m c))
    (fun b : Fin 4 => ∑ d : Fin 2048, a b (ix2 p d) * xk b (ix2 d c))
    (fun b => Finset.sum_congr rfl fun d _ => by
      have hb := b.isLt
      have hd := d.isLt
      rw [ha b (ix2 p d) (ix2 r ⟨2048 * b.val + d.val, by omega⟩) hr rfl,
        hxk b (ix2 d c) (ix2 ⟨2048 * b.val + d.val, by omega⟩ c) rfl rfl])

/-- The main kernel's result at an entry of row block i is the reference's relu stage at that entry of the whole
    array. -/
theorem main_value (x0 : Vec Ideal S128x64x512 .f32) (x1 : Vec Ideal S8192 .f32) (x2 x3 : Vec Ideal S8192x8192 .f32)
    (x4 : Vec Ideal S512x512 .f32) (x5 : Vec Ideal S512 .f32) (x6 : Vec Ideal S512x512 .f32) (x7 : Vec Ideal S512 .f32)
    (x8 : Vec Ideal S512x512 .f32) (x9 : Vec Ideal S512 .f32) (x10 : Vec Ideal S512x512 .f32) (x11 : Vec Ideal S512 .f32)
    (x12 : Vec Ideal S512x512 .f32) (x13 : Vec Ideal S512 .f32)
    (i : Fin 8)
    (aud alr : Fin 4 → Vec Ideal S1024x2048 .f32) (xk : Fin 4 → Vec Ideal S2048x512 .bf16)
    (xm : Vec Ideal S1024x512 .bf16) (hg : Vec Ideal S1x512 .f32)
    (haud : ∀ (k : Fin 4) (y : S1024x2048.Idx) (j : S8192x8192.Idx),
      (j 0).val = 1024 * i.val + (y 0).val → (j 1).val = 2048 * k.val + (y 1).val → aud k y = x2 j)
    (halr : ∀ (k : Fin 4) (y : S1024x2048.Idx) (j : S8192x8192.Idx),
      (j 0).val = 1024 * i.val + (y 0).val → (j 1).val = 2048 * k.val + (y 1).val → alr k y = x3 j)
    (hxk : ∀ (k : Fin 4) (y : S2048x512.Idx) (j : S8192x512.Idx),
      (j 0).val = 2048 * k.val + (y 0).val → (j 1).val = (y 1).val → xk k y = opX x0 j)
    (hxm : ∀ (y : S1024x512.Idx) (j : S8192x512.Idx),
      (j 0).val = 1024 * i.val + (y 0).val → (j 1).val = (y 1).val → xm y = opX x0 j)
    (hhg : hg = k0_pay1 (F := Ideal) (opX x0) (opW x10) (opB x11) (opM x1) (opN x1))
    (y : S1024x512.Idx) (j : S8192x512.Idx)
    (hj0 : (j 0).val = 1024 * i.val + (y 0).val) (hj1 : (j 1).val = (y 1).val) :
    k1_pay6 (F := Ideal)
        (k1_pay7 (F := Ideal) xm (opW x4) (opB x5)
          (k1_pay4 (aud 3) (xk 3) (k1_pay4 (aud 2) (xk 2) (k1_pay4 (aud 1) (xk 1) (k1_pay4 (aud 0) (xk 0) (k1_pay1 (F := Ideal))))))
          (opW x6) (opB x7)
          (k1_pay5 (alr 3) (xk 3) (k1_pay5 (alr 2) (xk 2) (k1_pay5 (alr 1) (xk 1) (k1_pay5 (alr 0) (xk 0) (k1_pay2 (F := Ideal))))))
          (opW x8) (opB x9))
        (k1_pay8 (F := Ideal) hg) (opW x12) (opB x13) y
      = Cert.ReferenceIdeal.Read.val_main_v37 (F := Ideal) x0 x1 x2 x3 x4 x5 x6 x7 x8 x9 x10 x11 x12 x13 j := by
  obtain ⟨p, c, rfl⟩ : ∃ (p : Fin 1024) (c : Fin 512), y = ix2 p c := ⟨y 0, y 1, eq_ix2 y⟩
  obtain ⟨r, c', rfl⟩ : ∃ (r : Fin 8192) (c' : Fin 512), j = ix2 r c' := ⟨j 0, j 1, eq_ix2 j⟩
  have hr : r.val = 1024 * i.val + p.val := hj0
  have hc : c' = c := Fin.ext hj1
  subst hc
  rw [ker_tail_apply, ref_main_apply]
  have e1 : (fun k : Fin 512 => xm (ix2 p k)) = fun k => Cert.ReferenceIdeal.Read.val_main_v0 (F := Ideal) x0 (ix2 r k) :=
    funext fun k => by rw [hxm (ix2 p k) (ix2 r k) hr rfl, opX_eq]
  have e2 : (fun k : Fin 512 => k1_pay4 (aud 3) (xk 3) (k1_pay4 (aud 2) (xk 2) (k1_pay4 (aud 1) (xk 1)
        (k1_pay4 (aud 0) (xk 0) (k1_pay1 (F := Ideal))))) (ix2 p k))
      = fun k => Cert.ReferenceIdeal.Read.val_main_v1 (F := Ideal) x0 x2 (ix2 r k) :=
    funext fun k => by
      rw [pay4_apply, pay4_apply, pay4_apply, pay4_apply, pay1_apply, ref_ud_apply, ← opX_eq]
      exact acc_four_blocks x2 (opX x0) i aud xk haud hxk p k r hr
  have e3 : (fun k : Fin 512 => k1_pay5 (alr 3) (xk 3) (k1_pay5 (alr 2) (xk 2) (k1_pay5 (alr 1) (xk 1)
        (k1_pay5 (alr 0) (xk 0) (k1_pay2 (F := Ideal))))) (ix2 p k))
      = fun k => Cert.ReferenceIdeal.Read.val_main_v2 (F := Ideal) x0 x3 (ix2 r k) :=
    funext fun k => by
      rw [pay5_apply, pay5_apply, pay5_apply, pay5_apply, pay2_apply, ref_lr_apply, ← opX_eq]
      exact acc_four_blocks x3 (opX x0) i alr xk halr hxk p k r hr
  have e4 : (fun k : Fin 512 => hg (ix2 (0 : Fin 1) k))
      = fun k => Cert.ReferenceIdeal.Read.val_main_v30 (F := Ideal) x0 x1 x10 x11 (ix2 (0 : Fin 1) k) := by
    rw [hhg, hg_value]
  rw [e1, e2, e3, e4]

end Cert.Bridge

end
-- ==== Proof.Assemble.lean ====
import proofs.«171332_j72834055406175_2_alg».proof.Proof.KI.Results
import proofs.«171332_j72834055406175_2_alg».proof.Proof.KI.Claims
import proofs.«171332_j72834055406175_2_alg».proof.Proof.KI.Val0
import proofs.«171332_j72834055406175_2_alg».proof.Proof.ValMain
import proofs.«171332_j72834055406175_2_alg».proof.Proof.Gen.ReferenceIdeal.Run
import proofs.«171332_j72834055406175_2_alg».proof.Proof.Gen.ReferenceIdeal.Read

noncomputable section

namespace Cert.Proof.Assemble

open Idealize.ShloMosaic Idealize.ShloMosaic.TcCoe Idealize.SL.Sem
open Cert.Proof.KernelIdealResults

/-! # The reference's frame, the kernel program's first result, and the algebraic statement from its second

Everything here is at the ideal instance. The reference program is a line of host operations; its run names both
results as terms of the launch memory and leaves the arguments alone. The kernel program's run (`results_run`) names
its results as what the two pipelines left; the first of them is computed here, the second is a hypothesis. -/

/-- The reference program runs to the end from any launch memory and leaves its fourteen arguments as launched:
    its run's post, the two results dropped. -/
theorem frame_ReferenceIdeal :
    _root_.Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

section Kernel

open Cert.KernelIdeal Cert.KernelIdeal.Gen

variable (m : (ℓ : Loc nD τ sig) → Buf (Elt Ideal) ℓ) (ρ : Dev nD → PrngReg)

/-- Region 0's result array is the reference's `main_v30` of the launch memory's arguments: the region leaves the
    body's arithmetic of its five operand arrays; the operands are the first host stretch's functions of four
    arguments; and that arithmetic of those functions is the reference's value. -/
theorem kernel_v8 (c : Dev nD) :
    result8 (F := Ideal) m ρ c
      = Cert.ReferenceIdeal.Read.val_main_v30 (F := Ideal) (m ((c.tc : Thread nD τ).loc main_arg0)) (m ((c.tc : Thread nD τ).loc main_arg1))
          (m ((c.tc : Thread nD τ).loc main_arg10)) (m ((c.tc : Thread nD τ).loc main_arg11)) := by
  refine (final_hg (Vin0 m ρ) c).trans ?_
  rw [Vin0_main_v1 m ρ c, Vin0_main_v6 m ρ c, Vin0_main_v7 m ρ c, Vin0_main_v2 m ρ c, Vin0_main_v4 m ρ c]
  exact Cert.Bridge.hg_value _ _ _ _

end Kernel

/-- The algebraic statement, given that the kernel program's second result is the reference's `main_v38` of the launch
    memory's arguments. Both runs are stated at the same two values, the reference's functions of the KERNEL
    program's launch memory: the kernel program reaches them by the hypothesis and `kernel_v8`; the reference,
    launched on a memory that agrees on the arguments, by its own run. -/
theorem algebraic_of
    (h22 : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD),
      result22 (F := Ideal) m ρ c = Cert.ReferenceIdeal.Read.val_main_v38 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))) :
    _root_.Cert.algebraic_KernelIdeal_ReferenceIdeal (hKernelIdeal := Cert.KernelIdeal.Gen.facts)
      (hReferenceIdeal := Cert.ReferenceIdeal.Gen.facts) (hPre_finite_inputs := Cert.Pre_finite_inputs.Gen.facts) :=
  fun m ρ m' ρ' _ hagree =>
    ⟨fun c => Cert.ReferenceIdeal.Read.val_main_v38 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)),
     fun c => Cert.ReferenceIdeal.Read.val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
     (θ_run Cert.KernelIdeal.defs _ _).mono
       (fun _ h c => ⟨(h c).1.trans (h22 m ρ c), (h c).2.1.trans (kernel_v8 m ρ c), (h c).2.2⟩)
       (results_run (F := Ideal) m ρ),
     (θ_run Cert.ReferenceIdeal.defs _ _).mono
       (fun _ h c => ⟨by
          rw [(h c).1, Cert.ReferenceIdeal.Read.val_main_v38_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2],
        by
          rw [(h c).2.1, Cert.ReferenceIdeal.Read.val_main_v30_eq, (hagree c).1, (hagree c).2.1, (hagree c).2.2.2.2.2.2.2.2.2.2.1, (hagree c).2.2.2.2.2.2.2.2.2.2.2.1],
        (h c).2.2⟩)
       (Cert.ReferenceIdeal.Value.run (F := Ideal) m' ρ')⟩

/-- info: 'Cert.Proof.Assemble.frame_ReferenceIdeal' depends on axioms: [propext, Classical.choice, Quot.sound] -/
#guard_msgs in #print axioms frame_ReferenceIdeal
/-- info: 'Cert.Proof.Assemble.kernel_v8' depends on axioms: [propext, Classical.choice, Quot.sound] -/
#guard_msgs in #print axioms kernel_v8
/-- info: 'Cert.Proof.Assemble.algebraic_of' depends on axioms: [propext, Classical.choice, Quot.sound] -/
#guard_msgs in #print axioms algebraic_of

end Cert.Proof.Assemble

end
-- ==== Proof.KI.R1Pieces.lean ====
/-
  What each way through the second kernel's body leaves in the buffers it writes, as the body's arithmetic: every
  store is of a whole buffer, so a buffer ends at its last store's value. One accumulation step is
      acc ↦ acc + (adjacency block) · (rows 2048·k … of the feature matrix)          (`k1_pay4`, `k1_pay5`),
  from the cleared accumulator (`k1_pay1`, `k1_pay2`) at k = 0; at k = 3 the output block is the rectified sum of
  the three dense layers of (rows 1024·i … of the feature matrix, the two fresh accumulators) and the pooled
  feature's layer (`k1_pay7`, `k1_pay8`, `k1_pay6`). Nothing here depends on the float instance.
-/
import proofs.«171332_j72834055406175_2_alg».proof.Proof.KI.R1RunA
import proofs.«171332_j72834055406175_2_alg».proof.Proof.KI.R1RunB
import proofs.«171332_j72834055406175_2_alg».proof.Proof.KI.R1RunC
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeroOffsets2 : (![0, 0] : Fin 2 → Nat) = fun _ => 0 := funext fun a => by fin_cases a <;> rfl
local notation "hz2" => zeroOffsets2

/-! ## k = 0: cleared, then one step -/

theorem canonUd_A (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : cond1_0 i) (hc1 : ¬cond1_1 i) (x0 x1 : Vec F S1024x2048 .f32) (x2 : Vec F S8192x512 .bf16) :
    View.canon (run1_A c i a2 h2 a3 h3 a4 h4 a5 h5 a6 h6 a7 h7 a8 h8 a9 h9 a10 h10 a11 h11 a12 h12 a13 h13 a14 h14 a15 h15 a16 h16 hc0 hc1 x0 x1 x2).1 = k1_pay4 x0 (View.ld x2 (Rect.unit (s := S8192x512) (k1_off1 i) S2048x512.size (k1_off1_inb i))) k1_pay1 := by
  unfold run1_A
  dsimp only
  sl_unfold_words
  rw [View.canon_cons_unit_zero hz2]
  simp only [View.readAt_eq_ld, h2.read_unread, h3.read_unread, h4.read_unread, View.readCov_unit_zero (S := S1024x512) _ hz2, View.ld_unit_zero (S := S1024x2048) hz2, View.ld_unit_zero (S := S1024x512) hz2, View.ld_unit_zero (S := S512x512) hz2, View.ld_unit_zero (S := S1x512) hz2]

theorem canonLr_A (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : cond1_0 i) (hc1 : ¬cond1_1 i) (x0 x1 : Vec F S1024x2048 .f32) (x2 : Vec F S8192x512 .bf16) :
    View.canon (run1_A c i a2 h2 a3 h3 a4 h4 a5 h5 a6 h6 a7 h7 a8 h8 a9 h9 a10 h10 a11 h11 a12 h12 a13 h13 a14 h14 a15 h15 a16 h16 hc0 hc1 x0 x1 x2).2.1 = k1_pay5 x1 (View.ld x2 (Rect.unit (s := S8192x512) (k1_off1 i) S2048x512.size (k1_off1_inb i))) k1_pay2 := by
  unfold run1_A
  dsimp only
  sl_unfold_words
  rw [View.canon_cons_unit_zero hz2]
  simp only [View.readAt_eq_ld, h2.read_unread, h3.read_unread, h4.read_unread, View.readCov_unit_zero (S := S1024x512) _ hz2, View.ld_unit_zero (S := S1024x2048) hz2, View.ld_unit_zero (S := S1024x512) hz2, View.ld_unit_zero (S := S512x512) hz2, View.ld_unit_zero (S := S1x512) hz2]

/-! ## k = 1, 2: one step over what the point before left -/

theorem canonUd_B (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : ¬cond1_1 i) (x0 x1 : Vec F S1024x2048 .f32) (x2 : Vec F S8192x512 .bf16) (s0 s1 : Vec F S1024x512 .f32) :
    View.canon (run1_B c i a2 h2 a3 h3 a4 h4 a5 h5 a6 h6 a7 h7 a8 h8 a9 h9 a10 h10 a11 h11 a12 h12 a13 h13 a14 h14 a15 h15 a16 h16 hc0 hc1 x0 x1 x2 s0 s1).1 = k1_pay4 x0 (View.ld x2 (Rect.unit (s := S8192x512) (k1_off1 i) S2048x512.size (k1_off1_inb i))) s0 := by
  unfold run1_B
  dsimp only
  sl_unfold_words
  rw [View.canon_unit_zero hz2]
  simp only [View.readAt_eq_ld, h2.read_unread, h3.read_unread, h4.read_unread, h15.read_unread, h16.read_unread, View.readCov_unit_zero (S := S1024x512) _ hz2, View.ld_unit_zero (S := S1024x2048) hz2, View.ld_unit_zero (S := S1024x512) hz2, View.ld_unit_zero (S := S512x512) hz2, View.ld_unit_zero (S := S1x512) hz2]

theorem canonLr_B (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : ¬cond1_1 i) (x0 x1 : Vec F S1024x2048 .f32) (x2 : Vec F S8192x512 .bf16) (s0 s1 : Vec F S1024x512 .f32) :
    View.canon (run1_B c i a2 h2 a3 h3 a4 h4 a5 h5 a6 h6 a7 h7 a8 h8 a9 h9 a10 h10 a11 h11 a12 h12 a13 h13 a14 h14 a15 h15 a16 h16 hc0 hc1 x0 x1 x2 s0 s1).2.1 = k1_pay5 x1 (View.ld x2 (Rect.unit (s := S8192x512) (k1_off1 i) S2048x512.size (k1_off1_inb i))) s1 := by
  unfold run1_B
  dsimp only
  sl_unfold_words
  rw [View.canon_unit_zero hz2]
  simp only [View.readAt_eq_ld, h2.read_unread, h3.read_unread, h4.read_unread, h15.read_unread, h16.read_unread, View.readCov_unit_zero (S := S1024x512) _ hz2, View.ld_unit_zero (S := S1024x2048) hz2, View.ld_unit_zero (S := S1024x512) hz2, View.ld_unit_zero (S := S512x512) hz2, View.ld_unit_zero (S := S1x512) hz2]

/-! ## k = 3: one step, then the output rows -/

theorem canonUd_C (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : cond1_1 i) (x0 : Vec F S1024x2048 .f32) (x1 : Vec F S1024x2048 .f32) (x2 : Vec F S8192x512 .bf16) (x3 : Vec F S512x512 .bf16) (x4 : Vec F S1x512 .f32) (x5 : Vec F S512x512 .bf16) (x6 : Vec F S1x512 .f32) (x7 : Vec F S512x512 .bf16) (x8 : Vec F S1x512 .f32) (x9 : Vec F S1x512 .f32) (x10 : Vec F S512x512 .bf16) (x11 : Vec F S1x512 .f32) (s0 s1 : Vec F S1024x512 .f32) :
    View.canon (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).2.1 = k1_pay4 x0 (View.ld x2 (Rect.unit (s := S8192x512) (k1_off1 i) S2048x512.size (k1_off1_inb i))) s0 := by
  unfold run1_C
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, h15.read_unread, h16.read_unread, View.readCov_unit_zero (S := S1024x512) _ hz2, View.ld_unit_zero (S := S1024x2048) hz2, View.ld_unit_zero (S := S1024x512) hz2, View.ld_unit_zero (S := S512x512) hz2, View.ld_unit_zero (S := S1x512) hz2]

theorem canonLr_C (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : cond1_1 i) (x0 : Vec F S1024x2048 .f32) (x1 : Vec F S1024x2048 .f32) (x2 : Vec F S8192x512 .bf16) (x3 : Vec F S512x512 .bf16) (x4 : Vec F S1x512 .f32) (x5 : Vec F S512x512 .bf16) (x6 : Vec F S1x512 .f32) (x7 : Vec F S512x512 .bf16) (x8 : Vec F S1x512 .f32) (x9 : Vec F S1x512 .f32) (x10 : Vec F S512x512 .bf16) (x11 : Vec F S1x512 .f32) (s0 s1 : Vec F S1024x512 .f32) :
    View.canon (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).2.2.1 = k1_pay5 x1 (View.ld x2 (Rect.unit (s := S8192x512) (k1_off1 i) S2048x512.size (k1_off1_inb i))) s1 := by
  unfold run1_C
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, h15.read_unread, h16.read_unread, View.readCov_unit_zero (S := S1024x512) _ hz2, View.ld_unit_zero (S := S1024x2048) hz2, View.ld_unit_zero (S := S1024x512) hz2, View.ld_unit_zero (S := S512x512) hz2, View.ld_unit_zero (S := S1x512) hz2]

/-- The output block: the rectified sum of the dense layers of the block's feature rows and the two fresh
    accumulators, with the pooled feature's layer added to every row. -/
theorem canonOut_C (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : cond1_1 i) (x0 : Vec F S1024x2048 .f32) (x1 : Vec F S1024x2048 .f32) (x2 : Vec F S8192x512 .bf16) (x3 : Vec F S512x512 .bf16) (x4 : Vec F S1x512 .f32) (x5 : Vec F S512x512 .bf16) (x6 : Vec F S1x512 .f32) (x7 : Vec F S512x512 .bf16) (x8 : Vec F S1x512 .f32) (x9 : Vec F S1x512 .f32) (x10 : Vec F S512x512 .bf16) (x11 : Vec F S1x512 .f32) (s0 s1 : Vec F S1024x512 .f32) :
    View.canon (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).1
      = k1_pay6 (k1_pay7 (View.ld x2 (Rect.unit (s := S8192x512) (k1_off2 i) S1024x512.size (k1_off2_inb i hc1))) x3 x4 (k1_pay4 x0 (View.ld x2 (Rect.unit (s := S8192x512) (k1_off1 i) S2048x512.size (k1_off1_inb i))) s0) x5 x6 (k1_pay5 x1 (View.ld x2 (Rect.unit (s := S8192x512) (k1_off1 i) S2048x512.size (k1_off1_inb i))) s1) x7 x8) (k1_pay8 x9) x10 x11 := by
  unfold run1_C
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread, h11.read_unread, h12.read_unread, h13.read_unread, h15.read_unread, h16.read_unread, View.readCov_unit_zero (S := S1024x512) _ hz2, View.ld_unit_zero (S := S1024x2048) hz2, View.ld_unit_zero (S := S1024x512) hz2, View.ld_unit_zero (S := S512x512) hz2, View.ld_unit_zero (S := S1x512) hz2]

end Cert.KernelIdeal.Gen

end
-- ==== Proof.KI.Val1Acc.lean ====
/-
  The second kernel's two accumulators and its output block in closed form. For the row block i and the column
  block k the grid point is 4·i + k; after it the first accumulator holds
      A_ud(i, 0)·X₀ + A_ud(i, 1)·X₁ + … + A_ud(i, k)·X_k      (from the cleared accumulator, one step per point),
  X_k the rows 2048·k … of the feature matrix, and likewise the second with A_lr; after the point (i, 3) the output
  window's buffer holds the rectified sum of the dense layers of the block's feature rows and the two full
  accumulators with the pooled feature's layer. Each step is read off the way through the body its point takes.
  Nothing here depends on the float instance.
-/
import proofs.«171332_j72834055406175_2_alg».proof.Proof.KI.R1
import proofs.«171332_j72834055406175_2_alg».proof.Proof.KI.R1Pieces

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Each buffer read back after a way through the body -/

theorem readUd_A (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : cond1_0 i) (hc1 : ¬cond1_1 i) (x0 x1 : Vec F S1024x2048 .f32) (x2 : Vec F S8192x512 .bf16) :
    accM_ud.view.read (Elt F) (accM_ud.view.writes (Elt F) accM_ud.view.junk (run1_A c i a2 h2 a3 h3 a4 h4 a5 h5 a6 h6 a7 h7 a8 h8 a9 h9 a10 h10 a11 h11 a12 h12 a13 h13 a14 h14 a15 h15 a16 h16 hc0 hc1 x0 x1 x2).1)
      = k1_pay4 x0 (View.ld x2 (Rect.unit (s := S8192x512) (k1_off1 i) S2048x512.size (k1_off1_inb i))) k1_pay1 := by
  rw [View.read_writes_eq_canon _ _ _ (scoverUd_A c i a2 h2 a3 h3 a4 h4 a5 h5 a6 h6 a7 h7 a8 h8 a9 h9 a10 h10 a11 h11 a12 h12 a13 h13 a14 h14 a15 h15 a16 h16 hc0 hc1 x0 x1 x2), canonUd_A]
theorem readLr_A (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : cond1_0 i) (hc1 : ¬cond1_1 i) (x0 x1 : Vec F S1024x2048 .f32) (x2 : Vec F S8192x512 .bf16) :
    accM_lr.view.read (Elt F) (accM_lr.view.writes (Elt F) accM_lr.view.junk (run1_A c i a2 h2 a3 h3 a4 h4 a5 h5 a6 h6 a7 h7 a8 h8 a9 h9 a10 h10 a11 h11 a12 h12 a13 h13 a14 h14 a15 h15 a16 h16 hc0 hc1 x0 x1 x2).2.1)
      = k1_pay5 x1 (View.ld x2 (Rect.unit (s := S8192x512) (k1_off1 i) S2048x512.size (k1_off1_inb i))) k1_pay2 := by
  rw [View.read_writes_eq_canon _ _ _ (scoverLr_A c i a2 h2 a3 h3 a4 h4 a5 h5 a6 h6 a7 h7 a8 h8 a9 h9 a10 h10 a11 h11 a12 h12 a13 h13 a14 h14 a15 h15 a16 h16 hc0 hc1 x0 x1 x2), canonLr_A]
theorem readUd_B (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : ¬cond1_1 i) (x0 x1 : Vec F S1024x2048 .f32) (x2 : Vec F S8192x512 .bf16) (s0 s1 : Vec F S1024x512 .f32) :
    accM_ud.view.read (Elt F) (accM_ud.view.writes (Elt F) accM_ud.view.junk (run1_B c i a2 h2 a3 h3 a4 h4 a5 h5 a6 h6 a7 h7 a8 h8 a9 h9 a10 h10 a11 h11 a12 h12 a13 h13 a14 h14 a15 h15 a16 h16 hc0 hc1 x0 x1 x2 s0 s1).1)
      = k1_pay4 x0 (View.ld x2 (Rect.unit (s := S8192x512) (k1_off1 i) S2048x512.size (k1_off1_inb i))) s0 := by
  rw [View.read_writes_eq_canon _ _ _ (scoverUd_B c i a2 h2 a3 h3 a4 h4 a5 h5 a6 h6 a7 h7 a8 h8 a9 h9 a10 h10 a11 h11 a12 h12 a13 h13 a14 h14 a15 h15 a16 h16 hc0 hc1 x0 x1 x2 s0 s1), canonUd_B]
theorem readLr_B (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : ¬cond1_1 i) (x0 x1 : Vec F S1024x2048 .f32) (x2 : Vec F S8192x512 .bf16) (s0 s1 : Vec F S1024x512 .f32) :
    accM_lr.view.read (Elt F) (accM_lr.view.writes (Elt F) accM_lr.view.junk (run1_B c i a2 h2 a3 h3 a4 h4 a5 h5 a6 h6 a7 h7 a8 h8 a9 h9 a10 h10 a11 h11 a12 h12 a13 h13 a14 h14 a15 h15 a16 h16 hc0 hc1 x0 x1 x2 s0 s1).2.1)
      = k1_pay5 x1 (View.ld x2 (Rect.unit (s := S8192x512) (k1_off1 i) S2048x512.size (k1_off1_inb i))) s1 := by
  rw [View.read_writes_eq_canon _ _ _ (scoverLr_B c i a2 h2 a3 h3 a4 h4 a5 h5 a6 h6 a7 h7 a8 h8 a9 h9 a10 h10 a11 h11 a12 h12 a13 h13 a14 h14 a15 h15 a16 h16 hc0 hc1 x0 x1 x2 s0 s1), canonLr_B]
theorem readUd_C (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : cond1_1 i) (x0 : Vec F S1024x2048 .f32) (x1 : Vec F S1024x2048 .f32) (x2 : Vec F S8192x512 .bf16) (x3 : Vec F S512x512 .bf16) (x4 : Vec F S1x512 .f32) (x5 : Vec F S512x512 .bf16) (x6 : Vec F S1x512 .f32) (x7 : Vec F S512x512 .bf16) (x8 : Vec F S1x512 .f32) (x9 : Vec F S1x512 .f32) (x10 : Vec F S512x512 .bf16) (x11 : Vec F S1x512 .f32) (s0 s1 : Vec F S1024x512 .f32) :
    accM_ud.view.read (Elt F) (accM_ud.view.writes (Elt F) accM_ud.view.junk (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).2.1)
      = k1_pay4 x0 (View.ld x2 (Rect.unit (s := S8192x512) (k1_off1 i) S2048x512.size (k1_off1_inb i))) s0 := by
  rw [View.read_writes_eq_canon _ _ _ (scoverUd_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1), canonUd_C]
theorem readLr_C (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : cond1_1 i) (x0 : Vec F S1024x2048 .f32) (x1 : Vec F S1024x2048 .f32) (x2 : Vec F S8192x512 .bf16) (x3 : Vec F S512x512 .bf16) (x4 : Vec F S1x512 .f32) (x5 : Vec F S512x512 .bf16) (x6 : Vec F S1x512 .f32) (x7 : Vec F S512x512 .bf16) (x8 : Vec F S1x512 .f32) (x9 : Vec F S1x512 .f32) (x10 : Vec F S512x512 .bf16) (x11 : Vec F S1x512 .f32) (s0 s1 : Vec F S1024x512 .f32) :
    accM_lr.view.read (Elt F) (accM_lr.view.writes (Elt F) accM_lr.view.junk (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).2.2.1)
      = k1_pay5 x1 (View.ld x2 (Rect.unit (s := S8192x512) (k1_off1 i) S2048x512.size (k1_off1_inb i))) s1 := by
  rw [View.read_writes_eq_canon _ _ _ (scoverLr_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1), canonLr_C]
theorem readOut_C (c : Dev nD) (i : grid1.Coords) (a2 : Memref sig .tc .vmem S1024x2048 .f32) (h2 : a2.IsWhole) (a3 : Memref sig .tc .vmem S1024x2048 .f32) (h3 : a3.IsWhole) (a4 : Memref sig .tc .vmem S8192x512 .bf16) (h4 : a4.IsWhole) (a5 : Memref sig .tc .vmem S512x512 .bf16) (h5 : a5.IsWhole) (a6 : Memref sig .tc .vmem S1x512 .f32) (h6 : a6.IsWhole) (a7 : Memref sig .tc .vmem S512x512 .bf16) (h7 : a7.IsWhole) (a8 : Memref sig .tc .vmem S1x512 .f32) (h8 : a8.IsWhole) (a9 : Memref sig .tc .vmem S512x512 .bf16) (h9 : a9.IsWhole) (a10 : Memref sig .tc .vmem S1x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S1024x512 .f32) (h14 : a14.IsWhole) (a15 : Memref sig .tc .vmem S1024x512 .f32) (h15 : a15.IsWhole) (a16 : Memref sig .tc .vmem S1024x512 .f32) (h16 : a16.IsWhole) (hc0 : ¬cond1_0 i) (hc1 : cond1_1 i) (x0 : Vec F S1024x2048 .f32) (x1 : Vec F S1024x2048 .f32) (x2 : Vec F S8192x512 .bf16) (x3 : Vec F S512x512 .bf16) (x4 : Vec F S1x512 .f32) (x5 : Vec F S512x512 .bf16) (x6 : Vec F S1x512 .f32) (x7 : Vec F S512x512 .bf16) (x8 : Vec F S1x512 .f32) (x9 : Vec F S1x512 .f32) (x10 : Vec F S512x512 .bf16) (x11 : Vec F S1x512 .f32) (s0 s1 : Vec F S1024x512 .f32) :
    VO1_12.read (Elt F) (VO1_12.writes (Elt F) VO1_12.junk (run1_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1).1)
      = k1_pay6 (k1_pay7 (View.ld x2 (Rect.unit (s := S8192x512) (k1_off2 i) S1024x512.size (k1_off2_inb i hc1))) x3 x4 (k1_pay4 x0 (View.ld x2 (Rect.unit (s := S8192x512) (k1_off1 i) S2048x512.size (k1_off1_inb i))) s0) x5 x6 (k1_pay5 x1 (View.ld x2 (Rect.unit (s := S8192x512) (k1_off1 i) S2048x512.size (k1_off1_inb i))) s1) x7 x8) (k1_pay8 x9) x10 x11 := by
  rw [View.read_writes_eq_canon _ _ _ (cover12_C c i a2 h2 a3 h3 a4 h4 a5 h5 a6 h6 a7 h7 a8 h8 a9 h9 a10 h10 a11 h11 a12 h12 a13 h13 a14 h14 a15 h15 a16 h16 hc0 hc1 x0 x1 x2 x3 x4 x5 x6 x7 x8 x9 x10 x11 s0 s1), canonOut_C]

section Region1Values

variable (V : (c : Dev nD) → (b : Ref sig .tc) → Buf (Elt F) ((c : Thread nD τ).loc b))

theorem outsAt1_congr (c : Dev nD) {n n' : ℕ} (h : n = n') (hn : n < cfg1.N) (hn' : n' < cfg1.N) :
    outsAt1 V c n hn = outsAt1 V c n' hn' := by subst h; rfl

/-- The grid point of row block `i` and column block `k`. -/
def pt (i : Fin 8) (k : ℕ) (hk : k < 4) : Fin cfg1.N := ⟨4 * i.val + k, by have : cfg1.N = 32 := N_1; have := i.isLt; omega⟩

/-- The rows of the feature matrix the accumulation step of point `t` reads. -/
abbrev xrowsK (c : Dev nD) (t : Fin cfg1.N) : Vec F S2048x512 .bf16 :=
  View.ld (iblk1 V c 2 t) (Rect.unit (s := S8192x512) (k1_off1 (grid1.coords t)) S2048x512.size (k1_off1_inb (grid1.coords t)))
/-- The rows of the feature matrix the output step of a last point `t` reads. -/
abbrev xrowsI (c : Dev nD) (t : Fin cfg1.N) (hc1 : cond1_1 (grid1.coords t)) : Vec F S1024x512 .bf16 :=
  View.ld (iblk1 V c 2 t) (Rect.unit (s := S8192x512) (k1_off2 (grid1.coords t)) S1024x512.size (k1_off2_inb (grid1.coords t) hc1))

/-- The first accumulator after the point (i, k). -/
def aUd (c : Dev nD) (i : Fin 8) : (k : ℕ) → k < 4 → Vec F S1024x512 .f32
  | 0, hk => k1_pay4 (iblk1 V c 0 (pt i 0 hk)) (xrowsK V c (pt i 0 hk)) k1_pay1
  | k + 1, hk => k1_pay4 (iblk1 V c 0 (pt i (k + 1) hk)) (xrowsK V c (pt i (k + 1) hk)) (aUd c i k (by omega))
/-- The second accumulator after the point (i, k). -/
def aLr (c : Dev nD) (i : Fin 8) : (k : ℕ) → k < 4 → Vec F S1024x512 .f32
  | 0, hk => k1_pay5 (iblk1 V c 1 (pt i 0 hk)) (xrowsK V c (pt i 0 hk)) k1_pay2
  | k + 1, hk => k1_pay5 (iblk1 V c 1 (pt i (k + 1) hk)) (xrowsK V c (pt i (k + 1) hk)) (aLr c i k (by omega))

set_option maxHeartbeats 1000000 in
/-- After the first point of row block `i` the accumulators hold one step from the cleared ones. -/
theorem accs_zero (c : Dev nD) (i : Fin 8) (hk : 0 < 4) :
    (outsAt1 V c (pt i 0 hk).val (pt i 0 hk).isLt).2 = (aUd V c i 0 hk, aLr V c i 0 hk) := by
  have h0 : (pt i 0 hk).val % 4 = 0 := by show (4 * i.val + 0) % 4 = 0; omega
  have hc1 : ¬cond1_1 (grid1.coords (pt i 0 hk)) := fun h => by
    have h3 : (4 * i.val + 0) % 4 = 3 := (hcond1_1 (pt i 0 hk)).mp h
    omega
  rw [outsAt1_A V c (pt i 0 hk) h0 hc1]
  dsimp only [readUd, readLr, readOut, runA_at, runB_at, runC_at]
  rw [readUd_A, readLr_A, aUd, aLr]
  rfl

set_option maxHeartbeats 1000000 in
/-- One more point: one more step on what the point before left. -/
theorem accs_step (c : Dev nD) (i : Fin 8) (k : ℕ) (hk : k + 1 < 4)
    (ih : (outsAt1 V c (pt i k (by omega)).val (pt i k (by omega)).isLt).2 = (aUd V c i k (by omega), aLr V c i k (by omega))) :
    (outsAt1 V c (pt i (k + 1) hk).val (pt i (k + 1) hk).isLt).2 = (aUd V c i (k + 1) hk, aLr V c i (k + 1) hk) := by
  have h0 : ¬(pt i (k + 1) hk).val % 4 = 0 := by show ¬(4 * i.val + (k + 1)) % 4 = 0; omega
  have hprev : outsAt1 V c ((pt i (k + 1) hk).val - 1) (Nat.lt_of_le_of_lt (Nat.sub_le _ _) (pt i (k + 1) hk).isLt)
      = outsAt1 V c (pt i k (by omega)).val (pt i k (by omega)).isLt :=
    outsAt1_congr V c (by show 4 * i.val + (k + 1) - 1 = 4 * i.val + k; omega) _ _
  by_cases h1 : (pt i (k + 1) hk).val % 4 = 3
  · rw [outsAt1_C V c (pt i (k + 1) hk) h0 h1, hprev, ih]
    dsimp only [readUd, readLr, readOut, runA_at, runB_at, runC_at]
    rw [readUd_C, readLr_C, aUd, aLr]
    rfl
  · rw [outsAt1_B V c (pt i (k + 1) hk) h0 h1, hprev, ih]
    dsimp only [readUd, readLr, readOut, runA_at, runB_at, runC_at]
    rw [readUd_B, readLr_B, aUd, aLr]
    rfl

/-- After the point (i, k) the accumulators hold their closed forms. -/
theorem accs_eq (c : Dev nD) (i : Fin 8) (k : ℕ) : ∀ (hk : k < 4),
    (outsAt1 V c (pt i k hk).val (pt i k hk).isLt).2 = (aUd V c i k hk, aLr V c i k hk) := by
  induction k with
  | zero => exact fun hk => accs_zero V c i hk
  | succ k ih => exact fun hk => accs_step V c i k hk (ih (by omega))

/-- The last point of row block `i` takes the output branch. -/
theorem lastPt_cond (i : Fin 8) : cond1_1 (grid1.coords (pt i 3 (by omega))) :=
  (hcond1_1 _).mpr (by show (4 * i.val + 3) % 4 = 3; omega)

set_option maxHeartbeats 1000000 in
/-- After the last point of row block `i` the output window's buffer holds the block's output rows. -/
theorem outBlock_eq (c : Dev nD) (i : Fin 8) :
    (outsAt1 V c (pt i 3 (by omega)).val (pt i 3 (by omega)).isLt).1
      = k1_pay6 (k1_pay7 (xrowsI V c (pt i 3 (by omega)) (lastPt_cond i)) (iblk1 V c 3 (pt i 3 (by omega))) (iblk1 V c 4 (pt i 3 (by omega)))
            (k1_pay4 (iblk1 V c 0 (pt i 3 (by omega))) (xrowsK V c (pt i 3 (by omega))) (aUd V c i 2 (by omega)))
            (iblk1 V c 5 (pt i 3 (by omega))) (iblk1 V c 6 (pt i 3 (by omega)))
            (k1_pay5 (iblk1 V c 1 (pt i 3 (by omega))) (xrowsK V c (pt i 3 (by omega))) (aLr V c i 2 (by omega)))
            (iblk1 V c 7 (pt i 3 (by omega))) (iblk1 V c 8 (pt i 3 (by omega))))
          (k1_pay8 (iblk1 V c 9 (pt i 3 (by omega)))) (iblk1 V c 10 (pt i 3 (by omega))) (iblk1 V c 11 (pt i 3 (by omega))) := by
  have ih := accs_eq V c i 2 (by omega)
  have h0 : ¬(pt i 3 (by omega)).val % 4 = 0 := by show ¬(4 * i.val + 3) % 4 = 0; omega
  have h1 : (pt i 3 (by omega)).val % 4 = 3 := by show (4 * i.val + 3) % 4 = 3; omega
  have hprev : outsAt1 V c ((pt i 3 (by omega)).val - 1) (Nat.lt_of_le_of_lt (Nat.sub_le _ _) (pt i 3 (by omega)).isLt)
      = outsAt1 V c (pt i 2 (by omega)).val (pt i 2 (by omega)).isLt :=
    outsAt1_congr V c (by show 4 * i.val + 3 - 1 = 4 * i.val + 2; omega) _ _
  rw [outsAt1_C V c (pt i 3 (by omega)) h0 h1, hprev, ih]
  dsimp only [readUd, readLr, readOut, runA_at, runB_at, runC_at]
  rw [readOut_C]
  rfl

/-- The accumulators after the point (i, 2), spelt out: three steps from the cleared ones. -/
theorem aUd_two (c : Dev nD) (i : Fin 8) :
    aUd V c i 2 (by omega) = k1_pay4 (iblk1 V c 0 (pt i 2 (by omega))) (xrowsK V c (pt i 2 (by omega)))
      (k1_pay4 (iblk1 V c 0 (pt i 1 (by omega))) (xrowsK V c (pt i 1 (by omega)))
        (k1_pay4 (iblk1 V c 0 (pt i 0 (by omega))) (xrowsK V c (pt i 0 (by omega))) k1_pay1)) := by
  rw [aUd, aUd, aUd]
theorem aLr_two (c : Dev nD) (i : Fin 8) :
    aLr V c i 2 (by omega) = k1_pay5 (iblk1 V c 1 (pt i 2 (by omega))) (xrowsK V c (pt i 2 (by omega)))
      (k1_pay5 (iblk1 V c 1 (pt i 1 (by omega))) (xrowsK V c (pt i 1 (by omega)))
        (k1_pay5 (iblk1 V c 1 (pt i 0 (by omega))) (xrowsK V c (pt i 0 (by omega))) k1_pay2)) := by
  rw [aLr, aLr, aLr]

end Region1Values

end Cert.KernelIdeal.Gen

end
-- ==== Proof.KI.Val1Blocks.lean ====
/-
  The second kernel's windows at a grid point t = 4 i + k of its 8 × 4 grid, as coordinates. Ten operands are staged
  whole at every point: their block is the array itself. The two [8192, 8192] matrices are staged in blocks of
  [1024, 2048]: entry (y0, y1) of the block at point t is entry (1024 (t / 4) + y0, 2048 (t mod 4) + y1) of the matrix.
  The result is written in blocks of [1024, 512]: entry (y0, y1) of the block at point t is entry
  (1024 (t / 4) + y0, y1) of the result array.
-/
import proofs.«171332_j72834055406175_2_alg».proof.Proof.KI.R1Defs
import Idealize.ShloMosaic.Lib.Pipeline.Value

set_option maxRecDepth 16384

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

section Region1Blocks

variable (V : (c : Dev nD) → (b : Ref sig .tc) → Buf (Elt F) ((c : Thread nD τ).loc b))

/-- The printed index maps, decided over the 32 points: the two matrices' blocks move with both grid coordinates, the
    result's with the first, and every other window's block index is zero on both axes. -/
theorem idx_facts1 : ∀ t : Fin cfg1.N,
    (win1_0.index t (0 : Fin 2) = t.val / 4 ∧ win1_0.index t (1 : Fin 2) = t.val % 4)
    ∧ (win1_1.index t (0 : Fin 2) = t.val / 4 ∧ win1_1.index t (1 : Fin 2) = t.val % 4)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = t.val / 4 ∧ win1_12.index t (1 : Fin 2) = 0) :=
  (by decide +kernel : ∀ t : Fin grid1.N, _)

/-- The flattened activations: at every point the block is the whole array. -/
theorem iblk1_whole_2 (c : Dev nD) (t : Fin cfg1.N) : iblk1 V c 2 t = V c main_v1 := by
  unfold iblk1
  funext j
  show V c main_v1 (((cfg1.win 2).blk t).view.emb j) = V c main_v1 j
  refine congrArg (V c main_v1) (funext fun a => Fin.ext ?_)
  obtain ⟨-, -, ⟨e0, e1⟩, -⟩ := idx_facts1 t
  match a with
  | ⟨0, _⟩ => show win1_2.index t (0 : Fin 2) * 8192 + 1 * (j 0).val = (j 0).val; rw [e0]; omega
  | ⟨1, _⟩ => show win1_2.index t (1 : Fin 2) * 512 + 1 * (j 1).val = (j 1).val; rw [e1]; omega

/-- The first layer's weight: at every point the block is the whole array. -/
theorem iblk1_whole_3 (c : Dev nD) (t : Fin cfg1.N) : iblk1 V c 3 t = V c main_v10 := by
  unfold iblk1
  funext j
  show V c main_v10 (((cfg1.win 3).blk t).view.emb j) = V c main_v10 j
  refine congrArg (V c main_v10) (funext fun a => Fin.ext ?_)
  obtain ⟨-, -, -, ⟨e0, e1⟩, -⟩ := idx_facts1 t
  match a with
  | ⟨0, _⟩ => show win1_3.index t (0 : Fin 2) * 512 + 1 * (j 0).val = (j 0).val; rw [e0]; omega
  | ⟨1, _⟩ => show win1_3.index t (1 : Fin 2) * 512 + 1 * (j 1).val = (j 1).val; rw [e1]; omega

/-- The first layer's bias row: at every point the block is the whole array. -/
theorem iblk1_whole_4 (c : Dev nD) (t : Fin cfg1.N) : iblk1 V c 4 t = V c main_v17 := by
  unfold iblk1
  funext j
  show V c main_v17 (((cfg1.win 4).blk t).view.emb j) = V c main_v17 j
  refine congrArg (V c main_v17) (funext fun a => Fin.ext ?_)
  obtain ⟨-, -, -, -, ⟨e0, e1⟩, -⟩ := idx_facts1 t
  match a with
  | ⟨0, _⟩ => show win1_4.index t (0 : Fin 2) * 1 + 1 * (j 0).val = (j 0).val; rw [e0]; omega
  | ⟨1, _⟩ => show win1_4.index t (1 : Fin 2) * 512 + 1 * (j 1).val = (j 1).val; rw [e1]; omega

/-- The up-down layer's weight: at every point the block is the whole array. -/
theorem iblk1_whole_5 (c : Dev nD) (t : Fin cfg1.N) : iblk1 V c 5 t = V c main_v12 := by
  unfold iblk1
  funext j
  show V c main_v12 (((cfg1.win 5).blk t).view.emb j) = V c main_v12 j
  refine congrArg (V c main_v12) (funext fun a => Fin.ext ?_)
  obtain ⟨-, -, -, -, -, ⟨e0, e1⟩, -⟩ := idx_facts1 t
  match a with
  | ⟨0, _⟩ => show win1_5.index t (0 : Fin 2) * 512 + 1 * (j 0).val = (j 0).val; rw [e0]; omega
  | ⟨1, _⟩ => show win1_5.index t (1 : Fin 2) * 512 + 1 * (j 1).val = (j 1).val; rw [e1]; omega

/-- The up-down layer's bias row: at every point the block is the whole array. -/
theorem iblk1_whole_6 (c : Dev nD) (t : Fin cfg1.N) : iblk1 V c 6 t = V c main_v18 := by
  unfold iblk1
  funext j
  show V c main_v18 (((cfg1.win 6).blk t).view.emb j) = V c main_v18 j
  refine congrArg (V c main_v18) (funext fun a => Fin.ext ?_)
  obtain ⟨-, -, -, -, -, -, ⟨e0, e1⟩, -⟩ := idx_facts1 t
  match a with
  | ⟨0, _⟩ => show win1_6.index t (0 : Fin 2) * 1 + 1 * (j 0).val = (j 0).val; rw [e0]; omega
  | ⟨1, _⟩ => show win1_6.index t (1 : Fin 2) * 512 + 1 * (j 1).val = (j 1).val; rw [e1]; omega

/-- The left-right layer's weight: at every point the block is the whole array. -/
theorem iblk1_whole_7 (c : Dev nD) (t : Fin cfg1.N) : iblk1 V c 7 t = V c main_v14 := by
  unfold iblk1
  funext j
  show V c main_v14 (((cfg1.win 7).blk t).view.emb j) = V c main_v14 j
  refine congrArg (V c main_v14) (funext fun a => Fin.ext ?_)
  obtain ⟨-, -, -, -, -, -, -, ⟨e0, e1⟩, -⟩ := idx_facts1 t
  match a with
  | ⟨0, _⟩ => show win1_7.index t (0 : Fin 2) * 512 + 1 * (j 0).val = (j 0).val; rw [e0]; omega
  | ⟨1, _⟩ => show win1_7.index t (1 : Fin 2) * 512 + 1 * (j 1).val = (j 1).val; rw [e1]; omega

/-- The left-right layer's bias row: at every point the block is the whole array. -/
theorem iblk1_whole_8 (c : Dev nD) (t : Fin cfg1.N) : iblk1 V c 8 t = V c main_v19 := by
  unfold iblk1
  funext j
  show V c main_v19 (((cfg1.win 8).blk t).view.emb j) = V c main_v19 j
  refine congrArg (V c main_v19) (funext fun a => Fin.ext ?_)
  obtain ⟨-, -, -, -, -, -, -, -, ⟨e0, e1⟩, -⟩ := idx_facts1 t
  match a with
  | ⟨0, _⟩ => show win1_8.index t (0 : Fin 2) * 1 + 1 * (j 0).val = (j 0).val; rw [e0]; omega
  | ⟨1, _⟩ => show win1_8.index t (1 : Fin 2) * 512 + 1 * (j 1).val = (j 1).val; rw [e1]; omega

/-- The pooled feature row: at every point the block is the whole array. -/
theorem iblk1_whole_9 (c : Dev nD) (t : Fin cfg1.N) : iblk1 V c 9 t = V c main_v8 := by
  unfold iblk1
  funext j
  show V c main_v8 (((cfg1.win 9).blk t).view.emb j) = V c main_v8 j
  refine congrArg (V c main_v8) (funext fun a => Fin.ext ?_)
  obtain ⟨-, -, -, -, -, -, -, -, -, ⟨e0, e1⟩, -⟩ := idx_facts1 t
  match a with
  | ⟨0, _⟩ => show win1_9.index t (0 : Fin 2) * 1 + 1 * (j 0).val = (j 0).val; rw [e0]; omega
  | ⟨1, _⟩ => show win1_9.index t (1 : Fin 2) * 512 + 1 * (j 1).val = (j 1).val; rw [e1]; omega

/-- The pooled layer's weight: at every point the block is the whole array. -/
theorem iblk1_whole_10 (c : Dev nD) (t : Fin cfg1.N) : iblk1 V c 10 t = V c main_v16 := by
  unfold iblk1
  funext j
  show V c main_v16 (((cfg1.win 10).blk t).view.emb j) = V c main_v16 j
  refine congrArg (V c main_v16) (funext fun a => Fin.ext ?_)
  obtain ⟨-, -, -, -, -, -, -, -, -, -, ⟨e0, e1⟩, -⟩ := idx_facts1 t
  match a with
  | ⟨0, _⟩ => show win1_10.index t (0 : Fin 2) * 512 + 1 * (j 0).val = (j 0).val; rw [e0]; omega
  | ⟨1, _⟩ => show win1_10.index t (1 : Fin 2) * 512 + 1 * (j 1).val = (j 1).val; rw [e1]; omega

/-- The pooled layer's bias row: at every point the block is the whole array. -/
theorem iblk1_whole_11 (c : Dev nD) (t : Fin cfg1.N) : iblk1 V c 11 t = V c main_v20 := by
  unfold iblk1
  funext j
  show V c main_v20 (((cfg1.win 11).blk t).view.emb j) = V c main_v20 j
  refine congrArg (V c main_v20) (funext fun a => Fin.ext ?_)
  obtain ⟨-, -, -, -, -, -, -, -, -, -, -, ⟨e0, e1⟩, -⟩ := idx_facts1 t
  match a with
  | ⟨0, _⟩ => show win1_11.index t (0 : Fin 2) * 1 + 1 * (j 0).val = (j 0).val; rw [e0]; omega
  | ⟨1, _⟩ => show win1_11.index t (1 : Fin 2) * 512 + 1 * (j 1).val = (j 1).val; rw [e1]; omega

/-- The block of a_ud at point t, entry by entry. -/
theorem iblk1_ablk (c : Dev nD) (t : Fin cfg1.N) (y : S1024x2048.Idx) (j : S8192x8192.Idx)
    (h0 : (j 0).val = 1024 * (t.val / 4) + (y 0).val) (h1 : (j 1).val = 2048 * (t.val % 4) + (y 1).val) :
    iblk1 V c 0 t y = V c main_arg2 j := by
  unfold iblk1
  show V c main_arg2 (((cfg1.win 0).blk t).view.emb y) = V c main_arg2 j
  refine congrArg (V c main_arg2) (funext fun a => Fin.ext ?_)
  obtain ⟨⟨e0, e1⟩, -⟩ := idx_facts1 t
  match a with
  | ⟨0, _⟩ => show win1_0.index t (0 : Fin 2) * 1024 + 1 * (y 0).val = (j 0).val; rw [e0, h0]; omega
  | ⟨1, _⟩ => show win1_0.index t (1 : Fin 2) * 2048 + 1 * (y 1).val = (j 1).val; rw [e1, h1]; omega

/-- The block of a_lr at point t, entry by entry. -/
theorem iblk1_ablk' (c : Dev nD) (t : Fin cfg1.N) (y : S1024x2048.Idx) (j : S8192x8192.Idx)
    (h0 : (j 0).val = 1024 * (t.val / 4) + (y 0).val) (h1 : (j 1).val = 2048 * (t.val % 4) + (y 1).val) :
    iblk1 V c 1 t y = V c main_arg3 j := by
  unfold iblk1
  show V c main_arg3 (((cfg1.win 1).blk t).view.emb y) = V c main_arg3 j
  refine congrArg (V c main_arg3) (funext fun a => Fin.ext ?_)
  obtain ⟨-, ⟨e0, e1⟩, -⟩ := idx_facts1 t
  match a with
  | ⟨0, _⟩ => show win1_1.index t (0 : Fin 2) * 1024 + 1 * (y 0).val = (j 0).val; rw [e0, h0]; omega
  | ⟨1, _⟩ => show win1_1.index t (1 : Fin 2) * 2048 + 1 * (y 1).val = (j 1).val; rw [e1, h1]; omega

end Region1Blocks

/-- Where an entry of the result's block at point t sits in the result array. -/
theorem blk12_emb (t : Fin cfg1.N) (y : S1024x512.Idx) :
    ((((cfg1.win 12).blk t).view.emb y) 0).val = 1024 * (t.val / 4) + (y 0).val
      ∧ ((((cfg1.win 12).blk t).view.emb y) 1).val = (y 1).val := by
  obtain ⟨-, -, -, -, -, -, -, -, -, -, -, -, ⟨e0, e1⟩⟩ := idx_facts1 t
  constructor
  · show win1_12.index t (0 : Fin 2) * 1024 + 1 * (y 0).val = _; rw [e0]; omega
  · show win1_12.index t (1 : Fin 2) * 512 + 1 * (y 1).val = _; rw [e1]; omega

end Cert.KernelIdeal.Gen

end
-- ==== Proof.KI.Val1Rows.lean ====
/-
  The two row ranges of the flattened activations the second kernel's body loads from its whole-staged operand, as
  coordinates: at grid point t = 4 i + k the rows 2048 k … 2048 k + 2047 (the block the accumulation step multiplies
  by) and, at the last column block, the rows 1024 i … 1024 i + 1023 (the block's own rows). Entry (y0, y1) of either
  load is entry (offset + y0, y1) of the array as the region finds it.
-/
import proofs.«171332_j72834055406175_2_alg».proof.Proof.KI.Val1Blocks

set_option maxRecDepth 16384

noncomputable section

namespace Cert.KernelIdeal.Gen

open Idealize.ShloMosaic Idealize.ShloMosaic.TcCoe
open Idealize.SL Idealize.SL.Sem
open Idealize.ShloMosaic.Pipeline (Dat Cfg Window)

variable {F : FTy → Type} [FloatOps F]

/-- The two coordinates of grid point t: the row block t / 4 and the column block t mod 4. -/
theorem coords1 : ∀ t : Fin cfg1.N, (grid1.coords t 0).val = t.val / 4 ∧ (grid1.coords t 1).val = t.val % 4 :=
  (by decide +kernel : ∀ t : Fin grid1.N, _)

section Region1Rows

variable (V : (c : Dev nD) → (b : Ref sig .tc) → Buf (Elt F) ((c : Thread nD τ).loc b))

/-- The rows the accumulation step at point t multiplies by: rows 2048 (t mod 4) … of the array. -/
theorem xrowsK_apply (c : Dev nD) (t : Fin cfg1.N) (y : S2048x512.Idx) (j : S8192x512.Idx)
    (h0 : (j 0).val = 2048 * (t.val % 4) + (y 0).val) (h1 : (j 1).val = (y 1).val) :
    View.ld (iblk1 V c 2 t) (Rect.unit (s := S8192x512) (k1_off1 (grid1.coords t)) S2048x512.size (k1_off1_inb (grid1.coords t))) y
      = V c main_v1 j := by
  show (iblk1 V c 2 t) ((Rect.unit (s := S8192x512) (k1_off1 (grid1.coords t)) S2048x512.size (k1_off1_inb (grid1.coords t))).emb y) = _
  rw [iblk1_whole_2]
  refine congrArg (V c main_v1) (funext fun a => Fin.ext ?_)
  obtain ⟨g0, g1⟩ := coords1 t
  have ho := k1_off1_eq (grid1.coords t)
  rw [Rect.emb_apply]
  match a with
  | ⟨0, _⟩ =>
    show k1_off1 (grid1.coords t) 0 + 1 * (y 0).val = (j 0).val
    rw [ho]
    show 2048 * (grid1.coords t 1).val + 1 * (y 0).val = (j 0).val
    rw [g1, h0]; omega
  | ⟨1, _⟩ =>
    show k1_off1 (grid1.coords t) 1 + 1 * (y 1).val = (j 1).val
    rw [ho]
    show 0 + 1 * (y 1).val = (j 1).val
    rw [h1]; omega

/-- The block's own rows, loaded at the last column block: rows 1024 (t / 4) … of the array. -/
theorem xrowsI_apply (c : Dev nD) (t : Fin cfg1.N) (hc1 : cond1_1 (grid1.coords t)) (y : S1024x512.Idx) (j : S8192x512.Idx)
    (h0 : (j 0).val = 1024 * (t.val / 4) + (y 0).val) (h1 : (j 1).val = (y 1).val) :
    View.ld (iblk1 V c 2 t) (Rect.unit (s := S8192x512) (k1_off2 (grid1.coords t)) S1024x512.size (k1_off2_inb (grid1.coords t) hc1)) y
      = V c main_v1 j := by
  show (iblk1 V c 2 t) ((Rect.unit (s := S8192x512) (k1_off2 (grid1.coords t)) S1024x512.size (k1_off2_inb (grid1.coords t) hc1)).emb y) = _
  rw [iblk1_whole_2]
  refine congrArg (V c main_v1) (funext fun a => Fin.ext ?_)
  obtain ⟨g0, g1⟩ := coords1 t
  have ho := k1_off2_eq (grid1.coords t)
  rw [Rect.emb_apply]
  match a with
  | ⟨0, _⟩ =>
    show k1_off2 (grid1.coords t) 0 + 1 * (y 0).val = (j 0).val
    rw [ho]
    show 1024 * (grid1.coords t 0).val + 1 * (y 0).val = (j 0).val
    rw [g0, h0]; omega
  | ⟨1, _⟩ =>
    show k1_off2 (grid1.coords t) 1 + 1 * (y 1).val = (j 1).val
    rw [ho]
    show 0 + 1 * (y 1).val = (j 1).val
    rw [h1]; omega

end Region1Rows

end Cert.KernelIdeal.Gen

end
-- ==== Proof.KI.Val1Cover.lean ====
/-
  The second kernel's result window covers its array. The result [8192, 512] is written back in blocks of
  [1024, 512], one per row block, at the last column block of each (the points t with t mod 4 = 3). Row r lies in the
  block of row block r / 1024, written back at point 4 (r / 1024) + 3; so every entry is in some written-back block.
-/
import proofs.«171332_j72834055406175_2_alg».proof.Proof.KI.Val1Blocks
import proofs.«171332_j72834055406175_2_alg».proof.Proof.Gen.KernelIdeal.Points

set_option maxRecDepth 16384

noncomputable section

namespace Cert.KernelIdeal.Gen

open Idealize.ShloMosaic Idealize.ShloMosaic.TcCoe
open Idealize.SL Idealize.SL.Sem
open Idealize.ShloMosaic.Pipeline (Dat Cfg Window)

/-- An entry of the result array is in point t's block iff each coordinate is in the block's range on its axis. -/
theorem mem_blk1_12 (t : Fin cfg1.N) (j : S8192x512.Idx) :
    j ∈ ((cfg1.win 12).blk t).view.set ↔ ∀ a : Fin 2, win1_12.index t a * S1024x512.size a ≤ (j a).val ∧ (j a).val < win1_12.index t a * S1024x512.size a + S1024x512.size a := by
  show j ∈ ((View.whole main_v21).slice (win1_12.rect t)).set ↔ _
  rw [View.set_slice_whole, Rect.mem_set_unit]
  exact Iff.rfl

/-- Every entry of the result array is in the block of a point that writes its block back. -/
theorem covered1_12 (j : S8192x512.Idx) : ∃ t : Fin cfg1.N, (cfg1.win 12).flush t = true ∧ j ∈ ((cfg1.win 12).blk t).view.set := by
  have hj0 : (j 0).val < 8192 := (j 0).isLt
  have hj1 : (j 1).val < 512 := (j 1).isLt
  obtain ⟨t, ht⟩ : ∃ t : Fin cfg1.N, t.val = 4 * ((j 0).val / 1024) + 3 :=
    ⟨⟨4 * ((j 0).val / 1024) + 3, by show 4 * ((j 0).val / 1024) + 3 < grid1.N; rw [N_1]; omega⟩, rfl⟩
  refine ⟨t, (flush1_12 t).2 (by omega), ?_⟩
  rw [mem_blk1_12]
  obtain ⟨-, -, -, -, -, -, -, -, -, -, -, -, ⟨e0, e1⟩⟩ := idx_facts1 t
  intro a
  match a with
  | ⟨0, _⟩ =>
    show win1_12.index t (0 : Fin 2) * 1024 ≤ (j 0).val ∧ (j 0).val < win1_12.index t (0 : Fin 2) * 1024 + 1024
    rw [e0]; omega
  | ⟨1, _⟩ =>
    show win1_12.index t (1 : Fin 2) * 512 ≤ (j 1).val ∧ (j 1).val < win1_12.index t (1 : Fin 2) * 512 + 512
    rw [e1]; omega

end Cert.KernelIdeal.Gen

end
-- ==== Proof.KI.Val1.lean ====
/-
  The second kernel's result array as a value, at the exact-real instance: every block of 1024 rows the kernel
  writes back is that block of the reference's rectified [8192, 512] stage. For the row block i the block is written
  at the grid point 4·i + 3, from the accumulators after four steps; the four adjacency blocks (i, 0 … 3) and the four
  row slices 2048·k … of the feature matrix are read off the arguments at their coordinates, the weights and biases
  are whole, and the pooled feature is the first kernel's result; the value lemma for one block then gives the
  reference's entry at row 1024·i + p. The blocks with k = 3 tile the array, so the array is the reference's stage,
  and the last reshape is the same on both sides.
-/
import proofs.«171332_j72834055406175_2_alg».proof.Proof.KI.Val1Acc
import proofs.«171332_j72834055406175_2_alg».proof.Proof.KI.Val1Blocks
import proofs.«171332_j72834055406175_2_alg».proof.Proof.KI.Val1Rows
import proofs.«171332_j72834055406175_2_alg».proof.Proof.KI.Val1Cover
import proofs.«171332_j72834055406175_2_alg».proof.Proof.KI.Val0
import proofs.«171332_j72834055406175_2_alg».proof.Proof.KI.Results
import proofs.«171332_j72834055406175_2_alg».proof.Proof.ValMain
import Idealize.ShloMosaic.Lib.Pipeline.Value

set_option maxRecDepth 16384

noncomputable section

namespace Cert.Bridge

open Idealize.ShloMosaic Idealize.ShloMosaic.TcCoe Idealize.SL.Sem Cert.KernelIdeal Cert.KernelIdeal.Gen
open Idealize.ShloMosaic.Pipeline (Dat)

section Block

variable (V : (c : Dev nD) → (b : Ref sig .tc) → Buf (Elt Ideal) ((c : Thread nD τ).loc b)) (c : Dev nD)

theorem three_lt_four : 3 < 4 := by decide

set_option maxHeartbeats 1000000 in
/-- One entry of the block the point 4·i + 3 leaves in the output window: the reference's rectified stage at
    row 1024·i + p. -/
theorem outBlock_value (x0 : Vec Ideal S128x64x512 .f32) (x1 : Vec Ideal S8192 .f32) (x2 x3 : Vec Ideal S8192x8192 .f32)
    (x4 : Vec Ideal S512x512 .f32) (x5 : Vec Ideal S512 .f32) (x6 : Vec Ideal S512x512 .f32) (x7 : Vec Ideal S512 .f32)
    (x8 : Vec Ideal S512x512 .f32) (x9 : Vec Ideal S512 .f32) (x10 : Vec Ideal S512x512 .f32) (x11 : Vec Ideal S512 .f32)
    (x12 : Vec Ideal S512x512 .f32) (x13 : Vec Ideal S512 .f32)
    (hA2 : V c main_arg2 = x2) (hA3 : V c main_arg3 = x3) (hX : V c main_v1 = opX x0)
    (hW4 : V c main_v10 = opW x4) (hB5 : V c main_v17 = opB x5) (hW6 : V c main_v12 = opW x6) (hB7 : V c main_v18 = opB x7)
    (hW8 : V c main_v14 = opW x8) (hB9 : V c main_v19 = opB x9)
    (hHg : V c main_v8 = k0_pay1 (F := Ideal) (opX x0) (opW x10) (opB x11) (opM x1) (opN x1))
    (hW12 : V c main_v16 = opW x12) (hB13 : V c main_v20 = opB x13)
    (i : Fin 8) (y : S1024x512.Idx) (j : S8192x512.Idx)
    (hj0 : (j 0).val = 1024 * i.val + (y 0).val) (hj1 : (j 1).val = (y 1).val) :
    (outsAt1 V c (pt i 3 three_lt_four).val (pt i 3 three_lt_four).isLt).1 y
      = Cert.ReferenceIdeal.Read.val_main_v37 (F := Ideal) x0 x1 x2 x3 x4 x5 x6 x7 x8 x9 x10 x11 x12 x13 j := by
  have hi := i.isLt
  rw [outBlock_eq, aUd_two, aLr_two]
  rw [iblk1_whole_3, iblk1_whole_4, iblk1_whole_5, iblk1_whole_6, iblk1_whole_7, iblk1_whole_8, iblk1_whole_9, iblk1_whole_10, iblk1_whole_11,
    hW4, hB5, hW6, hB7, hW8, hB9, hHg, hW12, hB13]
  exact main_value x0 x1 x2 x3 x4 x5 x6 x7 x8 x9 x10 x11 x12 x13 i
    (fun k => iblk1 V c 0 (pt i k.val k.isLt)) (fun k => iblk1 V c 1 (pt i k.val k.isLt))
    (fun k => xrowsK V c (pt i k.val k.isLt)) (xrowsI V c (pt i 3 three_lt_four) (lastPt_cond i))
    (k0_pay1 (F := Ideal) (opX x0) (opW x10) (opB x11) (opM x1) (opN x1))
    (fun k y j h0 h1 => (iblk1_ablk V c (pt i k.val k.isLt) y j
        (by have := k.isLt; show (j 0).val = 1024 * ((4 * i.val + k.val) / 4) + (y 0).val; omega)
        (by have := k.isLt; show (j 1).val = 2048 * ((4 * i.val + k.val) % 4) + (y 1).val; omega)).trans (congrFun hA2 j))
    (fun k y j h0 h1 => (iblk1_ablk' V c (pt i k.val k.isLt) y j
        (by have := k.isLt; show (j 0).val = 1024 * ((4 * i.val + k.val) / 4) + (y 0).val; omega)
        (by have := k.isLt; show (j 1).val = 2048 * ((4 * i.val + k.val) % 4) + (y 1).val; omega)).trans (congrFun hA3 j))
    (fun k y j h0 h1 => (xrowsK_apply V c (pt i k.val k.isLt) y j
        (by have := k.isLt; show (j 0).val = 2048 * ((4 * i.val + k.val) % 4) + (y 0).val; omega) h1).trans (congrFun hX j))
    (fun y j h0 h1 => (xrowsI_apply V c (pt i 3 three_lt_four) (lastPt_cond i) y j
        (by show (j 0).val = 1024 * ((4 * i.val + 3) / 4) + (y 0).val; omega) h1).trans (congrFun hX j))
    rfl y j hj0 hj1

set_option maxHeartbeats 400000 in
/-- What the point 4·i + 3 writes back is block i of the reference's rectified stage, when the region finds the
    adjacency matrices, the cast feature matrix, the transposed weights, the bias rows and the pooled feature in its
    operands' buffers. -/
theorem flushed1_12_eq (x0 : Vec Ideal S128x64x512 .f32) (x1 : Vec Ideal S8192 .f32) (x2 x3 : Vec Ideal S8192x8192 .f32)
    (x4 : Vec Ideal S512x512 .f32) (x5 : Vec Ideal S512 .f32) (x6 : Vec Ideal S512x512 .f32) (x7 : Vec Ideal S512 .f32)
    (x8 : Vec Ideal S512x512 .f32) (x9 : Vec Ideal S512 .f32) (x10 : Vec Ideal S512x512 .f32) (x11 : Vec Ideal S512 .f32)
    (x12 : Vec Ideal S512x512 .f32) (x13 : Vec Ideal S512 .f32)
    (hA2 : V c main_arg2 = x2) (hA3 : V c main_arg3 = x3) (hX : V c main_v1 = opX x0)
    (hW4 : V c main_v10 = opW x4) (hB5 : V c main_v17 = opB x5) (hW6 : V c main_v12 = opW x6) (hB7 : V c main_v18 = opB x7)
    (hW8 : V c main_v14 = opW x8) (hB9 : V c main_v19 = opB x9)
    (hHg : V c main_v8 = k0_pay1 (F := Ideal) (opX x0) (opW x10) (opB x11) (opM x1) (opN x1))
    (hW12 : V c main_v16 = opW x12) (hB13 : V c main_v20 = opB x13)
    (t : Fin cfg1.N) (hf : (cfg1.win 12).flush t = true) :
    (dat1 V c).flushed 12 t
      = ((cfg1.win 12).blk t).view.read (Elt Ideal) (Cert.ReferenceIdeal.Read.val_main_v37 (F := Ideal) x0 x1 x2 x3 x4 x5 x6 x7 x8 x9 x10 x11 x12 x13) := by
  have h3 : t.val % 4 = 3 := (flush1_12 t).mp hf
  have hN : t.val < 32 := lt_of_lt_of_eq t.isLt (show cfg1.N = 32 from N_1)
  have hex : ∃ i : Fin 8, t = pt i 3 three_lt_four :=
    ⟨⟨t.val / 4, by omega⟩, Fin.ext (by show t.val = 4 * (t.val / 4) + 3; omega)⟩
  obtain ⟨i, rfl⟩ := hex
  have hi := i.isLt
  show (cfg1.win 12).cut (grid1.coords (pt i 3 three_lt_four)) ((dat1 V c).after 12 (pt i 3 three_lt_four)) = _
  rw [after1_12]
  funext y
  have he := blk12_emb (pt i 3 three_lt_four) y
  exact outBlock_value V c x0 x1 x2 x3 x4 x5 x6 x7 x8 x9 x10 x11 x12 x13 hA2 hA3 hX hW4 hB5 hW6 hB7 hW8 hB9 hHg hW12 hB13 i y
    ((((cfg1.win 12).blk (pt i 3 three_lt_four)).view.emb y : S8192x512.Idx))
    (he.1.trans (by show 1024 * ((4 * i.val + 3) / 4) + (y 0).val = 1024 * i.val + (y 0).val; omega)) he.2

/-- The blocks written back tile the array: after the region it is the reference's rectified stage. -/
theorem final_out (x0 : Vec Ideal S128x64x512 .f32) (x1 : Vec Ideal S8192 .f32) (x2 x3 : Vec Ideal S8192x8192 .f32)
    (x4 : Vec Ideal S512x512 .f32) (x5 : Vec Ideal S512 .f32) (x6 : Vec Ideal S512x512 .f32) (x7 : Vec Ideal S512 .f32)
    (x8 : Vec Ideal S512x512 .f32) (x9 : Vec Ideal S512 .f32) (x10 : Vec Ideal S512x512 .f32) (x11 : Vec Ideal S512 .f32)
    (x12 : Vec Ideal S512x512 .f32) (x13 : Vec Ideal S512 .f32)
    (hA2 : V c main_arg2 = x2) (hA3 : V c main_arg3 = x3) (hX : V c main_v1 = opX x0)
    (hW4 : V c main_v10 = opW x4) (hB5 : V c main_v17 = opB x5) (hW6 : V c main_v12 = opW x6) (hB7 : V c main_v18 = opB x7)
    (hW8 : V c main_v14 = opW x8) (hB9 : V c main_v19 = opB x9)
    (hHg : V c main_v8 = k0_pay1 (F := Ideal) (opX x0) (opW x10) (opB x11) (opM x1) (opN x1))
    (hW12 : V c main_v16 = opW x12) (hB13 : V c main_v20 = opB x13) :
    (dat1 V c).arrAt 12 cfg1.N = Cert.ReferenceIdeal.Read.val_main_v37 (F := Ideal) x0 x1 x2 x3 x4 x5 x6 x7 x8 x9 x10 x11 x12 x13 :=
  (dat1 V c).arrAt_eq_of_cover 12 _
    (fun t hf => flushed1_12_eq V c x0 x1 x2 x3 x4 x5 x6 x7 x8 x9 x10 x11 x12 x13 hA2 hA3 hX hW4 hB5 hW6 hB7 hW8 hB9 hHg hW12 hB13 t hf)
    (fun j => covered1_12 j)

end Block

/-! ## At the program's own buffers -/

section Run

variable (m : (ℓ : Loc nD τ sig) → Buf (Elt Ideal) ℓ) (ρ : Dev nD → PrngReg)

/-- The kernel program's first result, after its last reshape, is the reference's first result of the same
    arguments. -/
theorem kernel_v22 (c : Dev nD) :
    Cert.Proof.KernelIdealResults.result22 (F := Ideal) m ρ c
      = Cert.ReferenceIdeal.Read.val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  show shapeCast S128x64x512 ((dat1 (Vin1 m ρ) c).arrAt 12 cfg1.N) shapeCasts_S8192x512_S128x64x512 = _
  rw [final_out (Vin1 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
    (Vin1_main_arg2 m ρ c) (Vin1_main_arg3 m ρ c) ((Vin1_main_v1 m ρ c).trans (Vin0_main_v1 m ρ c))
    (Vin1_main_v10 m ρ c) (Vin1_main_v17 m ρ c) (Vin1_main_v12 m ρ c) (Vin1_main_v18 m ρ c)
    (Vin1_main_v14 m ρ c) (Vin1_main_v19 m ρ c)
    ((Vin1_main_v8 m ρ c).trans ((final_hg (Vin0 m ρ) c).trans (by
      rw [Vin0_main_v1, Vin0_main_v6, Vin0_main_v7, Vin0_main_v2, Vin0_main_v4])))
    (Vin1_main_v16 m ρ c) (Vin1_main_v20 m ρ c)]
  rfl

end Run

end Cert.Bridge

end
-- ==== Proof.lean ====
/-
  A two-kernel graph layer against its plain reference, N = 8192 nodes, 512 features in and out.

  Both programs compute, from the node features X (the input reshaped to [8192, 512]), a mask, two dense adjacency
  matrices A_ud, A_lr and five dense layers (W, b), (W_ud, b_ud), (W_lr, b_lr), (W_g, b_g), (W_go, b_go):
      h_g = (mask · relu(X·W_gᵀ + b_g)) / Σ mask                                                   [1, 512]
      out = relu( ((X·Wᵀ + b) + ((A_ud·X)·W_udᵀ + b_ud)) + ((A_lr·X)·W_lrᵀ + b_lr) + (h_g·W_goᵀ + b_go) )      [8192, 512]
  and return out reshaped to [128, 64, 512], and h_g.

  The kernel program computes h_g in a first kernel on one grid point, all operands staged whole, and out in a second
  kernel on a grid of 8 row blocks by 4 column blocks: at the point (i, k) it adds A_ud(i, k)·X_k and A_lr(i, k)·X_k (X_k
  the rows 2048·k … of X) into two accumulators it clears at k = 0 and keeps in scratch memory between points, and at
  k = 3 it forms the 1024 output rows of block i from the accumulators. With floats read as extended reals and every
  operation exact, a change of float format is the identity, and the two programs differ only in how the sums over the
  8192 neighbours are grouped: four partial sums of 2048 terms added in turn from zero, against one sum. Addition of
  extended reals is commutative and associative, so the two agree at every input, finite or not; the precondition is
  never used.

  The proof. Each kernel's body is run symbolically, once per way through its branches; the runs give, point by point,
  what the accumulators and the output window hold, and the two regions and the three stretches of host operations
  between them compose into one run of the whole program that ends with every buffer at a named value: the arguments
  as launched (the frame of the kernel program, at the word-level instance and at the exact one, by the same text), the
  first kernel's result array, and the second's reshaped. At the exact instance the first is the reference's pooled
  feature; every block the second kernel writes back is that block of the reference's rectified stage (the
  accumulators unrolled over the four points, each adjacency block and each slice of X read at its coordinates in the
  arguments, the four partial sums regrouped into the one), and the blocks with k = 3 tile the array. The reference's own
  run and its stages read at an index are generated modules this proof imports. The idealization rewrote no operation,
  so nothing is to be preserved.
-/
import proofs.«171332_j72834055406175_2_alg».proof.Defs
import proofs.«171332_j72834055406175_2_alg».proof.Proof.KI.Claims
import proofs.«171332_j72834055406175_2_alg».proof.Proof.Assemble
import proofs.«171332_j72834055406175_2_alg».proof.Proof.KI.Val1

noncomputable section

namespace Cert.Proof

open Idealize.ShloMosaic Idealize.SL.Sem

/-- The certificate: the three frames, the (empty) idealization ledger, and the equality of the two idealized
    programs' results. -/
theorem claim : Cert.Claim :=
  ⟨Cert.Kernel.Gen.facts, Cert.KernelIdeal.Gen.facts, Cert.ReferenceIdeal.Gen.facts, Cert.Pre_finite_inputs.Gen.facts,
    Cert.Proof.Frames.frame_Kernel, Cert.Proof.Frames.frame_KernelIdeal, Cert.Proof.Assemble.frame_ReferenceIdeal, trivial,
    Cert.Proof.Assemble.algebraic_of Cert.Bridge.kernel_v22⟩

end Cert.Proof

end
